-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216 : Shape := ⟨1, ![16777216]⟩
abbrev S_ : Shape := ⟨0, ![]⟩

class Facts : Prop where
  bcast_S_S16777216 : S_.BroadcastsInDim S16777216 (![] : Fin 0 → Fin S16777216.rank)
  reducesTo_S16777216_S_d0 : S16777216.ReducesTo [0] S_
  h_S_ : 0 < S_.numel

variable [Facts]

def fn {F : FTy → Type} [FloatOps F] (main_arg0 : FVec F S16777216 .f32) (main_arg1 : FVec F S16777216 .f32) : IVec S_ 1 :=
  let main_v0 : FVec F S16777216 .f32 := Host.absf main_arg0
  let main_cst : FVec F S_ .f32 := constant S_ .f32 0x7F800000#32
  let main_v1 : FVec F S16777216 .f32 := broadcastInDim S16777216 ![] bcast_S_S16777216 main_cst
  let main_v2 : IVec S16777216 1 := cmpf .olt main_v0 main_v1
  let main_c : IVec S_ 1 := constantI S_ 1 1#1
  let main_v3 : IVec S_ 1 := (fun x v => Host.reduce IntOp.andi x v reducesTo_S16777216_S_d0 h_S_) main_v2 main_c
  let main_v4 : FVec F S16777216 .f32 := Host.absf main_arg1
  let main_cst_0 : FVec F S_ .f32 := constant S_ .f32 0x7F800000#32
  let main_v5 : FVec F S16777216 .f32 := broadcastInDim S16777216 ![] bcast_S_S16777216 main_cst_0
  let main_v6 : IVec S16777216 1 := cmpf .olt main_v4 main_v5
  let main_c_1 : IVec S_ 1 := constantI S_ 1 1#1
  let main_v7 : IVec S_ 1 := (fun x v => Host.reduce IntOp.andi x v reducesTo_S16777216_S_d0 h_S_) main_v6 main_c_1
  let main_v8 : IVec S_ 1 := andi main_v3 main_v7
  main_v8
-- ==== Kernel.lean ====
abbrev S16777216 : Shape := ⟨1, ![16777216]⟩
abbrev S2x65536x128 : Shape := ⟨3, ![2, 65536, 128]⟩
abbrev S2x5x8x128 : Shape := ⟨4, ![2, 5, 8, 128]⟩
abbrev S1x8192x128 : Shape := ⟨3, ![1, 8192, 128]⟩
abbrev S1x5x8x128 : Shape := ⟨4, ![1, 5, 8, 128]⟩
abbrev S8x128 : Shape := ⟨2, ![8, 128]⟩
abbrev S8192x128 : Shape := ⟨2, ![8192, 128]⟩
abbrev S1024x8x128 : Shape := ⟨3, ![1024, 8, 128]⟩
abbrev S1x1x8x128 : Shape := ⟨4, ![1, 1, 8, 128]⟩
abbrev S_ : Shape := ⟨0, ![]⟩
abbrev S2x5x8 : Shape := ⟨3, ![2, 5, 8]⟩
abbrev S2x5 : Shape := ⟨2, ![2, 5]⟩
abbrev S5 : Shape := ⟨1, ![5]⟩
abbrev S1 : Shape := ⟨1, ![1]⟩

abbrev nBuf : Space → Nat
  | .hbm => 77
  | .vmem => 11
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S2x65536x128, .f32⟩
  | .hbm, ⟨3, _⟩ => ⟨S2x65536x128, .f32⟩
  | .hbm, ⟨4, _⟩ => ⟨S2x5x8x128, .f32⟩
  | .hbm, ⟨5, _⟩ => ⟨S_, .f32⟩
  | .hbm, ⟨6, _⟩ => ⟨S2x5x8, .f32⟩
  | .hbm, ⟨7, _⟩ => ⟨S_, .f32⟩
  | .hbm, ⟨8, _⟩ => ⟨S2x5, .f32⟩
  | .hbm, ⟨9, _⟩ => ⟨S_, .f32⟩
  | .hbm, ⟨10, _⟩ => ⟨S5, .f32⟩
  | .hbm, ⟨11, _⟩ => ⟨S1, .f32⟩
  | .hbm, ⟨12, _⟩ => ⟨S_, .f32⟩
  | .hbm, ⟨13, _⟩ => ⟨S1, .f32⟩
  | .hbm, ⟨14, _⟩ => ⟨S_, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S1, .f32⟩
  | .local _ .vmem, ⟨0, _⟩ => ⟨S1x8192x128, .f32⟩
  | .local _ .vmem, ⟨1, _⟩ => ⟨S1x8192x128, .f32⟩
  | .local _ .vmem, ⟨2, _⟩ => ⟨S1x8192x128, .f32⟩
  | .local _ .vmem, ⟨3, _⟩ => ⟨S1x8192x128, .f32⟩
  | .local _ .vmem, ⟨4, _⟩ => ⟨S1x5x8x128, .f32⟩
  | .local _ .vmem, ⟨5, _⟩ => ⟨S1x5x8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | _, _ => ⟨S16777216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev main_v22 : Ref sig .tc := ⟨.hbm, 32, rfl⟩
abbrev main_cst_7 : Ref sig .tc := ⟨.hbm, 33, rfl⟩
abbrev main_cst_8 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_9 : Ref sig .tc := ⟨.hbm, 38, rfl⟩
abbrev main_v26 : Ref sig .tc := ⟨.hbm, 39, rfl⟩
abbrev main_v27 : Ref sig .tc := ⟨.hbm, 40, rfl⟩
abbrev main_cst_10 : Ref sig .tc := ⟨.hbm, 41, rfl⟩
abbrev main_cst_11 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_12 : Ref sig .tc := ⟨.hbm, 47, rfl⟩
abbrev main_v32 : Ref sig .tc := ⟨.hbm, 48, rfl⟩
abbrev main_cst_13 : Ref sig .tc := ⟨.hbm, 49, rfl⟩
abbrev main_v33 : Ref sig .tc := ⟨.hbm, 50, rfl⟩
abbrev main_cst_14 : Ref sig .tc := ⟨.hbm, 51, rfl⟩
abbrev main_v34 : Ref sig .tc := ⟨.hbm, 52, rfl⟩
abbrev main_cst_15 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_16 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_17 : Ref sig .tc := ⟨.hbm, 63, rfl⟩
abbrev main_cst_18 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_19 : Ref sig .tc := ⟨.hbm, 68, rfl⟩
abbrev main_v46 : Ref sig .tc := ⟨.hbm, 69, rfl⟩
abbrev main_v47 : Ref sig .tc := ⟨.hbm, 70, rfl⟩
abbrev main_cst_20 : Ref sig .tc := ⟨.hbm, 71, rfl⟩
abbrev main_v48 : Ref sig .tc := ⟨.hbm, 72, rfl⟩
abbrev main_v49 : Ref sig .tc := ⟨.hbm, 73, rfl⟩
abbrev main_cst_21 : Ref sig .tc := ⟨.hbm, 74, rfl⟩
abbrev main_v50 : Ref sig .tc := ⟨.hbm, 75, rfl⟩
abbrev main_v51 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v46 : BitVec 1 := Scalar.cmpi .eq arg1 c7_i32
  let v47 : BitVec 32 := Scalar.extui v46
  let c0_i32_32 : BitVec 32 := 0#32
  let v48 : BitVec 1 := Scalar.cmpi .ne v47 c0_i32_32
  v48

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x5x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16777216_S2x65536x128 : S16777216.ShapeCasts S2x65536x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  shapeCasts_S8192x128_S1024x8x128 : S8192x128.ShapeCasts S1024x8x128
  reduces_S1024x8x128_S8x128 : S1024x8x128.Reduces [0] S8x128
  inb_S1x5x8x128_S1x1x8x128_0_0_0_0 : ∀ a, (![0, 0, 0, 0] : Fin 4 → Nat) a + S1x1x8x128.size a ≤ S1x5x8x128.size a
  h_S1x1x8x128 : 0 < S1x1x8x128.numel
  shapeCasts_S1x1x8x128_S8x128 : S1x1x8x128.ShapeCasts S8x128
  shapeCasts_S8x128_S1x1x8x128 : S8x128.ShapeCasts S1x1x8x128
  inb_S1x5x8x128_S1x1x8x128_0_1_0_0 : ∀ a, (![0, 1, 0, 0] : Fin 4 → Nat) a + S1x1x8x128.size a ≤ S1x5x8x128.size a
  inb_S1x5x8x128_S1x1x8x128_0_2_0_0 : ∀ a, (![0, 2, 0, 0] : Fin 4 → Nat) a + S1x1x8x128.size a ≤ S1x5x8x128.size a
  inb_S1x5x8x128_S1x1x8x128_0_3_0_0 : ∀ a, (![0, 3, 0, 0] : Fin 4 → Nat) a + S1x1x8x128.size a ≤ S1x5x8x128.size a
  inb_S1x5x8x128_S1x1x8x128_0_4_0_0 : ∀ a, (![0, 4, 0, 0] : Fin 4 → Nat) a + S1x1x8x128.size a ≤ S1x5x8x128.size a
  reducesTo_S2x5x8x128_S2x5x8_d3 : S2x5x8x128.ReducesTo [3] S2x5x8
  h_S_ : 0 < S_.numel
  reducesTo_S2x5x8_S2x5_d2 : S2x5x8.ReducesTo [2] S2x5
  reducesTo_S2x5_S5_d0 : S2x5.ReducesTo [0] S5
  slices_S5_S1_0 : S5.Slices ![0] S1
  shapeCasts_S1_S_ : S1.ShapeCasts S_
  slices_S5_S1_1 : S5.Slices ![1] S1
  slices_S5_S1_2 : S5.Slices ![2] S1
  slices_S5_S1_3 : S5.Slices ![3] S1
  slices_S5_S1_4 : S5.Slices ![4] S1
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S2x65536x128.size a
  hwx0_0 : ∀ i : grid0.Coords, EltTy.bits .f32 = 32 ∨ (Rect.block (s := S2x65536x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x128.size a ≤ S2x65536x128.size a
  hwx0_1 : ∀ i : grid0.Coords, EltTy.bits .f32 = 32 ∨ (Rect.block (s := S2x65536x128) S1x8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5x8x128.size a ≤ S2x5x8x128.size a
  hwx0_2 : ∀ i : grid0.Coords, EltTy.bits .f32 = 32 ∨ (Rect.block (s := S2x5x8x128) S1x5x8x128.size (cc0_transform_2 i) (hinb0_2 i)).WholeWords (EltTy.packing .f32)

variable [Facts₀]

abbrev win0_0 : Pipeline.Window sig grid0 :=
  Pipeline.Window.ofSpec (Memref.whole main_v0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x5x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16777216 : Shape := ⟨1, ![16777216]⟩
abbrev S_ : Shape := ⟨0, ![]⟩
abbrev S1 : Shape := ⟨1, ![1]⟩

abbrev nBuf : Space → Nat
  | .hbm => 77
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S16777216, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S16777216, .f32⟩
  | .hbm, ⟨22, _⟩ => ⟨S16777216, .f32⟩
  | .hbm, ⟨23, _⟩ => ⟨S16777216, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .i32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S_, .f32⟩
  | .hbm, ⟨41, _⟩ => ⟨S1, .f32⟩
  | .hbm, ⟨42, _⟩ => ⟨S1, .f32⟩
  | .hbm, ⟨43, _⟩ => ⟨S16777216, .f32⟩
  | .hbm, ⟨44, _⟩ => ⟨S16777216, .f32⟩
  | .hbm, ⟨45, _⟩ => ⟨S16777216, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S16777216, .f32⟩
  | .hbm, ⟨59, _⟩ => ⟨S16777216, .f32⟩
  | .hbm, ⟨60, _⟩ => ⟨S16777216, .f32⟩
  | .hbm, ⟨61, _⟩ => ⟨S16777216, .f32⟩
  | .hbm, ⟨62, _⟩ => ⟨S16777216, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S1, .f32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_cst_3 : Ref sig .tc := ⟨.hbm, 10, rfl⟩
abbrev main_v4 : Ref sig .tc := ⟨.hbm, 11, rfl⟩
abbrev main_cst_4 : Ref sig .tc := ⟨.hbm, 12, rfl⟩
abbrev main_v5 : Ref sig .tc := ⟨.hbm, 13, rfl⟩
abbrev main_c : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_cst_0 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_cst_1 : Ref sig .tc := ⟨.hbm, 25, rfl⟩
abbrev main_call0_call0_v8 : Ref sig .tc := ⟨.hbm, 26, rfl⟩
abbrev main_call0_call0_cst_2 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_cst_3 : Ref sig .tc := ⟨.hbm, 30, rfl⟩
abbrev main_call0_call0_v11 : Ref sig .tc := ⟨.hbm, 31, rfl⟩
abbrev main_call0_call0_cst_4 : Ref sig .tc := ⟨.hbm, 32, rfl⟩
abbrev main_call0_call0_call0_v0 : Ref sig .tc := ⟨.hbm, 33, rfl⟩
abbrev main_call0_v0 : Ref sig .tc := ⟨.hbm, 34, rfl⟩
abbrev main_v6 : Ref sig .tc := ⟨.hbm, 35, rfl⟩
abbrev main_c_5 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_cst_0 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_cst_1 : Ref sig .tc := ⟨.hbm, 47, rfl⟩
abbrev main_call1_call0_v8 : Ref sig .tc := ⟨.hbm, 48, rfl⟩
abbrev main_call1_call0_cst_2 : Ref sig .tc := ⟨.hbm, 49, rfl⟩
abbrev main_call1_call0_v9 : Ref sig .tc := ⟨.hbm, 50, rfl⟩
abbrev main_call1_call0_v10 : Ref sig .tc := ⟨.hbm, 51, rfl⟩
abbrev main_call1_call0_cst_3 : Ref sig .tc := ⟨.hbm, 52, rfl⟩
abbrev main_call1_call0_v11 : Ref sig .tc := ⟨.hbm, 53, rfl⟩
abbrev main_call1_call0_cst_4 : Ref sig .tc := ⟨.hbm, 54, rfl⟩
abbrev main_call1_call0_call0_v0 : Ref sig .tc := ⟨.hbm, 55, rfl⟩
abbrev main_call1_v0 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_cst_6 : Ref sig .tc := ⟨.hbm, 63, rfl⟩
abbrev main_v13 : Ref sig .tc := ⟨.hbm, 64, rfl⟩
abbrev main_cst_7 : Ref sig .tc := ⟨.hbm, 65, rfl⟩
abbrev main_v14 : Ref sig .tc := ⟨.hbm, 66, rfl⟩
abbrev main_v15 : Ref sig .tc := ⟨.hbm, 67, rfl⟩
abbrev main_cst_8 : Ref sig .tc := ⟨.hbm, 68, rfl⟩
abbrev main_v16 : Ref sig .tc := ⟨.hbm, 69, rfl⟩
abbrev main_v17 : Ref sig .tc := ⟨.hbm, 70, rfl⟩
abbrev main_cst_9 : Ref sig .tc := ⟨.hbm, 71, rfl⟩
abbrev main_v18 : Ref sig .tc := ⟨.hbm, 72, rfl⟩
abbrev main_v19 : Ref sig .tc := ⟨.hbm, 73, rfl⟩
abbrev main_cst_10 : Ref sig .tc := ⟨.hbm, 74, rfl⟩
abbrev main_v20 : Ref sig .tc := ⟨.hbm, 75, rfl⟩
abbrev main_v21 : Ref sig .tc := ⟨.hbm, 76, rfl⟩

abbrev nD : Nat := 1
abbrev τ : Topo := Topo.v7x

variable {F : FTy → Type} [FloatOps F]

class Facts₀ : Prop where
  reducesTo_S16777216_S_d0 : S16777216.ReducesTo [0] S_
  h_S_ : 0 < S_.numel
  bcast_S_S1 : S_.BroadcastsInDim S1 (![] : Fin 0 → Fin S1.rank)
  bcast_S1_S16777216_0 : S1.BroadcastsInDim S16777216 (![0] : Fin 1 → Fin S16777216.rank)
  bcast_S_S16777216 : S_.BroadcastsInDim S16777216 (![] : Fin 0 → Fin S16777216.rank)
  shapeCasts_S_S1 : S_.ShapeCasts S1

variable [Facts₀]

class Facts : Prop extends Facts₀ where

variable [Facts]
-- ==== Proof.BitsCases.lean ====
/-
  The program around its one region, and the three kinds of grid point.

  The program reshapes each argument array to [2, 65536, 128], runs the region over the 2 × 8 grid, and then sums and
  combines the region's [2, 5, 8, 128] result with 72 scalar host operations.  A grid point (c, i) handles rows
  i·8192 … i·8192 + 8191 of slab c.  The body keeps five [8, 128] accumulators in scratch buffers between points:
  at i = 0 it zeroes them first (the FIRST kind of point), at every point it adds the point's partial sums, and at
  i = 7 it copies the five accumulators into the output block (the LAST kind); the points 0 < i < 7 are the MIDDLE
  kind.  The output window is idle, and not written back, except at the last kind of point.
  Here: the contents of the buffers when the region is entered, that the later host lines touch no window array and
  leave the arguments alone, the input blocks, the two branch conditions in closed form over the grid, and where the
  output window is idle.
-/
import proofs.«126519_j28741921145436_2_alg».proof.Proof.Gen.Kernel.Launch
import proofs.«126519_j28741921145436_2_alg».proof.Proof.Gen.Kernel.Skeleton
import proofs.«126519_j28741921145436_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option maxHeartbeats 40000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxRecDepth 65536 in
set_option maxHeartbeats 4000000 in
theorem hostOps1_fresh : (hostOps1 : List (HloOp τ sig (Elt F))).Forall fun op => op.fresh = ∅ := by
  simp only [List.Forall]; repeat' constructor

/-- The program is: the reshapes, the region, the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxRecDepth 65536 in
set_option maxHeartbeats 4000000 in
/-- Each later line writes its own result buffer, which is none of the three window arrays. -/
theorem hostOps1_keeps : (hostOps1 : List (HloOp τ sig (Elt F))).Forall fun op =>
    ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- The reshapes write neither argument array: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxRecDepth 65536 in
set_option maxHeartbeats 4000000 in
/-- No later line writes `main_arg0`. -/
theorem hostOps1_keeps_arg0 : (hostOps1 : List (HloOp τ sig (Elt F))).Forall fun op => Proc.devRef .tc main_arg0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxRecDepth 65536 in
set_option maxHeartbeats 4000000 in
/-- No later line writes `main_arg1`. -/
theorem hostOps1_keeps_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So both argument arrays end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [List.flatten_cons, List.flatten_nil, List.append_nil]; exact hostOps1_keeps_arg0)),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [List.flatten_cons, List.flatten_nil, List.append_nil]; exact hostOps1_keeps_arg1)),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions over the grid -/

/-- "This is the first row block of the slab" (`i = 0`), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the last row block of the slab" (`i = 7`). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S1x5x8x128 .f32 := (Memref.whole cc0_stg2_0 : Memref sig .tc .vmem S1x5x8x128 .f32).view
abbrev ms0_0 (t : Fin cfg0.N) : Memref sig .tc .vmem S1x8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5x8x128 .f32 := win0_2.stage (cfg0.slots t 2)
abbrev hs0_2 (t : Fin cfg0.N) : (ms0_2 t).IsWhole := hstage0_2 ((cfg0.slots t 2).cast nbuf0_2)
abbrev scM0_0 : Memref sig .tc .vmem S8x128 .f32 := Memref.whole cc0_scratch0
abbrev scM0_1 : Memref sig .tc .vmem S8x128 .f32 := Memref.whole cc0_scratch1
abbrev scM0_2 : Memref sig .tc .vmem S8x128 .f32 := Memref.whole cc0_scratch2
abbrev scM0_3 : Memref sig .tc .vmem S8x128 .f32 := Memref.whole cc0_scratch3
abbrev scM0_4 : Memref sig .tc .vmem S8x128 .f32 := Memref.whole cc0_scratch4
/-- One accumulator as a view: what it holds is stated through it (all five have the same shape). -/
abbrev VS0 : View sig .tc .vmem S8x128 .f32 := scM0_0.view

/-- What the region may use beside its windows: the five accumulators, each whole at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.BitsRunMid.lean ====
/-
  The body at a MIDDLE point (0 < i < 7): neither branch is taken.  On the two input blocks `x0 x1` and the five
  accumulators at `xs0 … xs4` it adds the point's partial sums into each accumulator and leaves the output
  buffer untouched.  What each accumulator ends with is recorded as the list of the stores made into it.
-/
import proofs.«126519_j28741921145436_2_alg».proof.Proof.BitsCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes at a middle point, with the proof that it runs to its end from the buffers described. -/
noncomputable def kernelRun0_B (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i)
    (x0 : Vec F S1x8192x128 .f32) (x1 : Vec F S1x8192x128 .f32) (xs0 : Vec F S8x128 .f32) (xs1 : Vec F S8x128 .f32) (xs2 : Vec F S8x128 .f32) (xs3 : Vec F S8x128 .f32) (xs4 : Vec F S8x128 .f32) :
    Σ' (L2 : List (View.Piece (Elt F) S1x5x8x128 .f32)) (LS0 : List (View.Piece (Elt F) S8x128 .f32)) (LS1 : List (View.Piece (Elt F) S8x128 .f32)) (LS2 : List (View.Piece (Elt F) S8x128 .f32)) (LS3 : List (View.Piece (Elt F) S8x128 .f32)), { LS4 : List (View.Piece (Elt F) S8x128 .f32) //
      ∀ (xi2 : Vec F S1x5x8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2 ∗ owns (c : Thread nD τ) arg8 fullShare xs3 ∗ owns (c : Thread nD τ) arg9 fullShare xs4
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3) ∗ (∃ f, arg9.view.loc (c : Thread nD τ) ↦[arg9.view.set]{fullShare} arg9.view.writes (Elt F) f LS4)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9) K } := by
  refine ⟨[], ?_, ?_, ?_, ?_, ?_, fun xi2 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2; obtain rfl := harg8.eq_unread hfs3; obtain rfl := harg9.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.BitsRunFirst.lean ====
/-
  The body at a FIRST point (i = 0): the zeroing branch is taken, the copying branch is not.  Whatever the five
  accumulators held, each is first stored zero and then stored zero plus the point's partial sum; the output buffer
  is left untouched.
-/
import proofs.«126519_j28741921145436_2_alg».proof.Proof.BitsRunMid

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes at a first point, with the proof that it runs to its end from the buffers described. -/
noncomputable def kernelRun0_A (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i)
    (x0 : Vec F S1x8192x128 .f32) (x1 : Vec F S1x8192x128 .f32) :
    Σ' (L2 : List (View.Piece (Elt F) S1x5x8x128 .f32)) (LS0 : List (View.Piece (Elt F) S8x128 .f32)) (LS1 : List (View.Piece (Elt F) S8x128 .f32)) (LS2 : List (View.Piece (Elt F) S8x128 .f32)) (LS3 : List (View.Piece (Elt F) S8x128 .f32)), { LS4 : List (View.Piece (Elt F) S8x128 .f32) //
      ∀ (xi2 : Vec F S1x5x8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3) ∗ (∃ f, arg9.view.loc (c : Thread nD τ) ↦[arg9.view.set]{fullShare} arg9.view.writes (Elt F) f LS4)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9) K } := by
  refine ⟨[], ?_, ?_, ?_, ?_, ?_, fun xi2 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.BitsRunLast.lean ====
/-
  The body at a LAST point (i = 7): the zeroing branch is not taken, the copying branch is.  The accumulators get
  the point's partial sums added, and then each is copied into its own [1, 1, 8, 128] slice of the output buffer,
  whose five slices tile it; what the output buffer held before does not matter.
-/
import proofs.«126519_j28741921145436_2_alg».proof.Proof.BitsRunFirst

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes at a last point, with the proof that it runs to its end from the buffers described. -/
noncomputable def kernelRun0_C (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 : Vec F S1x8192x128 .f32) (x1 : Vec F S1x8192x128 .f32) (xs0 : Vec F S8x128 .f32) (xs1 : Vec F S8x128 .f32) (xs2 : Vec F S8x128 .f32) (xs3 : Vec F S8x128 .f32) (xs4 : Vec F S8x128 .f32) :
    Σ' (L2 : List (View.Piece (Elt F) S1x5x8x128 .f32)) (LS0 : List (View.Piece (Elt F) S8x128 .f32)) (LS1 : List (View.Piece (Elt F) S8x128 .f32)) (LS2 : List (View.Piece (Elt F) S8x128 .f32)) (LS3 : List (View.Piece (Elt F) S8x128 .f32)), { LS4 : List (View.Piece (Elt F) S8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2 ∗ owns (c : Thread nD τ) arg8 fullShare xs3 ∗ owns (c : Thread nD τ) arg9 fullShare xs4
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3) ∗ (∃ f, arg9.view.loc (c : Thread nD τ) ↦[arg9.view.set]{fullShare} arg9.view.writes (Elt F) f LS4)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1
    obtain rfl := harg5.eq_unread hfs0; obtain rfl := harg6.eq_unread hfs1; obtain rfl := harg7.eq_unread hfs2; obtain rfl := harg8.eq_unread hfs3; obtain rfl := harg9.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    isplitl [HS2]; · iexists _; iexact HS2
    isplitl [HS3]; · iexists _; iexact HS3
    iexists _; iexact HS4

end Cert.Kernel.Hand

end
-- ==== Proof.BitsFrame.lean ====
/-
  The region's bookkeeping over the 16 grid points, and the program's run.

  After the point at position n the output buffer and the five accumulators hold what the kind of point n leaves
  (`outsAt0`): a first point starts from anything, a middle or last point from what the point before left in the
  accumulators.  Between points the region keeps the five accumulators at exactly those contents (`PhiS`); the two
  input windows hold their blocks; the output window is idle except at the last points, where its five slices are
  covered by the five copies.  With this the body is correct at every point, and the library's theorem for a region
  with host lines before and after it gives the program's run: it terminates, every window array ends at what the
  points wrote back, and every other buffer at what the later host lines compute.
-/
import proofs.«126519_j28741921145436_2_alg».proof.Proof.BitsRunLast

set_option maxRecDepth 16384
set_option maxHeartbeats 40000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five accumulators' contents. -/
abbrev Acc5 : Type := Vec F S8x128 .f32 × Vec F S8x128 .f32 × Vec F S8x128 .f32 × Vec F S8x128 .f32 × Vec F S8x128 .f32
/-- The output buffer's and the accumulators' contents. -/
abbrev St : Type := Vec F S1x5x8x128 .f32 × Acc5 (F := F)

/-- A list of stores into an accumulator read back as its contents. -/
def sread (L : List (View.Piece (Elt F) S8x128 .f32)) : Vec F S8x128 .f32 := VS0.read (Elt F) (VS0.writes (Elt F) VS0.junk L)
/-- A list of stores into the output buffer read back as its contents. -/
def oread (L : List (View.Piece (Elt F) S1x5x8x128 .f32)) : Vec F S1x5x8x128 .f32 := VO0_2.read (Elt F) (VO0_2.writes (Elt F) VO0_2.junk L)

/-! ## The stores of each kind of point cover what they are read back from -/

theorem scover0_A_0 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) (y : S8x128.Idx) :
    ∃ pc ∈ (kernelRun0_A c i arg2 harg2 arg3 harg3 arg4 harg4 arg5 harg5 arg6 harg6 arg7 harg7 arg8 harg8 arg9 harg9 hc0 hc1 x0 x1).2.1, y ∈ pc.1.set :=
  View.cover_of_tiledL (kernelRun0_A c i arg2 harg2 arg3 harg3 arg4 harg4 arg5 harg5 arg6 harg6 arg7 harg7 arg8 harg8 arg9 harg9 hc0 hc1 x0 x1).2.1 S8x128.size (by sl_kernel_rfl) y
theorem scover0_A_1 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) (y : S8x128.Idx) :
    ∃ pc ∈ (kernelRun0_A c i arg2 harg2 arg3 harg3 arg4 harg4 arg5 harg5 arg6 harg6 arg7 harg7 arg8 harg8 arg9 harg9 hc0 hc1 x0 x1).2.2.1, y ∈ pc.1.set :=
  View.cover_of_tiledL (kernelRun0_A c i arg2 harg2 arg3 harg3 arg4 harg4 arg5 harg5 arg6 harg6 arg7 harg7 arg8 harg8 arg9 harg9 hc0 hc1 x0 x1).2.2.1 S8x128.size (by sl_kernel_rfl) y
theorem scover0_A_2 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) (y : S8x128.Idx) :
    ∃ pc ∈ (kernelRun0_A c i arg2 harg2 arg3 harg3 arg4 harg4 arg5 harg5 arg6 harg6 arg7 harg7 arg8 harg8 arg9 harg9 hc0 hc1 x0 x1).2.2.2.1, y ∈ pc.1.set :=
  View.cover_of_tiledL (kernelRun0_A c i arg2 harg2 arg3 harg3 arg4 harg4 arg5 harg5 arg6 harg6 arg7 harg7 arg8 harg8 arg9 harg9 hc0 hc1 x0 x1).2.2.2.1 S8x128.size (by sl_kernel_rfl) y
theorem scover0_A_3 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) (y : S8x128.Idx) :
    ∃ pc ∈ (kernelRun0_A c i arg2 harg2 arg3 harg3 arg4 harg4 arg5 harg5 arg6 harg6 arg7 harg7 arg8 harg8 arg9 harg9 hc0 hc1 x0 x1).2.2.2.2.1, y ∈ pc.1.set :=
  View.cover_of_tiledL (kernelRun0_A c i arg2 harg2 arg3 harg3 arg4 harg4 arg5 harg5 arg6 harg6 arg7 harg7 arg8 harg8 arg9 harg9 hc0 hc1 x0 x1).2.2.2.2.1 S8x128.size (by sl_kernel_rfl) y
theorem scover0_A_4 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) (y : S8x128.Idx) :
    ∃ pc ∈ (kernelRun0_A c i arg2 harg2 arg3 harg3 arg4 harg4 arg5 harg5 arg6 harg6 arg7 harg7 arg8 harg8 arg9 harg9 hc0 hc1 x0 x1).2.2.2.2.2.1, y ∈ pc.1.set :=
  View.cover_of_tiledL (kernelRun0_A c i arg2 harg2 arg3 harg3 arg4 harg4 arg5 harg5 arg6 harg6 arg7 harg7 arg8 harg8 arg9 harg9 hc0 hc1 x0 x1).2.2.2.2.2.1 S8x128.size (by sl_kernel_rfl) y
theorem scover0_B_0 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) (y : S8x128.Idx) :
    ∃ pc ∈ (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.1, y ∈ pc.1.set :=
  View.cover_of_tiledL (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.1 S8x128.size (by sl_kernel_rfl) y
theorem scover0_B_1 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) (y : S8x128.Idx) :
    ∃ pc ∈ (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.1, y ∈ pc.1.set :=
  View.cover_of_tiledL (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.1 S8x128.size (by sl_kernel_rfl) y
theorem scover0_B_2 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) (y : S8x128.Idx) :
    ∃ pc ∈ (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.1, y ∈ pc.1.set :=
  View.cover_of_tiledL (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.1 S8x128.size (by sl_kernel_rfl) y
theorem scover0_B_3 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) (y : S8x128.Idx) :
    ∃ pc ∈ (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.1, y ∈ pc.1.set :=
  View.cover_of_tiledL (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.1 S8x128.size (by sl_kernel_rfl) y
theorem scover0_B_4 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) (y : S8x128.Idx) :
    ∃ pc ∈ (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.2.1, y ∈ pc.1.set :=
  View.cover_of_tiledL (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.2.1 S8x128.size (by sl_kernel_rfl) y
theorem scover0_C_0 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) (y : S8x128.Idx) :
    ∃ pc ∈ (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.1, y ∈ pc.1.set :=
  View.cover_of_tiledL (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.1 S8x128.size (by sl_kernel_rfl) y
theorem scover0_C_1 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) (y : S8x128.Idx) :
    ∃ pc ∈ (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.1, y ∈ pc.1.set :=
  View.cover_of_tiledL (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.1 S8x128.size (by sl_kernel_rfl) y
theorem scover0_C_2 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) (y : S8x128.Idx) :
    ∃ pc ∈ (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.1, y ∈ pc.1.set :=
  View.cover_of_tiledL (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.1 S8x128.size (by sl_kernel_rfl) y
theorem scover0_C_3 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) (y : S8x128.Idx) :
    ∃ pc ∈ (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.1 S8x128.size (by sl_kernel_rfl) y
theorem scover0_C_4 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) (y : S8x128.Idx) :
    ∃ pc ∈ (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.2.1 S8x128.size (by sl_kernel_rfl) y
/-- At a last point the five copies tile the output buffer. -/
theorem cover0_C_2 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) (y : S1x5x8x128.Idx) :
    ∃ pc ∈ (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).1, y ∈ pc.1.set :=
  View.cover_of_tiledL (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).1 S1x1x8x128.size (by sl_kernel_rfl) y

/-- What a first point leaves (the output buffer is not stored into: a placeholder nobody reads). -/
def stA (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) : St (F := F) :=
  (oread [], sread (kernelRun0_A c i arg2 harg2 arg3 harg3 arg4 harg4 arg5 harg5 arg6 harg6 arg7 harg7 arg8 harg8 arg9 harg9 hc0 hc1 x0 x1).2.1, sread (kernelRun0_A c i arg2 harg2 arg3 harg3 arg4 harg4 arg5 harg5 arg6 harg6 arg7 harg7 arg8 harg8 arg9 harg9 hc0 hc1 x0 x1).2.2.1, sread (kernelRun0_A c i arg2 harg2 arg3 harg3 arg4 harg4 arg5 harg5 arg6 harg6 arg7 harg7 arg8 harg8 arg9 harg9 hc0 hc1 x0 x1).2.2.2.1, sread (kernelRun0_A c i arg2 harg2 arg3 harg3 arg4 harg4 arg5 harg5 arg6 harg6 arg7 harg7 arg8 harg8 arg9 harg9 hc0 hc1 x0 x1).2.2.2.2.1, sread (kernelRun0_A c i arg2 harg2 arg3 harg3 arg4 harg4 arg5 harg5 arg6 harg6 arg7 harg7 arg8 harg8 arg9 harg9 hc0 hc1 x0 x1).2.2.2.2.2.1)
/-- What a middle point leaves, from the accumulators `s` the point before left. -/
def stB (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) : St (F := F) :=
  (oread [], sread (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.1, sread (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.1, sread (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.1, sread (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.1, sread (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.2.1)
/-- What a last point leaves, from the accumulators `s` the point before left. -/
def stC (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) : St (F := F) :=
  (oread (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).1, sread (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.1, sread (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.1, sread (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.1, sread (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.1, sread (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.2.1)

/-! ## What the buffers hold after each point -/

/-- By recursion on the position: positions ≡ 0 (mod 8) are first points, ≡ 7 last points, the others middle points. -/
def outsAt0 (c : Dev nD) : (n : ℕ) → n < cfg0.N → St (F := F)
  | 0, hn => stA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩)
  | n + 1, hn =>
    if h0 : (n + 1) % 8 = 0 then
      if h1 : (n + 1) % 8 = 7 then
        False.elim (by omega)
      else
        stA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩)
    else
      if h1 : (n + 1) % 8 = 7 then
        stC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2
      else
        stB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2

theorem outsAt0_A (c : Dev nD) (t : Fin cfg0.N) (h0 : t.val % 8 = 0) (h1 : ¬t.val % 8 = 7) :
    outsAt0 m c t.val t.isLt = stA c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = stB c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = stC c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- What the region keeps between points: before the first point the accumulators at anything; afterwards each at what
    the point before left in it; and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2.1) ∗ owns (c : Thread nD τ) scM0_4 fullShare ((outsAt0 m c (n - 1) (by omega)).2.2.2.2.2)) ∗ (∃ r, prngReg c r)) := by
  cases n with
  | zero => exact absurd rfl hz
  | succ n => rfl

/-! ## The region's proof data -/

/-- The arrays as the region finds them; after the body each input buffer at its block and the output buffer at
    `outsAt0`'s first component; between points `PhiS`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- The body at any point: the closed forms say which kind of point it is, and that kind's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_A m c t h0 h1]
      unfold stA sread; (try dsimp only)
      by_cases hz : t.val = 0
      · rw [PhiS_castSucc m c t, PhiS_zero m c _ _ hz, PhiA0_eq]
        iintro ⟨⟨⟨HS0, HS1, HS2, HS3, HS4⟩, Hg⟩, Ho, ⟨%d0, H0⟩, ⟨%d1, H1⟩, ⟨%d2, H2⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t)).2.2.2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        isplitl [HS3]; · iexact HS3
        isplitl [HS4]; · iexact HS4
        iintro ⟨H0, H1, H2, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨⟨HS0, HS1, HS2, HS3, HS4⟩, Hg⟩, Ho, ⟨%d0, H0⟩, ⟨%d1, H1⟩, ⟨%d2, H2⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t)).2.2.2.2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        isplitl [HS3]; · iexists _; iexact HS3
        isplitl [HS4]; · iexists _; iexact HS4
        iintro ⟨H0, H1, H2, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold stC sread oread; (try dsimp only)
      by_cases hz : t.val = 0
      · exfalso; omega
      · rw [PhiS_castSucc m c t, PhiS_pos m c _ _ hz]
        iintro ⟨⟨⟨HS0, HS1, HS2, HS3, HS4⟩, Hg⟩, Ho, ⟨%d0, H0⟩, ⟨%d1, H1⟩, ⟨%d2, H2⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) _ _ _ _ _).2.2.2.2.2.2 Set.univ _)
        isplitl [H0]; · iexact H0
        isplitl [H1]; · iexact H1
        isplitl [H2]; · iexists _; iexact H2
        isplitl [HS0]; · iexact HS0
        isplitl [HS1]; · iexact HS1
        isplitl [HS2]; · iexact HS2
        isplitl [HS3]; · iexact HS3
        isplitl [HS4]; · iexact HS4
        iintro ⟨H0, H1, ⟨%e2, H2⟩, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _)
            unfold owns; iexists _; isplitr
            swap; · iexact HS4
            ipureintro; exact View.read_writes_of_cover _ _ _ _ _ (scover0_C_4 c _ _ _ _ _ _ _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_B m c t h0 h1]
      unfold stB sread; (try dsimp only)
      by_cases hz : t.val = 0
      · exfalso; omega
      · rw [PhiS_castSucc m c t, PhiS_pos m c _ _ hz]
        iintro ⟨⟨⟨HS0, HS1, HS2, HS3, HS4⟩, Hg⟩, Ho, ⟨%d0, H0⟩, ⟨%d1, H1⟩, ⟨%d2, H2⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) _ _ _ _ _).2.2.2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        isplitl [HS3]; · iexact HS3
        isplitl [HS4]; · iexact HS4
        iintro ⟨H0, H1, H2, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _)
            unfold owns; iexists _; isplitr
            swap; · iexact HS4
            ipureintro; exact View.read_writes_of_cover _ _ _ _ _ (scover0_B_4 c _ _ _ _ _ _ _ _ _ _ _ _ _ _ _ _ _ _ _ _ _ _)
          iexact Hg
        isplitl [Ho]; · iexact Ho
        isplitl [H0]; · iexact H0
        isplitl [H1]; · iexact H1
        iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 16 := N_0; omega)

/-! ## The run -/

set_option backward.isDefEq.respectTransparency.types false in
/-- Every weakly fair execution of the program terminates; every window array ends at what the points wrote back, every
    other unscoped buffer at what the later host lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run read at the result and at the two arguments: the result is what the later host lines compute from the
    region's output array, and the arguments end as launched. -/
theorem run_result : θ_run defs (onTc (τ := τ) (main (F := F))) ⟨m, fun _ => 0, ρ⟩ (fun r => ∀ c : Dev nD,
      r.2.mem ((c.tc : Thread nD τ).loc main_v51) = Pipeline.afterTail₀ cfgs (dats m) 0 (V0 m) [hostOps1] c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v51 (Pipeline.mem_restRefs_of main_v51 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

/-- The frame: the program runs and leaves its two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.Kernel.Hand

end
-- ==== Proof.IdealCases.lean ====
/-
  The program around its one region, and the three kinds of grid point.

  The program reshapes each argument array to [2, 65536, 128], runs the region over the 2 × 8 grid, and then sums and
  combines the region's [2, 5, 8, 128] result with 72 scalar host operations.  A grid point (c, i) handles rows
  i·8192 … i·8192 + 8191 of slab c.  The body keeps five [8, 128] accumulators in scratch buffers between points:
  at i = 0 it zeroes them first (the FIRST kind of point), at every point it adds the point's partial sums, and at
  i = 7 it copies the five accumulators into the output block (the LAST kind); the points 0 < i < 7 are the MIDDLE
  kind.  The output window is idle, and not written back, except at the last kind of point.
  Here: the contents of the buffers when the region is entered, that the later host lines touch no window array and
  leave the arguments alone, the input blocks, the two branch conditions in closed form over the grid, and where the
  output window is idle.
-/
import proofs.«126519_j28741921145436_2_alg».proof.Proof.Gen.KernelIdeal.Launch
import proofs.«126519_j28741921145436_2_alg».proof.Proof.Gen.KernelIdeal.Skeleton
import proofs.«126519_j28741921145436_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option maxHeartbeats 40000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- Core `c`'s buffer contents when the region is entered: after the two reshapes. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxRecDepth 65536 in
set_option maxHeartbeats 4000000 in
theorem hostOps1_fresh : (hostOps1 : List (HloOp τ sig (Elt F))).Forall fun op => op.fresh = ∅ := by
  simp only [List.Forall]; repeat' constructor

/-- The program is: the reshapes, the region, the later host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

set_option maxRecDepth 65536 in
set_option maxHeartbeats 4000000 in
/-- Each later line writes its own result buffer, which is none of the three window arrays. -/
theorem hostOps1_keeps : (hostOps1 : List (HloOp τ sig (Elt F))).Forall fun op =>
    ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

/-- The reshapes write neither argument array: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxRecDepth 65536 in
set_option maxHeartbeats 4000000 in
/-- No later line writes `main_arg0`. -/
theorem hostOps1_keeps_arg0 : (hostOps1 : List (HloOp τ sig (Elt F))).Forall fun op => Proc.devRef .tc main_arg0 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
set_option maxRecDepth 65536 in
set_option maxHeartbeats 4000000 in
/-- No later line writes `main_arg1`. -/
theorem hostOps1_keeps_arg1 : (hostOps1 : List (HloOp τ sig (Elt F))).Forall fun op => Proc.devRef .tc main_arg1 ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- So both argument arrays end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [List.flatten_cons, List.flatten_nil, List.append_nil]; exact hostOps1_keeps_arg0)),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [List.flatten_cons, List.flatten_nil, List.append_nil]; exact hostOps1_keeps_arg1)),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions over the grid -/

/-- "This is the first row block of the slab" (`i = 0`), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- "This is the last row block of the slab" (`i = 7`). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_2 : View sig .tc .vmem S1x5x8x128 .f32 := (Memref.whole cc0_stg2_0 : Memref sig .tc .vmem S1x5x8x128 .f32).view
abbrev ms0_0 (t : Fin cfg0.N) : Memref sig .tc .vmem S1x8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x5x8x128 .f32 := win0_2.stage (cfg0.slots t 2)
abbrev hs0_2 (t : Fin cfg0.N) : (ms0_2 t).IsWhole := hstage0_2 ((cfg0.slots t 2).cast nbuf0_2)
abbrev scM0_0 : Memref sig .tc .vmem S8x128 .f32 := Memref.whole cc0_scratch0
abbrev scM0_1 : Memref sig .tc .vmem S8x128 .f32 := Memref.whole cc0_scratch1
abbrev scM0_2 : Memref sig .tc .vmem S8x128 .f32 := Memref.whole cc0_scratch2
abbrev scM0_3 : Memref sig .tc .vmem S8x128 .f32 := Memref.whole cc0_scratch3
abbrev scM0_4 : Memref sig .tc .vmem S8x128 .f32 := Memref.whole cc0_scratch4
/-- One accumulator as a view: what it holds is stated through it (all five have the same shape). -/
abbrev VS0 : View sig .tc .vmem S8x128 .f32 := scM0_0.view

/-- What the region may use beside its windows: the five accumulators, each whole at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Hand

end
-- ==== Proof.IdealRunMid.lean ====
/-
  The body at a MIDDLE point (0 < i < 7): neither branch is taken.  On the two input blocks `x0 x1` and the five
  accumulators at `xs0 … xs4` it adds the point's partial sums into each accumulator and leaves the output
  buffer untouched.  What each accumulator ends with is recorded as the list of the stores made into it.
-/
import proofs.«126519_j28741921145436_2_alg».proof.Proof.IdealCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes at a middle point, with the proof that it runs to its end from the buffers described. -/
noncomputable def kernelRun0_B (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i)
    (x0 : Vec F S1x8192x128 .f32) (x1 : Vec F S1x8192x128 .f32) (xs0 : Vec F S8x128 .f32) (xs1 : Vec F S8x128 .f32) (xs2 : Vec F S8x128 .f32) (xs3 : Vec F S8x128 .f32) (xs4 : Vec F S8x128 .f32) :
    Σ' (L2 : List (View.Piece (Elt F) S1x5x8x128 .f32)) (LS0 : List (View.Piece (Elt F) S8x128 .f32)) (LS1 : List (View.Piece (Elt F) S8x128 .f32)) (LS2 : List (View.Piece (Elt F) S8x128 .f32)) (LS3 : List (View.Piece (Elt F) S8x128 .f32)), { LS4 : List (View.Piece (Elt F) S8x128 .f32) //
      ∀ (xi2 : Vec F S1x5x8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2 ∗ owns (c : Thread nD τ) arg8 fullShare xs3 ∗ owns (c : Thread nD τ) arg9 fullShare xs4
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3) ∗ (∃ f, arg9.view.loc (c : Thread nD τ) ↦[arg9.view.set]{fullShare} arg9.view.writes (Elt F) f LS4)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9) K } := by
  refine ⟨[], ?_, ?_, ?_, ?_, ?_, fun xi2 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2; obtain rfl := harg8.eq_unread hfs3; obtain rfl := harg9.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.IdealRunFirst.lean ====
/-
  The body at a FIRST point (i = 0): the zeroing branch is taken, the copying branch is not.  Whatever the five
  accumulators held, each is first stored zero and then stored zero plus the point's partial sum; the output buffer
  is left untouched.
-/
import proofs.«126519_j28741921145436_2_alg».proof.Proof.IdealRunMid

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes at a first point, with the proof that it runs to its end from the buffers described. -/
noncomputable def kernelRun0_A (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i)
    (x0 : Vec F S1x8192x128 .f32) (x1 : Vec F S1x8192x128 .f32) :
    Σ' (L2 : List (View.Piece (Elt F) S1x5x8x128 .f32)) (LS0 : List (View.Piece (Elt F) S8x128 .f32)) (LS1 : List (View.Piece (Elt F) S8x128 .f32)) (LS2 : List (View.Piece (Elt F) S8x128 .f32)) (LS3 : List (View.Piece (Elt F) S8x128 .f32)), { LS4 : List (View.Piece (Elt F) S8x128 .f32) //
      ∀ (xi2 : Vec F S1x5x8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3) ∗ (∃ f, arg9.view.loc (c : Thread nD τ) ↦[arg9.view.set]{fullShare} arg9.view.writes (Elt F) f LS4)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9) K } := by
  refine ⟨[], ?_, ?_, ?_, ?_, ?_, fun xi2 E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.IdealRunLast.lean ====
/-
  The body at a LAST point (i = 7): the zeroing branch is not taken, the copying branch is.  The accumulators get
  the point's partial sums added, and then each is copied into its own [1, 1, 8, 128] slice of the output buffer,
  whose five slices tile it; what the output buffer held before does not matter.
-/
import proofs.«126519_j28741921145436_2_alg».proof.Proof.IdealRunFirst

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The stores the body makes at a last point, with the proof that it runs to its end from the buffers described. -/
noncomputable def kernelRun0_C (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i)
    (x0 : Vec F S1x8192x128 .f32) (x1 : Vec F S1x8192x128 .f32) (xs0 : Vec F S8x128 .f32) (xs1 : Vec F S8x128 .f32) (xs2 : Vec F S8x128 .f32) (xs3 : Vec F S8x128 .f32) (xs4 : Vec F S8x128 .f32) :
    Σ' (L2 : List (View.Piece (Elt F) S1x5x8x128 .f32)) (LS0 : List (View.Piece (Elt F) S8x128 .f32)) (LS1 : List (View.Piece (Elt F) S8x128 .f32)) (LS2 : List (View.Piece (Elt F) S8x128 .f32)) (LS3 : List (View.Piece (Elt F) S8x128 .f32)), { LS4 : List (View.Piece (Elt F) S8x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2 ∗ owns (c : Thread nD τ) arg8 fullShare xs3 ∗ owns (c : Thread nD τ) arg9 fullShare xs4
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2) ∗ (∃ f, arg8.view.loc (c : Thread nD τ) ↦[arg8.view.set]{fullShare} arg8.view.writes (Elt F) f LS3) ∗ (∃ f, arg9.view.loc (c : Thread nD τ) ↦[arg9.view.set]{fullShare} arg9.view.writes (Elt F) f LS4)) -∗ K ⟨⟩))
          ⊢ wp frame (wpE (defs₀ (F := F)) Variants.none c none) E (cc0__reduce_kernel i arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0__reduce_kernel_eq_skeleton]; unfold cc0__reduce_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1
    obtain rfl := harg5.eq_unread hfs0; obtain rfl := harg6.eq_unread hfs1; obtain rfl := harg7.eq_unread hfs2; obtain rfl := harg8.eq_unread hfs3; obtain rfl := harg9.eq_unread hfs4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    isplitl [HS2]; · iexists _; iexact HS2
    isplitl [HS3]; · iexists _; iexact HS3
    iexists _; iexact HS4

end Cert.KernelIdeal.Hand

end
-- ==== Proof.IdealFrame.lean ====
/-
  The region's bookkeeping over the 16 grid points, and the program's run.

  After the point at position n the output buffer and the five accumulators hold what the kind of point n leaves
  (`outsAt0`): a first point starts from anything, a middle or last point from what the point before left in the
  accumulators.  Between points the region keeps the five accumulators at exactly those contents (`PhiS`); the two
  input windows hold their blocks; the output window is idle except at the last points, where its five slices are
  covered by the five copies.  With this the body is correct at every point, and the library's theorem for a region
  with host lines before and after it gives the program's run: it terminates, every window array ends at what the
  points wrote back, and every other buffer at what the later host lines compute.
-/
import proofs.«126519_j28741921145436_2_alg».proof.Proof.IdealRunLast

set_option maxRecDepth 16384
set_option maxHeartbeats 40000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The five accumulators' contents. -/
abbrev Acc5 : Type := Vec F S8x128 .f32 × Vec F S8x128 .f32 × Vec F S8x128 .f32 × Vec F S8x128 .f32 × Vec F S8x128 .f32
/-- The output buffer's and the accumulators' contents. -/
abbrev St : Type := Vec F S1x5x8x128 .f32 × Acc5 (F := F)

/-- A list of stores into an accumulator read back as its contents. -/
def sread (L : List (View.Piece (Elt F) S8x128 .f32)) : Vec F S8x128 .f32 := VS0.read (Elt F) (VS0.writes (Elt F) VS0.junk L)
/-- A list of stores into the output buffer read back as its contents. -/
def oread (L : List (View.Piece (Elt F) S1x5x8x128 .f32)) : Vec F S1x5x8x128 .f32 := VO0_2.read (Elt F) (VO0_2.writes (Elt F) VO0_2.junk L)

/-! ## The stores of each kind of point cover what they are read back from -/

theorem scover0_A_0 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) (y : S8x128.Idx) :
    ∃ pc ∈ (kernelRun0_A c i arg2 harg2 arg3 harg3 arg4 harg4 arg5 harg5 arg6 harg6 arg7 harg7 arg8 harg8 arg9 harg9 hc0 hc1 x0 x1).2.1, y ∈ pc.1.set :=
  View.cover_of_tiledL (kernelRun0_A c i arg2 harg2 arg3 harg3 arg4 harg4 arg5 harg5 arg6 harg6 arg7 harg7 arg8 harg8 arg9 harg9 hc0 hc1 x0 x1).2.1 S8x128.size (by sl_kernel_rfl) y
theorem scover0_A_1 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) (y : S8x128.Idx) :
    ∃ pc ∈ (kernelRun0_A c i arg2 harg2 arg3 harg3 arg4 harg4 arg5 harg5 arg6 harg6 arg7 harg7 arg8 harg8 arg9 harg9 hc0 hc1 x0 x1).2.2.1, y ∈ pc.1.set :=
  View.cover_of_tiledL (kernelRun0_A c i arg2 harg2 arg3 harg3 arg4 harg4 arg5 harg5 arg6 harg6 arg7 harg7 arg8 harg8 arg9 harg9 hc0 hc1 x0 x1).2.2.1 S8x128.size (by sl_kernel_rfl) y
theorem scover0_A_2 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) (y : S8x128.Idx) :
    ∃ pc ∈ (kernelRun0_A c i arg2 harg2 arg3 harg3 arg4 harg4 arg5 harg5 arg6 harg6 arg7 harg7 arg8 harg8 arg9 harg9 hc0 hc1 x0 x1).2.2.2.1, y ∈ pc.1.set :=
  View.cover_of_tiledL (kernelRun0_A c i arg2 harg2 arg3 harg3 arg4 harg4 arg5 harg5 arg6 harg6 arg7 harg7 arg8 harg8 arg9 harg9 hc0 hc1 x0 x1).2.2.2.1 S8x128.size (by sl_kernel_rfl) y
theorem scover0_A_3 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) (y : S8x128.Idx) :
    ∃ pc ∈ (kernelRun0_A c i arg2 harg2 arg3 harg3 arg4 harg4 arg5 harg5 arg6 harg6 arg7 harg7 arg8 harg8 arg9 harg9 hc0 hc1 x0 x1).2.2.2.2.1, y ∈ pc.1.set :=
  View.cover_of_tiledL (kernelRun0_A c i arg2 harg2 arg3 harg3 arg4 harg4 arg5 harg5 arg6 harg6 arg7 harg7 arg8 harg8 arg9 harg9 hc0 hc1 x0 x1).2.2.2.2.1 S8x128.size (by sl_kernel_rfl) y
theorem scover0_A_4 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) (y : S8x128.Idx) :
    ∃ pc ∈ (kernelRun0_A c i arg2 harg2 arg3 harg3 arg4 harg4 arg5 harg5 arg6 harg6 arg7 harg7 arg8 harg8 arg9 harg9 hc0 hc1 x0 x1).2.2.2.2.2.1, y ∈ pc.1.set :=
  View.cover_of_tiledL (kernelRun0_A c i arg2 harg2 arg3 harg3 arg4 harg4 arg5 harg5 arg6 harg6 arg7 harg7 arg8 harg8 arg9 harg9 hc0 hc1 x0 x1).2.2.2.2.2.1 S8x128.size (by sl_kernel_rfl) y
theorem scover0_B_0 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) (y : S8x128.Idx) :
    ∃ pc ∈ (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.1, y ∈ pc.1.set :=
  View.cover_of_tiledL (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.1 S8x128.size (by sl_kernel_rfl) y
theorem scover0_B_1 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) (y : S8x128.Idx) :
    ∃ pc ∈ (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.1, y ∈ pc.1.set :=
  View.cover_of_tiledL (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.1 S8x128.size (by sl_kernel_rfl) y
theorem scover0_B_2 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) (y : S8x128.Idx) :
    ∃ pc ∈ (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.1, y ∈ pc.1.set :=
  View.cover_of_tiledL (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.1 S8x128.size (by sl_kernel_rfl) y
theorem scover0_B_3 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) (y : S8x128.Idx) :
    ∃ pc ∈ (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.1, y ∈ pc.1.set :=
  View.cover_of_tiledL (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.1 S8x128.size (by sl_kernel_rfl) y
theorem scover0_B_4 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) (y : S8x128.Idx) :
    ∃ pc ∈ (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.2.1, y ∈ pc.1.set :=
  View.cover_of_tiledL (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.2.1 S8x128.size (by sl_kernel_rfl) y
theorem scover0_C_0 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) (y : S8x128.Idx) :
    ∃ pc ∈ (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.1, y ∈ pc.1.set :=
  View.cover_of_tiledL (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.1 S8x128.size (by sl_kernel_rfl) y
theorem scover0_C_1 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) (y : S8x128.Idx) :
    ∃ pc ∈ (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.1, y ∈ pc.1.set :=
  View.cover_of_tiledL (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.1 S8x128.size (by sl_kernel_rfl) y
theorem scover0_C_2 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) (y : S8x128.Idx) :
    ∃ pc ∈ (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.1, y ∈ pc.1.set :=
  View.cover_of_tiledL (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.1 S8x128.size (by sl_kernel_rfl) y
theorem scover0_C_3 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) (y : S8x128.Idx) :
    ∃ pc ∈ (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.1 S8x128.size (by sl_kernel_rfl) y
theorem scover0_C_4 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) (y : S8x128.Idx) :
    ∃ pc ∈ (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.2.1, y ∈ pc.1.set :=
  View.cover_of_tiledL (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.2.1 S8x128.size (by sl_kernel_rfl) y
/-- At a last point the five copies tile the output buffer. -/
theorem cover0_C_2 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) (y : S1x5x8x128.Idx) :
    ∃ pc ∈ (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).1, y ∈ pc.1.set :=
  View.cover_of_tiledL (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).1 S1x1x8x128.size (by sl_kernel_rfl) y

/-- What a first point leaves (the output buffer is not stored into: a placeholder nobody reads). -/
def stA (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) : St (F := F) :=
  (oread [], sread (kernelRun0_A c i arg2 harg2 arg3 harg3 arg4 harg4 arg5 harg5 arg6 harg6 arg7 harg7 arg8 harg8 arg9 harg9 hc0 hc1 x0 x1).2.1, sread (kernelRun0_A c i arg2 harg2 arg3 harg3 arg4 harg4 arg5 harg5 arg6 harg6 arg7 harg7 arg8 harg8 arg9 harg9 hc0 hc1 x0 x1).2.2.1, sread (kernelRun0_A c i arg2 harg2 arg3 harg3 arg4 harg4 arg5 harg5 arg6 harg6 arg7 harg7 arg8 harg8 arg9 harg9 hc0 hc1 x0 x1).2.2.2.1, sread (kernelRun0_A c i arg2 harg2 arg3 harg3 arg4 harg4 arg5 harg5 arg6 harg6 arg7 harg7 arg8 harg8 arg9 harg9 hc0 hc1 x0 x1).2.2.2.2.1, sread (kernelRun0_A c i arg2 harg2 arg3 harg3 arg4 harg4 arg5 harg5 arg6 harg6 arg7 harg7 arg8 harg8 arg9 harg9 hc0 hc1 x0 x1).2.2.2.2.2.1)
/-- What a middle point leaves, from the accumulators `s` the point before left. -/
def stB (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) : St (F := F) :=
  (oread [], sread (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.1, sread (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.1, sread (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.1, sread (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.1, sread (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.2.1)
/-- What a last point leaves, from the accumulators `s` the point before left. -/
def stC (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) : St (F := F) :=
  (oread (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).1, sread (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.1, sread (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.1, sread (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.1, sread (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.1, sread (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.2.1)

/-! ## What the buffers hold after each point -/

/-- By recursion on the position: positions ≡ 0 (mod 8) are first points, ≡ 7 last points, the others middle points. -/
def outsAt0 (c : Dev nD) : (n : ℕ) → n < cfg0.N → St (F := F)
  | 0, hn => stA c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) scM0_3 (Memref.isWhole_whole _) scM0_4 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩)
  | n + 1, hn =>
    if h0 : (n + 1) % 8 = 0 then
      if h1 : (n + 1) % 8 = 7 then
        False.elim (by omega)
      else
        stA c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩)
    else
      if h1 : (n + 1) % 8 = 7 then
        stC c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2
      else
        stB c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) scM0_3 (Memref.isWhole_whole _) scM0_4 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2

theorem outsAt0_A (c : Dev nD) (t : Fin cfg0.N) (h0 : t.val % 8 = 0) (h1 : ¬t.val % 8 = 7) :
    outsAt0 m c t.val t.isLt = stA c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) := by
  obtain ⟨n, hn⟩ := t
  cases n with
  | zero => exact rfl
  | succ n => exact (dif_pos h0).trans ((dif_neg h1).trans rfl)

theorem outsAt0_B (c : Dev nD) (t : Fin cfg0.N) (h0 : ¬t.val % 8 = 0) (h1 : ¬t.val % 8 = 7) :
    outsAt0 m c t.val t.isLt = stB c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 8 = 0) (h1 : t.val % 8 = 7) :
    outsAt0 m c t.val t.isLt = stC c (grid0.coords t) (ms0_0 t) (hs0_0 t) (ms0_1 t) (hs0_1 t) (ms0_2 t) (hs0_2 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- What the region keeps between points: before the first point the accumulators at anything; afterwards each at what
    the point before left in it; and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2.1) ∗ owns (c : Thread nD τ) scM0_3 fullShare ((outsAt0 m c n hn).2.2.2.2.1) ∗ owns (c : Thread nD τ) scM0_4 fullShare ((outsAt0 m c n hn).2.2.2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2.1) ∗ owns (c : Thread nD τ) scM0_3 fullShare ((outsAt0 m c (n - 1) (by omega)).2.2.2.2.1) ∗ owns (c : Thread nD τ) scM0_4 fullShare ((outsAt0 m c (n - 1) (by omega)).2.2.2.2.2)) ∗ (∃ r, prngReg c r)) := by
  cases n with
  | zero => exact absurd rfl hz
  | succ n => rfl

/-! ## The region's proof data -/

/-- The arrays as the region finds them; after the body each input buffer at its block and the output buffer at
    `outsAt0`'s first component; between points `PhiS`; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

/-- The body at any point: the closed forms say which kind of point it is, and that kind's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 8 = 0
  · by_cases h1 : t.val % 8 = 7
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_A m c t h0 h1]
      unfold stA sread; (try dsimp only)
      by_cases hz : t.val = 0
      · rw [PhiS_castSucc m c t, PhiS_zero m c _ _ hz, PhiA0_eq]
        iintro ⟨⟨⟨HS0, HS1, HS2, HS3, HS4⟩, Hg⟩, Ho, ⟨%d0, H0⟩, ⟨%d1, H1⟩, ⟨%d2, H2⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t)).2.2.2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        isplitl [HS3]; · iexact HS3
        isplitl [HS4]; · iexact HS4
        iintro ⟨H0, H1, H2, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨⟨HS0, HS1, HS2, HS3, HS4⟩, Hg⟩, Ho, ⟨%d0, H0⟩, ⟨%d1, H1⟩, ⟨%d2, H2⟩⟩
        iapply ((kernelRun0_A c (grid0.coords t) _ _ _ _ _ _ _ _ _ _ _ _ _ _ _ _ ((hcond0_0 t).mpr h0) (fun h => h1 ((hcond0_1 t).mp h)) (iblk m c 0 t) (iblk m c 1 t)).2.2.2.2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        isplitl [HS3]; · iexists _; iexact HS3
        isplitl [HS4]; · iexists _; iexact HS4
        iintro ⟨H0, H1, H2, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _)
            isplitl [HS3]
            · unfold owns; iexists _; isplitr
              swap; · iexact HS3
              ipureintro; exact View.read_writes_of_cover _ _ _ _ _ (scover0_A_3 c _ _ _ _ _ _ _ _ _ _ _ _ _ _ _ _ _ _ _ _ _)
            unfold owns; iexists _; isplitr
            swap; · iexact HS4
            ipureintro; exact View.read_writes_of_cover _ _ _ _ _ (scover0_A_4 c _ _ _ _ _ _ _ _ _ _ _ _ _ _ _ _ _ _ _ _ _)
          iexact Hg
        isplitl [Ho]; · iexact Ho
        isplitl [H0]; · iexact H0
        isplitl [H1]; · iexact H1
        iexists _; iexact H2
  · by_cases h1 : t.val % 8 = 7
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold stC sread oread; (try dsimp only)
      by_cases hz : t.val = 0
      · exfalso; omega
      · rw [PhiS_castSucc m c t, PhiS_pos m c _ _ hz]
        iintro ⟨⟨⟨HS0, HS1, HS2, HS3, HS4⟩, Hg⟩, Ho, ⟨%d0, H0⟩, ⟨%d1, H1⟩, ⟨%d2, H2⟩⟩
        iapply ((kernelRun0_C c (grid0.coords t) _ _ _ _ _ _ _ _ _ _ _ _ _ _ _ _ (fun h => h0 ((hcond0_0 t).mp h)) ((hcond0_1 t).mpr h1) (iblk m c 0 t) (iblk m c 1 t) _ _ _ _ _).2.2.2.2.2.2 Set.univ _)
        isplitl [H0]; · iexact H0
        isplitl [H1]; · iexact H1
        isplitl [H2]; · iexists _; iexact H2
        isplitl [HS0]; · iexact HS0
        isplitl [HS1]; · iexact HS1
        isplitl [HS2]; · iexact HS2
        isplitl [HS3]; · iexact HS3
        isplitl [HS4]; · iexact HS4
        iintro ⟨H0, H1, ⟨%e2, H2⟩, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _)
            isplitl [HS2]
            · unfold owns; iexists _; isplitr
              swap; · iexact HS2
              ipureintro; exact View.read_writes_of_cover _ _ _ _ _ (scover0_C_2 c _ _ _ _ _ _ _ _ _ _ _ _ _ _ _ _ _ _ _ _ _ _)
            isplitl [HS3]
            · unfold owns; iexists _; isplitr
              swap; · iexact HS3
              ipureintro; exact View.read_writes_of_cover _ _ _ _ _ (scover0_C_3 c _ _ _ _ _ _ _ _ _ _ _ _ _ _ _ _ _ _ _ _ _ _)
            unfold owns; iexists _; isplitr
            swap; · iexact HS4
            ipureintro; exact View.read_writes_of_cover _ _ _ _ _ (scover0_C_4 c _ _ _ _ _ _ _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_B m c t h0 h1]
      unfold stB sread; (try dsimp only)
      by_cases hz : t.val = 0
      · exfalso; omega
      · rw [PhiS_castSucc m c t, PhiS_pos m c _ _ hz]
        iintro ⟨⟨⟨HS0, HS1, HS2, HS3, HS4⟩, Hg⟩, Ho, ⟨%d0, H0⟩, ⟨%d1, H1⟩, ⟨%d2, H2⟩⟩
        iapply ((kernelRun0_B c (grid0.coords t) _ _ _ _ _ _ _ _ _ _ _ _ _ _ _ _ (fun h => h0 ((hcond0_0 t).mp h)) (fun h => h1 ((hcond0_1 t).mp h)) (iblk m c 0 t) (iblk m c 1 t) _ _ _ _ _).2.2.2.2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        isplitl [HS3]; · iexact HS3
        isplitl [HS4]; · iexact HS4
        iintro ⟨H0, H1, H2, ⟨%es0, HS0⟩, ⟨%es1, HS1⟩, ⟨%es2, HS2⟩, ⟨%es3, HS3⟩, ⟨%es4, HS4⟩⟩
        isplitl [HS0 HS1 HS2 HS3 HS4 Hg]
        · isplitl [HS0 HS1 HS2 HS3 HS4]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _)
            isplitl [HS2]
            · unfold owns; iexists _; isplitr
              swap; · iexact HS2
              ipureintro; exact View.read_writes_of_cover _ _ _ _ _ (scover0_B_2 c _ _ _ _ _ _ _ _ _ _ _ _ _ _ _ _ _ _ _ _ _ _)
            isplitl [HS3]
            · unfold owns; iexists _; isplitr
              swap; · iexact HS3
              ipureintro; exact View.read_writes_of_cover _ _ _ _ _ (scover0_B_3 c _ _ _ _ _ _ _ _ _ _ _ _ _ _ _ _ _ _ _ _ _ _)
            unfold owns; iexists _; isplitr
            swap; · iexact HS4
            ipureintro; exact View.read_writes_of_cover _ _ _ _ _ (scover0_B_4 c _ _ _ _ _ _ _ _ _ _ _ _ _ _ _ _ _ _ _ _ _ _)
          iexact Hg
        isplitl [Ho]; · iexact Ho
        isplitl [H0]; · iexact H0
        isplitl [H1]; · iexact H1
        iexists _; iexact H2

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

theorem hout (c : Dev nD) : (dats m 0 c).Φ (Fin.last cfg0.N) ⊢ Pipeline.ΦA spec0 c :=
  Phi_out m c _ (by rw [Fin.val_last]; have : cfg0.N = 16 := N_0; omega)

/-! ## The run -/

set_option backward.isDefEq.respectTransparency.types false in
/-- Every weakly fair execution of the program terminates; every window array ends at what the points wrote back, every
    other unscoped buffer at what the later host lines leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run read at the result and at the two arguments: the result is what the later host lines compute from the
    region's output array, and the arguments end as launched. -/
theorem run_result : θ_run defs (onTc (τ := τ) (main (F := F))) ⟨m, fun _ => 0, ρ⟩ (fun r => ∀ c : Dev nD,
      r.2.mem ((c.tc : Thread nD τ).loc main_v51) = Pipeline.afterTail₀ cfgs (dats m) 0 (V0 m) [hostOps1] c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v51 (Pipeline.mem_restRefs_of main_v51 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩) (run_main m ρ)

/-- The frame: the program runs and leaves its two arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_result m ρ)

end Cert.KernelIdeal.Hand

end
-- ==== Proof.IdealValue.lean ====
/-
  What the body leaves, as values.

  One point turns the accumulators `s` into `upd x0 x1 s`: each accumulator plus the point's partial sum of its
  quantity over the 1024 row groups of the two input blocks.  A first point does the same from the zero accumulators.
  A last point moreover copies the five new accumulators into the five [1, 1, 8, 128] slices of the output buffer.
-/
import proofs.«126519_j28741921145436_2_alg».proof.Proof.IdealFrame
import Idealize.ShloMosaic.Lib.Pipeline.Value

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulators after a point, from the point's two input blocks and the accumulators before it. -/
def upd (x0 x1 : Vec F S1x8192x128 .f32) (s : Acc5 (F := F)) : Acc5 (F := F) :=
  (k0_pay16 x0 s.1, k0_pay17 x1 s.2.1, k0_pay1 (k0_pay18 x0 s.2.2.1), k0_pay2 (k0_pay15 x1) s.2.2.2.1, k0_pay3 (k0_pay14 x0) (k0_pay15 x1) s.2.2.2.2)
/-- The zero accumulators a first point starts from. -/
def zero5 : Acc5 (F := F) := (k0_pay9, k0_pay10, k0_pay11, k0_pay12, k0_pay13)

/-- The five copies a last point makes, last first: accumulator k into slice k of the output buffer. -/
def outPieces (s : Acc5 (F := F)) : List (View.Piece (Elt F) S1x5x8x128 .f32) :=
  [⟨Rect.unit ![0, 4, 0, 0] S1x1x8x128.size inb_S1x5x8x128_S1x1x8x128_0_4_0_0, k0_pay8 s.2.2.2.2⟩,
   ⟨Rect.unit ![0, 3, 0, 0] S1x1x8x128.size inb_S1x5x8x128_S1x1x8x128_0_3_0_0, k0_pay7 s.2.2.2.1⟩,
   ⟨Rect.unit ![0, 2, 0, 0] S1x1x8x128.size inb_S1x5x8x128_S1x1x8x128_0_2_0_0, k0_pay6 s.2.2.1⟩,
   ⟨Rect.unit ![0, 1, 0, 0] S1x1x8x128.size inb_S1x5x8x128_S1x1x8x128_0_1_0_0, k0_pay5 s.2.1⟩,
   ⟨Rect.unit ![0, 0, 0, 0] S1x1x8x128.size inb_S1x5x8x128_S1x1x8x128_0_0_0_0, k0_pay4 s.1⟩]

/-! ## A middle point -/
theorem sB_0 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) :
    sread (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.1 = k0_pay16 x0 s.1 := by
  unfold sread
  rw [View.read_writes_eq_canon _ _ _ (scover0_B_0 c i arg2 harg2 arg3 harg3 arg4 harg4 arg5 harg5 arg6 harg6 arg7 harg7 arg8 harg8 arg9 harg9 hc0 hc1 x0 x1 s)]
  unfold kernelRun0_B
  dsimp only
  try sl_unfold_words
  rw [View.canon_unit_zero hz2]
  simp only [View.readAt_eq_ld, harg2.read_unread, harg3.read_unread, harg5.read_unread, harg6.read_unread, harg7.read_unread, harg8.read_unread, harg9.read_unread, View.ld_unit_zero (S := S1x8192x128) hz3, View.ld_unit_zero (S := S8x128) hz2]
theorem sB_1 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) :
    sread (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.1 = k0_pay17 x1 s.2.1 := by
  unfold sread
  rw [View.read_writes_eq_canon _ _ _ (scover0_B_1 c i arg2 harg2 arg3 harg3 arg4 harg4 arg5 harg5 arg6 harg6 arg7 harg7 arg8 harg8 arg9 harg9 hc0 hc1 x0 x1 s)]
  unfold kernelRun0_B
  dsimp only
  try sl_unfold_words
  rw [View.canon_unit_zero hz2]
  simp only [View.readAt_eq_ld, harg2.read_unread, harg3.read_unread, harg5.read_unread, harg6.read_unread, harg7.read_unread, harg8.read_unread, harg9.read_unread, View.ld_unit_zero (S := S1x8192x128) hz3, View.ld_unit_zero (S := S8x128) hz2]
theorem sB_2 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) :
    sread (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.1 = k0_pay1 (k0_pay18 x0 s.2.2.1) := by
  unfold sread
  rw [View.read_writes_eq_canon _ _ _ (scover0_B_2 c i arg2 harg2 arg3 harg3 arg4 harg4 arg5 harg5 arg6 harg6 arg7 harg7 arg8 harg8 arg9 harg9 hc0 hc1 x0 x1 s)]
  unfold kernelRun0_B
  dsimp only
  try sl_unfold_words
  rw [View.canon_unit_zero hz2]
  simp only [View.readAt_eq_ld, harg2.read_unread, harg3.read_unread, harg5.read_unread, harg6.read_unread, harg7.read_unread, harg8.read_unread, harg9.read_unread, View.ld_unit_zero (S := S1x8192x128) hz3, View.ld_unit_zero (S := S8x128) hz2]
theorem sB_3 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) :
    sread (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.1 = k0_pay2 (k0_pay15 x1) s.2.2.2.1 := by
  unfold sread
  rw [View.read_writes_eq_canon _ _ _ (scover0_B_3 c i arg2 harg2 arg3 harg3 arg4 harg4 arg5 harg5 arg6 harg6 arg7 harg7 arg8 harg8 arg9 harg9 hc0 hc1 x0 x1 s)]
  unfold kernelRun0_B
  dsimp only
  try sl_unfold_words
  rw [View.canon_unit_zero hz2]
  simp only [View.readAt_eq_ld, harg2.read_unread, harg3.read_unread, harg5.read_unread, harg6.read_unread, harg7.read_unread, harg8.read_unread, harg9.read_unread, View.ld_unit_zero (S := S1x8192x128) hz3, View.ld_unit_zero (S := S8x128) hz2]
theorem sB_4 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) :
    sread (kernelRun0_B c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.2.1 = k0_pay3 (k0_pay14 x0) (k0_pay15 x1) s.2.2.2.2 := by
  unfold sread
  rw [View.read_writes_eq_canon _ _ _ (scover0_B_4 c i arg2 harg2 arg3 harg3 arg4 harg4 arg5 harg5 arg6 harg6 arg7 harg7 arg8 harg8 arg9 harg9 hc0 hc1 x0 x1 s)]
  unfold kernelRun0_B
  dsimp only
  try sl_unfold_words
  rw [View.canon_unit_zero hz2]
  simp only [View.readAt_eq_ld, harg2.read_unread, harg3.read_unread, harg5.read_unread, harg6.read_unread, harg7.read_unread, harg8.read_unread, harg9.read_unread, View.ld_unit_zero (S := S1x8192x128) hz3, View.ld_unit_zero (S := S8x128) hz2]

theorem stB_acc (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : ¬cond0_1 i) (x0 : Vec F S1x8192x128 .f32) (x1 : Vec F S1x8192x128 .f32) (s : Acc5 (F := F)) :
    (stB c i arg2 harg2 arg3 harg3 arg4 harg4 arg5 harg5 arg6 harg6 arg7 harg7 arg8 harg8 arg9 harg9 hc0 hc1 x0 x1 s).2 = upd x0 x1 s :=
  Prod.ext (sB_0 c i arg2 harg2 arg3 harg3 arg4 harg4 arg5 harg5 arg6 harg6 arg7 harg7 arg8 harg8 arg9 harg9 hc0 hc1 x0 x1 s) (Prod.ext (sB_1 c i arg2 harg2 arg3 harg3 arg4 harg4 arg5 harg5 arg6 harg6 arg7 harg7 arg8 harg8 arg9 harg9 hc0 hc1 x0 x1 s) (Prod.ext (sB_2 c i arg2 harg2 arg3 harg3 arg4 harg4 arg5 harg5 arg6 harg6 arg7 harg7 arg8 harg8 arg9 harg9 hc0 hc1 x0 x1 s) (Prod.ext (sB_3 c i arg2 harg2 arg3 harg3 arg4 harg4 arg5 harg5 arg6 harg6 arg7 harg7 arg8 harg8 arg9 harg9 hc0 hc1 x0 x1 s) (sB_4 c i arg2 harg2 arg3 harg3 arg4 harg4 arg5 harg5 arg6 harg6 arg7 harg7 arg8 harg8 arg9 harg9 hc0 hc1 x0 x1 s))))

/-! ## A first point -/
theorem sA_0 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) :
    sread (kernelRun0_A c i arg2 harg2 arg3 harg3 arg4 harg4 arg5 harg5 arg6 harg6 arg7 harg7 arg8 harg8 arg9 harg9 hc0 hc1 x0 x1).2.1 = k0_pay16 x0 k0_pay9 := by
  unfold sread
  rw [View.read_writes_eq_canon _ _ _ (scover0_A_0 c i arg2 harg2 arg3 harg3 arg4 harg4 arg5 harg5 arg6 harg6 arg7 harg7 arg8 harg8 arg9 harg9 hc0 hc1 x0 x1)]
  unfold kernelRun0_A
  dsimp only
  try sl_unfold_words
  rw [View.canon_cons_unit_zero (S := S8x128) hz2, View.readCov_unit_zero (S := S8x128) _ hz2]
  simp only [View.readAt_eq_ld, harg2.read_unread, harg3.read_unread, harg5.read_unread, harg6.read_unread, harg7.read_unread, harg8.read_unread, harg9.read_unread, View.ld_unit_zero (S := S1x8192x128) hz3, View.ld_unit_zero (S := S8x128) hz2]
theorem sA_1 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) :
    sread (kernelRun0_A c i arg2 harg2 arg3 harg3 arg4 harg4 arg5 harg5 arg6 harg6 arg7 harg7 arg8 harg8 arg9 harg9 hc0 hc1 x0 x1).2.2.1 = k0_pay17 x1 k0_pay10 := by
  unfold sread
  rw [View.read_writes_eq_canon _ _ _ (scover0_A_1 c i arg2 harg2 arg3 harg3 arg4 harg4 arg5 harg5 arg6 harg6 arg7 harg7 arg8 harg8 arg9 harg9 hc0 hc1 x0 x1)]
  unfold kernelRun0_A
  dsimp only
  try sl_unfold_words
  rw [View.canon_cons_unit_zero (S := S8x128) hz2, View.readCov_unit_zero (S := S8x128) _ hz2]
  simp only [View.readAt_eq_ld, harg2.read_unread, harg3.read_unread, harg5.read_unread, harg6.read_unread, harg7.read_unread, harg8.read_unread, harg9.read_unread, View.ld_unit_zero (S := S1x8192x128) hz3, View.ld_unit_zero (S := S8x128) hz2]
theorem sA_2 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) :
    sread (kernelRun0_A c i arg2 harg2 arg3 harg3 arg4 harg4 arg5 harg5 arg6 harg6 arg7 harg7 arg8 harg8 arg9 harg9 hc0 hc1 x0 x1).2.2.2.1 = k0_pay1 (k0_pay18 x0 k0_pay11) := by
  unfold sread
  rw [View.read_writes_eq_canon _ _ _ (scover0_A_2 c i arg2 harg2 arg3 harg3 arg4 harg4 arg5 harg5 arg6 harg6 arg7 harg7 arg8 harg8 arg9 harg9 hc0 hc1 x0 x1)]
  unfold kernelRun0_A
  dsimp only
  try sl_unfold_words
  rw [View.canon_cons_unit_zero (S := S8x128) hz2, View.readCov_unit_zero (S := S8x128) _ hz2]
  simp only [View.readAt_eq_ld, harg2.read_unread, harg3.read_unread, harg5.read_unread, harg6.read_unread, harg7.read_unread, harg8.read_unread, harg9.read_unread, View.ld_unit_zero (S := S1x8192x128) hz3, View.ld_unit_zero (S := S8x128) hz2]
theorem sA_3 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) :
    sread (kernelRun0_A c i arg2 harg2 arg3 harg3 arg4 harg4 arg5 harg5 arg6 harg6 arg7 harg7 arg8 harg8 arg9 harg9 hc0 hc1 x0 x1).2.2.2.2.1 = k0_pay2 (k0_pay15 x1) k0_pay12 := by
  unfold sread
  rw [View.read_writes_eq_canon _ _ _ (scover0_A_3 c i arg2 harg2 arg3 harg3 arg4 harg4 arg5 harg5 arg6 harg6 arg7 harg7 arg8 harg8 arg9 harg9 hc0 hc1 x0 x1)]
  unfold kernelRun0_A
  dsimp only
  try sl_unfold_words
  rw [View.canon_cons_unit_zero (S := S8x128) hz2, View.readCov_unit_zero (S := S8x128) _ hz2]
  simp only [View.readAt_eq_ld, harg2.read_unread, harg3.read_unread, harg5.read_unread, harg6.read_unread, harg7.read_unread, harg8.read_unread, harg9.read_unread, View.ld_unit_zero (S := S1x8192x128) hz3, View.ld_unit_zero (S := S8x128) hz2]
theorem sA_4 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) :
    sread (kernelRun0_A c i arg2 harg2 arg3 harg3 arg4 harg4 arg5 harg5 arg6 harg6 arg7 harg7 arg8 harg8 arg9 harg9 hc0 hc1 x0 x1).2.2.2.2.2.1 = k0_pay3 (k0_pay14 x0) (k0_pay15 x1) k0_pay13 := by
  unfold sread
  rw [View.read_writes_eq_canon _ _ _ (scover0_A_4 c i arg2 harg2 arg3 harg3 arg4 harg4 arg5 harg5 arg6 harg6 arg7 harg7 arg8 harg8 arg9 harg9 hc0 hc1 x0 x1)]
  unfold kernelRun0_A
  dsimp only
  try sl_unfold_words
  rw [View.canon_cons_unit_zero (S := S8x128) hz2, View.readCov_unit_zero (S := S8x128) _ hz2]
  simp only [View.readAt_eq_ld, harg2.read_unread, harg3.read_unread, harg5.read_unread, harg6.read_unread, harg7.read_unread, harg8.read_unread, harg9.read_unread, View.ld_unit_zero (S := S1x8192x128) hz3, View.ld_unit_zero (S := S8x128) hz2]

theorem stA_acc (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : cond0_0 i) (hc1 : ¬cond0_1 i) (x0 : Vec F S1x8192x128 .f32) (x1 : Vec F S1x8192x128 .f32) :
    (stA c i arg2 harg2 arg3 harg3 arg4 harg4 arg5 harg5 arg6 harg6 arg7 harg7 arg8 harg8 arg9 harg9 hc0 hc1 x0 x1).2 = upd x0 x1 zero5 :=
  Prod.ext (sA_0 c i arg2 harg2 arg3 harg3 arg4 harg4 arg5 harg5 arg6 harg6 arg7 harg7 arg8 harg8 arg9 harg9 hc0 hc1 x0 x1) (Prod.ext (sA_1 c i arg2 harg2 arg3 harg3 arg4 harg4 arg5 harg5 arg6 harg6 arg7 harg7 arg8 harg8 arg9 harg9 hc0 hc1 x0 x1) (Prod.ext (sA_2 c i arg2 harg2 arg3 harg3 arg4 harg4 arg5 harg5 arg6 harg6 arg7 harg7 arg8 harg8 arg9 harg9 hc0 hc1 x0 x1) (Prod.ext (sA_3 c i arg2 harg2 arg3 harg3 arg4 harg4 arg5 harg5 arg6 harg6 arg7 harg7 arg8 harg8 arg9 harg9 hc0 hc1 x0 x1) (sA_4 c i arg2 harg2 arg3 harg3 arg4 harg4 arg5 harg5 arg6 harg6 arg7 harg7 arg8 harg8 arg9 harg9 hc0 hc1 x0 x1))))

/-! ## A last point -/
theorem sC_0 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) :
    sread (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.1 = k0_pay16 x0 s.1 := by
  unfold sread
  rw [View.read_writes_eq_canon _ _ _ (scover0_C_0 c i arg2 harg2 arg3 harg3 arg4 harg4 arg5 harg5 arg6 harg6 arg7 harg7 arg8 harg8 arg9 harg9 hc0 hc1 x0 x1 s)]
  unfold kernelRun0_C
  dsimp only
  try sl_unfold_words
  rw [View.canon_unit_zero hz2]
  simp only [View.readAt_eq_ld, harg2.read_unread, harg3.read_unread, harg5.read_unread, harg6.read_unread, harg7.read_unread, harg8.read_unread, harg9.read_unread, View.ld_unit_zero (S := S1x8192x128) hz3, View.ld_unit_zero (S := S8x128) hz2]
theorem sC_1 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) :
    sread (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.1 = k0_pay17 x1 s.2.1 := by
  unfold sread
  rw [View.read_writes_eq_canon _ _ _ (scover0_C_1 c i arg2 harg2 arg3 harg3 arg4 harg4 arg5 harg5 arg6 harg6 arg7 harg7 arg8 harg8 arg9 harg9 hc0 hc1 x0 x1 s)]
  unfold kernelRun0_C
  dsimp only
  try sl_unfold_words
  rw [View.canon_unit_zero hz2]
  simp only [View.readAt_eq_ld, harg2.read_unread, harg3.read_unread, harg5.read_unread, harg6.read_unread, harg7.read_unread, harg8.read_unread, harg9.read_unread, View.ld_unit_zero (S := S1x8192x128) hz3, View.ld_unit_zero (S := S8x128) hz2]
theorem sC_2 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) :
    sread (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.1 = k0_pay1 (k0_pay18 x0 s.2.2.1) := by
  unfold sread
  rw [View.read_writes_eq_canon _ _ _ (scover0_C_2 c i arg2 harg2 arg3 harg3 arg4 harg4 arg5 harg5 arg6 harg6 arg7 harg7 arg8 harg8 arg9 harg9 hc0 hc1 x0 x1 s)]
  unfold kernelRun0_C
  dsimp only
  try sl_unfold_words
  rw [View.canon_unit_zero hz2]
  simp only [View.readAt_eq_ld, harg2.read_unread, harg3.read_unread, harg5.read_unread, harg6.read_unread, harg7.read_unread, harg8.read_unread, harg9.read_unread, View.ld_unit_zero (S := S1x8192x128) hz3, View.ld_unit_zero (S := S8x128) hz2]
theorem sC_3 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) :
    sread (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.1 = k0_pay2 (k0_pay15 x1) s.2.2.2.1 := by
  unfold sread
  rw [View.read_writes_eq_canon _ _ _ (scover0_C_3 c i arg2 harg2 arg3 harg3 arg4 harg4 arg5 harg5 arg6 harg6 arg7 harg7 arg8 harg8 arg9 harg9 hc0 hc1 x0 x1 s)]
  unfold kernelRun0_C
  dsimp only
  try sl_unfold_words
  rw [View.canon_unit_zero hz2]
  simp only [View.readAt_eq_ld, harg2.read_unread, harg3.read_unread, harg5.read_unread, harg6.read_unread, harg7.read_unread, harg8.read_unread, harg9.read_unread, View.ld_unit_zero (S := S1x8192x128) hz3, View.ld_unit_zero (S := S8x128) hz2]
theorem sC_4 (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) :
    sread (kernelRun0_C c i arg2 harg2 arg3 harg3 arg4 harg4 arg5 harg5 arg6 harg6 arg7 harg7 arg8 harg8 arg9 harg9 hc0 hc1 x0 x1 s.1 s.2.1 s.2.2.1 s.2.2.2.1 s.2.2.2.2).2.2.2.2.2.1 = k0_pay3 (k0_pay14 x0) (k0_pay15 x1) s.2.2.2.2 := by
  unfold sread
  rw [View.read_writes_eq_canon _ _ _ (scover0_C_4 c i arg2 harg2 arg3 harg3 arg4 harg4 arg5 harg5 arg6 harg6 arg7 harg7 arg8 harg8 arg9 harg9 hc0 hc1 x0 x1 s)]
  unfold kernelRun0_C
  dsimp only
  try sl_unfold_words
  rw [View.canon_unit_zero hz2]
  simp only [View.readAt_eq_ld, harg2.read_unread, harg3.read_unread, harg5.read_unread, harg6.read_unread, harg7.read_unread, harg8.read_unread, harg9.read_unread, View.ld_unit_zero (S := S1x8192x128) hz3, View.ld_unit_zero (S := S8x128) hz2]

theorem stC_acc (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) :
    (stC c i arg2 harg2 arg3 harg3 arg4 harg4 arg5 harg5 arg6 harg6 arg7 harg7 arg8 harg8 arg9 harg9 hc0 hc1 x0 x1 s).2 = upd x0 x1 s :=
  Prod.ext (sC_0 c i arg2 harg2 arg3 harg3 arg4 harg4 arg5 harg5 arg6 harg6 arg7 harg7 arg8 harg8 arg9 harg9 hc0 hc1 x0 x1 s) (Prod.ext (sC_1 c i arg2 harg2 arg3 harg3 arg4 harg4 arg5 harg5 arg6 harg6 arg7 harg7 arg8 harg8 arg9 harg9 hc0 hc1 x0 x1 s) (Prod.ext (sC_2 c i arg2 harg2 arg3 harg3 arg4 harg4 arg5 harg5 arg6 harg6 arg7 harg7 arg8 harg8 arg9 harg9 hc0 hc1 x0 x1 s) (Prod.ext (sC_3 c i arg2 harg2 arg3 harg3 arg4 harg4 arg5 harg5 arg6 harg6 arg7 harg7 arg8 harg8 arg9 harg9 hc0 hc1 x0 x1 s) (sC_4 c i arg2 harg2 arg3 harg3 arg4 harg4 arg5 harg5 arg6 harg6 arg7 harg7 arg8 harg8 arg9 harg9 hc0 hc1 x0 x1 s))))

theorem stC_out (c : Dev nD) (i : grid0.Coords) (arg2 : Memref sig .tc .vmem S1x8192x128 .f32) (harg2 : arg2.IsWhole) (arg3 : Memref sig .tc .vmem S1x8192x128 .f32) (harg3 : arg3.IsWhole) (arg4 : Memref sig .tc .vmem S1x5x8x128 .f32) (harg4 : arg4.IsWhole) (arg5 : Memref sig .tc .vmem S8x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S8x128 .f32) (harg9 : arg9.IsWhole) (hc0 : ¬cond0_0 i) (hc1 : cond0_1 i) (x0 : Vec F S1x8192x128 .f32) (x1 : Vec F S1x8192x128 .f32) (s : Acc5 (F := F)) :
    (stC c i arg2 harg2 arg3 harg3 arg4 harg4 arg5 harg5 arg6 harg6 arg7 harg7 arg8 harg8 arg9 harg9 hc0 hc1 x0 x1 s).1 = View.canon (outPieces (upd x0 x1 s)) := by
  unfold stC oread
  dsimp only
  rw [View.read_writes_eq_canon _ _ _ (cover0_C_2 c i arg2 harg2 arg3 harg3 arg4 harg4 arg5 harg5 arg6 harg6 arg7 harg7 arg8 harg8 arg9 harg9 hc0 hc1 x0 x1 s)]
  unfold kernelRun0_C
  dsimp only
  sl_unfold_words
  simp only [View.readCov_unit_zero (S := S8x128) _ hz2, View.readAt_eq_ld, harg2.read_unread, harg3.read_unread, harg5.read_unread, harg6.read_unread, harg7.read_unread, harg8.read_unread, harg9.read_unread, View.ld_unit_zero (S := S1x8192x128) hz3, View.ld_unit_zero (S := S8x128) hz2]
  rfl

end Cert.KernelIdeal.Hand

end
-- ==== Proof.IdealTail.lean ====
/-
  The host lines after the region, as one pure function of the region's [2, 5, 8, 128] output array.

  The array holds, for each slab c and each of the five quantities k, an [8, 128] block of partial sums.  The host sums
  each block over its lanes, then its sublanes, then the two slabs, giving five scalars
  s₁ = Σ (a - ½), s₂ = Σ (b - ½), q₁ = Σ (a - ½)², q₂ = Σ (b - ½)², p = Σ (a - ½)(b - ½)  (`sums5`, `pick`),
  and from them the two variances (q - s·s / n) / (n - 1), the covariance
  (p - μ₂ s₁ - μ₁ s₂ + n μ₁ μ₂) / (n - 1) with μ = s / n + ε, the correlation and the result ½ (cor + ε)²  (`tailS`).
-/
import proofs.«126519_j28741921145436_2_alg».proof.Proof.Gen.KernelIdeal

noncomputable section

namespace Cert.KernelIdeal.Hand

open Cert.KernelIdeal
open Idealize.ShloMosaic
open Facts₀ Facts

variable {F : FTy → Type} [FloatOps F]

/-- The three host sums: over lanes, over sublanes, over the two slabs. -/
def sums5 (o : FVec F S2x5x8x128 .f32) : FVec F S5 .f32 :=
  Host.reduceAdd
    (Host.reduceAdd
      (Host.reduceAdd o (constant S_ .f32 0x00000000#32) reducesTo_S2x5x8x128_S2x5x8_d3 h_S_)
      (constant S_ .f32 0x00000000#32) reducesTo_S2x5x8_S2x5_d2 h_S_)
    (constant S_ .f32 0x00000000#32) reducesTo_S2x5_S5_d0 h_S_

/-- The scalar arithmetic after the five sums. -/
def tailS (s1 s2 q1 q2 p : FVec F S_ .f32) : FVec F S1 .f32 :=
  let n : FVec F S_ .f32 := constant S_ .f32 0x4B800000#32
  let one : FVec F S_ .f32 := constant S_ .f32 0x3F800000#32
  let eps : FVec F S_ .f32 := constant S_ .f32 0x3A83126F#32
  let half : FVec F S_ .f32 := constant S_ .f32 0x3F000000#32
  let var1 := Host.divf (subf q1 (Host.divf (mulf s1 s1) n)) (subf n one)
  let var2 := Host.divf (subf q2 (Host.divf (mulf s2 s2) n)) (subf n one)
  let mu1 := addf (Host.divf s1 n) eps
  let mu2 := addf (Host.divf s2 n) eps
  let cov := Host.divf (addf (subf (subf p (mulf mu2 s1)) (mulf mu1 s2)) (mulf (mulf n mu1) mu2)) (subf n one)
  let cor := Host.divf cov (addf (mulf (Host.sqrt var1) (Host.sqrt var2)) eps)
  let ce := addf cor eps
  shapeCast S1 (mulf half (mulf ce ce)) shapeCasts_S_S1

/-- The whole tail: the sums, the five scalars picked out of them, the arithmetic. -/
def tail (o : FVec F S2x5x8x128 .f32) : FVec F S1 .f32 :=
  tailS
    (shapeCast S_ (extractStridedSlice S1 ![0] (sums5 o) slices_S5_S1_0) shapeCasts_S1_S_)
    (shapeCast S_ (extractStridedSlice S1 ![1] (sums5 o) slices_S5_S1_1) shapeCasts_S1_S_)
    (shapeCast S_ (extractStridedSlice S1 ![2] (sums5 o) slices_S5_S1_2) shapeCasts_S1_S_)
    (shapeCast S_ (extractStridedSlice S1 ![3] (sums5 o) slices_S5_S1_3) shapeCasts_S1_S_)
    (shapeCast S_ (extractStridedSlice S1 ![4] (sums5 o) slices_S5_S1_4) shapeCasts_S1_S_)

end Cert.KernelIdeal.Hand

end
-- ==== Proof.IdealFold.lean ====
/-
  The accumulators over a slab's eight points as one fold.

  Within slab c the accumulators are reset at point 8c and stepped at points 8c + 1 … 8c + 7, so after point 8c + j they
  are the fold of the steps over the slab's first j + 1 row blocks; at a last point the output buffer holds the five
  copies of the point's accumulators.
-/
import proofs.«126519_j28741921145436_2_alg».proof.Proof.IdealValue
import proofs.«126519_j28741921145436_2_alg».proof.Proof.IdealTail

set_option maxRecDepth 16384
set_option maxHeartbeats 40000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The fold -/

/-- Point `n`'s step on the accumulators. -/
def stepAt (c : Dev nD) (n : ℕ) (h : n < cfg0.N) (s : Acc5 (F := F)) : Acc5 (F := F) :=
  upd (iblk m c 0 ⟨n, h⟩) (iblk m c 1 ⟨n, h⟩) s
/-- A first point's step from the zero accumulators. -/
def resetAt (c : Dev nD) (n : ℕ) (h : n < cfg0.N) : Acc5 (F := F) := stepAt m c n h zero5
/-- The accumulators after position `n`. -/
def accs (c : Dev nD) (n : ℕ) (h : n < cfg0.N) : Acc5 (F := F) := (outsAt0 m c n h).2

theorem accs_reset (c : Dev nD) (n : ℕ) (h : n < cfg0.N) (h0 : n % 8 = 0) : accs m c n h = resetAt m c n h := by
  have h1 : ¬(⟨n, h⟩ : Fin cfg0.N).val % 8 = 7 := by dsimp only; omega
  unfold accs
  rw [outsAt0_A m c ⟨n, h⟩ h0 h1]
  exact stA_acc ..

theorem accs_step (c : Dev nD) (n : ℕ) (h : n + 1 < cfg0.N) (h0 : ¬(n + 1) % 8 = 0) :
    accs m c (n + 1) h = stepAt m c (n + 1) h (accs m c n (Nat.lt_of_succ_lt h)) := by
  unfold accs
  by_cases h1 : (n + 1) % 8 = 7
  · rw [outsAt0_C m c ⟨n + 1, h⟩ h0 h1]
    exact stC_acc ..
  · rw [outsAt0_B m c ⟨n + 1, h⟩ h0 h1]
    exact stB_acc ..

/-- At any position the accumulators are the fold over the slab's row blocks so far. -/
theorem accs_fold (c : Dev nD) (t : ℕ) (ht : t < cfg0.N) (h' : 8 * (t / 8) + t % 8 < cfg0.N) :
    accs m c t ht = Pipeline.accAt (resetAt m c) (stepAt m c) (8 * (t / 8)) (t % 8) h' :=
  Pipeline.eq_accAt_of_mod (accs m c) 8 (resetAt m c) (stepAt m c) (accs_reset m c) (accs_step m c) (by decide) t ht h'

/-- At a last point the output buffer holds the five copies of the point's accumulators. -/
theorem out_last (c : Dev nD) (t : Fin cfg0.N) (h1 : t.val % 8 = 7) :
    (outsAt0 m c t.val t.isLt).1 = View.canon (outPieces (accs m c t.val t.isLt)) := by
  have h0 : ¬t.val % 8 = 0 := by omega
  unfold accs
  rw [outsAt0_C m c t h0 h1, stC_out, stC_acc]

end Cert.KernelIdeal.Hand

end
-- ==== Proof.IdealOut.lean ====
/-
  The region's output array and the program's result.

  The output window is written back once per slab, at point 8c + 7, into block (c, 0, 0, 0) of the [2, 5, 8, 128]
  array; the two blocks tile the array, so the array ends holding, at (c, k, p, q), the copy of accumulator k of slab
  c's last point.  The later host lines then compute the result from that array.
-/
import proofs.«126519_j28741921145436_2_alg».proof.Proof.IdealFold
import Idealize.ShloMosaic.Lib.ValueIdx
import Idealize.ShloMosaic.Lib.StableHlo.Run

set_option maxRecDepth 16384
set_option maxHeartbeats 40000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's output array -/

theorem lastPt_lt (k : Fin 2) : k.val * 8 + 7 < cfg0.N := by
  have := k.isLt; rw [show cfg0.N = 16 from N_0]; omega

/-- The array the region leaves: at (c', k, p, q) the copy of accumulator k after slab c''s last point. -/
def OUT (c : Dev nD) : Buf (Elt F) ((c : Thread nD τ).loc main_v2) := fun j =>
  View.canon (outPieces (accs m c ((⟨(j 0).val, (j 0).isLt⟩ : Fin 2).val * 8 + 7) (lastPt_lt _)))
    (ValueIdx.ix4 (0 : Fin 1) (⟨(j 1).val, (j 1).isLt⟩ : Fin 5) (⟨(j 2).val, (j 2).isLt⟩ : Fin 8) (⟨(j 3).val, (j 3).isLt⟩ : Fin 128))

/-- Where the output window's block sits at each point: block (t / 8, 0, 0, 0). -/
theorem idx_out : ∀ t : Fin cfg0.N, win0_2.index t (0 : Fin 4) = t.val / 8 ∧ win0_2.index t (1 : Fin 4) = 0
    ∧ win0_2.index t (2 : Fin 4) = 0 ∧ win0_2.index t (3 : Fin 4) = 0 :=
  (by decide +kernel : ∀ t : Fin grid0.N, _)

theorem accs_congr (c : Dev nD) (u t : ℕ) (hu : u < cfg0.N) (ht : t < cfg0.N) (e : u = t) : accs m c u hu = accs m c t ht := by
  subst e; rfl

/-- What a last point writes back is its block of `OUT`. -/
theorem flushed_eq (c : Dev nD) (t : Fin cfg0.N) (hf : (cfg0.win 2).flush t = true) :
    (dats m 0 c).flushed 2 t = ((cfg0.win 2).blk t).view.read (Elt F) (OUT m c) := by
  have h7 : t.val % 8 = 7 := (flush0_2 t).mp hf
  have hN : t.val < 16 := lt_of_lt_of_eq t.isLt (show cfg0.N = 16 from N_0)
  show (cfg0.win 2).cut (grid0.coords t) ((dats m 0 c).after 2 t) = _
  rw [after0_2, out_last m c t h7]
  obtain ⟨e0, e1, e2, e3⟩ := idx_out t
  funext y
  rw [View.read_apply]
  unfold OUT
  have hy0 : (y 0).val < 1 := (y 0).isLt
  have hy1 : (y 1).val < 5 := (y 1).isLt
  have hy2 : (y 2).val < 8 := (y 2).isLt
  have hy3 : (y 3).val < 128 := (y 3).isLt
  have c0 : ((((cfg0.win 2).blk t).view.emb y) 0).val = t.val / 8 := by
    show win0_2.index t (0 : Fin 4) * 1 + 1 * (y 0).val = _; omega
  have c1 : ((((cfg0.win 2).blk t).view.emb y) 1).val = (y 1).val := by
    show win0_2.index t (1 : Fin 4) * 5 + 1 * (y 1).val = _; omega
  have c2 : ((((cfg0.win 2).blk t).view.emb y) 2).val = (y 2).val := by
    show win0_2.index t (2 : Fin 4) * 8 + 1 * (y 2).val = _; omega
  have c3 : ((((cfg0.win 2).blk t).view.emb y) 3).val = (y 3).val := by
    show win0_2.index t (3 : Fin 4) * 128 + 1 * (y 3).val = _; omega
  have ea : accs m c ((⟨((((cfg0.win 2).blk t).view.emb y) 0).val, ((((cfg0.win 2).blk t).view.emb y) 0).isLt⟩ : Fin 2).val * 8 + 7) (lastPt_lt _) = accs m c t.val t.isLt :=
    accs_congr m c _ _ _ _ (by show ((((cfg0.win 2).blk t).view.emb y) 0).val * 8 + 7 = t.val; rw [c0]; omega)
  rw [ea]
  refine congrArg (View.canon (outPieces (accs m c t.val t.isLt))) ?_
  funext a
  apply Fin.ext
  match a with
  | ⟨0, _⟩ => show (y 0).val = 0; omega
  | ⟨1, _⟩ => exact c1.symm
  | ⟨2, _⟩ => exact c2.symm
  | ⟨3, _⟩ => exact c3.symm

theorem mem_blk (t : Fin cfg0.N) (i : S2x5x8x128.Idx) :
    i ∈ ((cfg0.win 2).blk t).view.set ↔ ∀ a : Fin 4, win0_2.index t a * S1x5x8x128.size a ≤ (i a).val ∧ (i a).val < win0_2.index t a * S1x5x8x128.size a + S1x5x8x128.size a := by
  show i ∈ ((View.whole main_v2).slice (win0_2.rect t)).set ↔ _
  rw [View.set_slice_whole, Rect.mem_set_unit]
  exact Iff.rfl

/-- The two written-back blocks tile the array: it ends holding `OUT`. -/
theorem final2 (c : Dev nD) : (dats m 0 c).arrAt 2 cfg0.N = OUT m c :=
  (dats m 0 c).arrAt_eq_of_cover 2 (OUT m c) (flushed_eq m c) fun i => by
    have h0 : (i 0).val < 2 := (i 0).isLt
    have h1 : (i 1).val < 5 := (i 1).isLt
    have h2 : (i 2).val < 8 := (i 2).isLt
    have h3 : (i 3).val < 128 := (i 3).isLt
    have hN : cfg0.N = 16 := N_0
    refine ⟨⟨(i 0).val * 8 + 7, by omega⟩, (flush0_2 _).mpr (by show ((i 0).val * 8 + 7) % 8 = 7; omega), ?_⟩
    rw [mem_blk]
    obtain ⟨e0, e1, e2, e3⟩ := idx_out ⟨(i 0).val * 8 + 7, by omega⟩
    intro a
    match a with
    | ⟨0, _⟩ => show win0_2.index _ (0 : Fin 4) * 1 ≤ (i 0).val ∧ (i 0).val < win0_2.index _ (0 : Fin 4) * 1 + 1; rw [e0]; dsimp only; omega
    | ⟨1, _⟩ => show win0_2.index _ (1 : Fin 4) * 5 ≤ (i 1).val ∧ (i 1).val < win0_2.index _ (1 : Fin 4) * 5 + 5; rw [e1]; omega
    | ⟨2, _⟩ => show win0_2.index _ (2 : Fin 4) * 8 ≤ (i 2).val ∧ (i 2).val < win0_2.index _ (2 : Fin 4) * 8 + 8; rw [e2]; omega
    | ⟨3, _⟩ => show win0_2.index _ (3 : Fin 4) * 128 ≤ (i 3).val ∧ (i 3).val < win0_2.index _ (3 : Fin 4) * 128 + 128; rw [e3]; omega

/-! ## The result -/

/-- The later host lines, run from any contents of the buffers, leave in the result buffer `tail` of the contents of the
    region's output array. -/
theorem tail_after (W : Valuation τ sig (Elt F)) :
    StableHlo.after hostOps1 W (Proc.devRef .tc main_v51) = tail (W (Proc.devRef .tc main_v2)) := by
  after_results_simp
  rfl

/-- The later host lines compute `tail` of the region's output array. -/
theorem tail_value (c : Dev nD) :
    Pipeline.afterTail₀ cfgs (dats m) 0 (V0 m) [hostOps1] c main_v51 = tail (OUT m c) := by
  unfold Pipeline.afterTail₀
  show StableHlo.after hostOps1 _ (Proc.devRef .tc main_v51) = _
  rw [tail_after]
  exact congrArg tail ((Pipeline.withArrays_arr spec0 launch0.win.arr_inj c _ _ 2).trans (final2 m c))

/-- The program's run: the result is `tail` of `OUT`, the arguments end as launched. -/
theorem run_tail : θ_run defs (onTc (τ := τ) (main (F := F))) ⟨m, fun _ => 0, ρ⟩ (fun r => ∀ c : Dev nD,
      r.2.mem ((c.tc : Thread nD τ).loc main_v51) = tail (OUT m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (tail_value m c), (h c).2⟩) (run_result m ρ)

end Cert.KernelIdeal.Hand

end
-- ==== Proof.Spec.lean ====
/-
  The mathematics both programs compute, stated once over an arbitrary finite index type.

  Both programs end in the same last steps: from two variances `v1 v2` and a covariance `cv` they form
  `cor = cv / (√v1 · √v2 + ε)` and return `½ · (cor + ε)²` (`loss`).  They differ in how the three numbers are
  obtained from the two input arrays `a b`:

  * the kernel shifts every element by `½` and accumulates the five sums `Σ (a - ½)`, `Σ (b - ½)`,
    `Σ (a - ½)²`, `Σ (b - ½)²`, `Σ (a - ½)(b - ½)` (`kS`, `kQ`), then uses the expanded moment formulas
    `(q - s² / n) / (n - 1)` (`kVar`) and `(p - μ₂ s₁ - μ₁ s₂ + n μ₁ μ₂) / (n - 1)` with `μ = s / n + ε` (`kCov`);
  * the reference centres on the mean: `Σ (a - Σa / n)² / (n - 1)` (`rVar`) and
    `Σ (a - (Σa / n + ε)) (b - (Σb / n + ε)) / (n - 1)` (`rCov`).

  All operations are the exact ones on the extended reals; the float literals are kept as the extended reals their
  words denote (`nF` = 16777216, `one` = 1, `half` = ½, `nm1` = 16777215, `eps` = the float nearest 0.001).
-/
import Idealize.ShloMosaic.PureOps.Ideal
import Idealize.ShloMosaic.PureOps.Ideal.Laws

noncomputable section

namespace Cert.Spec

open Idealize.ShloMosaic

/-- The element count 16777216 as the float word both programs divide by. -/
def nF : EReal := Ideal.ofBits .f32 0x4B800000#32
/-- The float word of 1. -/
def one : EReal := Ideal.ofBits .f32 0x3F800000#32
/-- The float word of ½: the kernel's centring constant, and the factor of the result. -/
def half : EReal := Ideal.ofBits .f32 0x3F000000#32
/-- The float word nearest 0.001, the same word in both programs. -/
def eps : EReal := Ideal.ofBits .f32 0x3A83126F#32
/-- The float word of 16777215, the reference's divisor of the covariance. -/
def nm1 : EReal := Ideal.ofBits .f32 0x4B7FFFFF#32

/-- The shared last steps: `½ · (cv / (√v1 · √v2 + ε) + ε)²`. -/
def loss (v1 v2 cv : EReal) : EReal :=
  half * ((Ideal.div cv (Ideal.sqrt v1 * Ideal.sqrt v2 + eps) + eps) * (Ideal.div cv (Ideal.sqrt v1 * Ideal.sqrt v2 + eps) + eps))

variable {ι : Type} [Fintype ι]

/-- The kernel's first-moment sum: `Σ (a - ½)`. -/
def kS (a : ι → EReal) : EReal := ∑ j, (a j - half)
/-- The kernel's second-moment sums: `Σ (a - ½)(b - ½)`. -/
def kQ (a b : ι → EReal) : EReal := ∑ j, (a j - half) * (b j - half)
/-- The kernel's variance from the shifted sums: `(q - s·s / n) / (n - 1)`. -/
def kVar (s q : EReal) : EReal := Ideal.div (q - Ideal.div (s * s) nF) (nF - one)
/-- The kernel's covariance from the shifted sums, with `μ = s / n + ε`:
    `(p - μ₂ s₁ - μ₁ s₂ + n μ₁ μ₂) / (n - 1)`. -/
def kCov (s1 s2 p : EReal) : EReal :=
  Ideal.div (((p - (Ideal.div s2 nF + eps) * s1) - (Ideal.div s1 nF + eps) * s2)
    + (nF * (Ideal.div s1 nF + eps)) * (Ideal.div s2 nF + eps)) (nF - one)

/-- The reference's variance: `Σ (a - Σa / n)² / (n - 1)`. -/
def rVar (a : ι → EReal) : EReal :=
  Ideal.div (∑ j, (a j - Ideal.div (∑ k, a k) nF) * (a j - Ideal.div (∑ k, a k) nF)) (nF - one)
/-- The reference's covariance: `Σ (a - (Σa / n + ε)) (b - (Σb / n + ε)) / 16777215`. -/
def rCov (a b : ι → EReal) : EReal :=
  Ideal.div (∑ j, (a j - (Ideal.div (∑ k, a k) nF + eps)) * (b j - (Ideal.div (∑ k, b k) nF + eps))) nm1

/-- What the kernel's program returns, as a function of the two arrays. -/
def kOut (a b : ι → EReal) : EReal :=
  loss (kVar (kS a) (kQ a a)) (kVar (kS b) (kQ b b)) (kCov (kS a) (kS b) (kQ a b))
/-- What the reference returns, as a function of the two arrays. -/
def rOut (a b : ι → EReal) : EReal := loss (rVar a) (rVar b) (rCov a b)

end Cert.Spec

end
-- ==== Proof.IdealPayload.lean ====
/-
  The kernel's payloads read at an index, at the ideal instance.

  A block `x` of shape [1, 8192, 128] is viewed [8192, 128] (the unit axis dropped), centred by the float word of ½, and
  viewed [1024, 8, 128]: the element at (r, p, q) is `x (0, r·8 + p, q) - ½` (`row r p = r·8 + p`: both views list the
  elements in row-major order).  A lane sum over axis 0 of a [1024, 8, 128] array at (p, q) is the sum over `r : Fin 1024`
  of its elements at (r, p, q).  So each accumulating payload at (p, q) is the accumulator there plus the sum over `r` of
  the centred elements, of their squares, or of the products of the two blocks' centred elements; a cast to the same
  shape is the identity, the initial accumulators are the zero word's value `0`, and the cast [8, 128] → [1, 1, 8, 128]
  reads (p, q) at (0, 0, p, q).
-/
import proofs.«126519_j28741921145436_2_alg».proof.Proof.Gen.KernelIdeal.Skeleton
import proofs.«126519_j28741921145436_2_alg».proof.Proof.Spec
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx
open scoped BigOperators

/-- Row `r·8 + p` of the [8192, 128] view: where element (r, p) of the [1024, 8, 128] view sits. -/
def row (r : Fin 1024) (p : Fin 8) : Fin 8192 := ⟨r.val * 8 + p.val, by omega⟩

/-! ## The centred block and the lane sum -/

/-- The centred [1024, 8, 128] view of a block at (r, p, q): `x (0, r·8 + p, q) - ½`. -/
theorem pay14_apply (x : Vec Ideal S1x8192x128 .f32) (r : Fin 1024) (p : Fin 8) (q : Fin 128) :
    k0_pay14 (F := Ideal) x (ix3 r p q) = x (ix3 0 (row r p) q) - Cert.Spec.half := by
  unfold k0_pay14
  refine (shapeCast_apply _ _ (ix3 r p q) (ix2 (row r p) q) ?_).trans ?_
  · rw [Shape.rowMajor_val_two, Shape.rowMajor_val_three]
    rfl
  · rw [subf_apply, broadcast_apply, shapeCast_1ab_ab_apply]
    rfl

/-- The second block's centred view: the same operations. -/
theorem pay15_apply (x : Vec Ideal S1x8192x128 .f32) (r : Fin 1024) (p : Fin 8) (q : Fin 128) :
    k0_pay15 (F := Ideal) x (ix3 r p q) = x (ix3 0 (row r p) q) - Cert.Spec.half := by
  unfold k0_pay15
  refine (shapeCast_apply _ _ (ix3 r p q) (ix2 (row r p) q) ?_).trans ?_
  · rw [Shape.rowMajor_val_two, Shape.rowMajor_val_three]
    rfl
  · rw [subf_apply, broadcast_apply, shapeCast_1ab_ab_apply]
    rfl

/-- The lane sum over axis 0 of a [1024, 8, 128] array at (p, q): the sum over `r` of its elements at (r, p, q). -/
theorem reduce_apply (src : FVec Ideal S1024x8x128 .f32) (hφ : FKind.Formats .f32)
    (hacc : (0x00000000#32 : BitVec 32) = 0x00000000#32) (p : Fin 8) (q : Fin 128) :
    multiReduction (F := Ideal) .add [0] S8x128 src 0x00000000#32 reduces_S1024x8x128_S8x128 hφ hacc (ix2 p q)
      = ∑ r : Fin 1024, src (ix3 r p q) := by
  refine (Ideal.multiReduction_add_single src 0x00000000#32 reduces_S1024x8x128_S8x128 hφ hacc (ix2 p q)).trans ?_
  refine Finset.sum_congr rfl fun r _ => congrArg src ?_
  funext a
  match a with
  | ⟨0, _⟩ => rfl
  | ⟨1, _⟩ => rfl
  | ⟨2, _⟩ => rfl

/-! ## The accumulating payloads -/

/-- The first block's running sum at (p, q): the accumulator plus `Σ_r (x₀ (0, r·8 + p, q) - ½)`. -/
theorem pay16_apply (x0 : Vec Ideal S1x8192x128 .f32) (s : Vec Ideal S8x128 .f32) (p : Fin 8) (q : Fin 128) :
    k0_pay16 (F := Ideal) x0 s (ix2 p q) = s (ix2 p q) + ∑ r : Fin 1024, (x0 (ix3 0 (row r p) q) - Cert.Spec.half) := by
  unfold k0_pay16
  dsimp only
  rw [shapeCast_self]
  refine (addf_apply _ _ _).trans (congrArg (s (ix2 p q) + ·) ?_)
  refine (reduce_apply _ _ _ p q).trans ?_
  exact Finset.sum_congr rfl fun r _ => pay14_apply x0 r p q

/-- The second block's running sum at (p, q): the accumulator plus `Σ_r (x₁ (0, r·8 + p, q) - ½)`. -/
theorem pay17_apply (x1 : Vec Ideal S1x8192x128 .f32) (s : Vec Ideal S8x128 .f32) (p : Fin 8) (q : Fin 128) :
    k0_pay17 (F := Ideal) x1 s (ix2 p q) = s (ix2 p q) + ∑ r : Fin 1024, (x1 (ix3 0 (row r p) q) - Cert.Spec.half) := by
  unfold k0_pay17
  dsimp only
  rw [shapeCast_self]
  refine (addf_apply _ _ _).trans (congrArg (s (ix2 p q) + ·) ?_)
  refine (reduce_apply _ _ _ p q).trans ?_
  exact Finset.sum_congr rfl fun r _ => pay15_apply x1 r p q

/-- The first block's running sum of squares at (p, q). -/
theorem pay18_apply (x0 : Vec Ideal S1x8192x128 .f32) (s : Vec Ideal S8x128 .f32) (p : Fin 8) (q : Fin 128) :
    k0_pay1 (k0_pay18 (F := Ideal) x0 s) (ix2 p q)
      = s (ix2 p q) + ∑ r : Fin 1024, (x0 (ix3 0 (row r p) q) - Cert.Spec.half) * (x0 (ix3 0 (row r p) q) - Cert.Spec.half) := by
  unfold k0_pay1 k0_pay18
  dsimp only
  rw [shapeCast_self]
  refine (addf_apply _ _ _).trans (congrArg (s (ix2 p q) + ·) ?_)
  refine (reduce_apply _ _ _ p q).trans ?_
  refine Finset.sum_congr rfl fun r _ => ?_
  rw [mulf_apply, pay14_apply]

/-- The second block's running sum of squares at (p, q). -/
theorem pay2_apply (x1 : Vec Ideal S1x8192x128 .f32) (s : Vec Ideal S8x128 .f32) (p : Fin 8) (q : Fin 128) :
    k0_pay2 (k0_pay15 (F := Ideal) x1) s (ix2 p q)
      = s (ix2 p q) + ∑ r : Fin 1024, (x1 (ix3 0 (row r p) q) - Cert.Spec.half) * (x1 (ix3 0 (row r p) q) - Cert.Spec.half) := by
  unfold k0_pay2
  dsimp only
  rw [shapeCast_self]
  refine (addf_apply _ _ _).trans (congrArg (s (ix2 p q) + ·) ?_)
  refine (reduce_apply _ _ _ p q).trans ?_
  refine Finset.sum_congr rfl fun r _ => ?_
  rw [mulf_apply, pay15_apply]

/-- The running sum of the two blocks' products at (p, q). -/
theorem pay3_apply (x0 x1 : Vec Ideal S1x8192x128 .f32) (s : Vec Ideal S8x128 .f32) (p : Fin 8) (q : Fin 128) :
    k0_pay3 (k0_pay14 (F := Ideal) x0) (k0_pay15 x1) s (ix2 p q)
      = s (ix2 p q) + ∑ r : Fin 1024, (x0 (ix3 0 (row r p) q) - Cert.Spec.half) * (x1 (ix3 0 (row r p) q) - Cert.Spec.half) := by
  unfold k0_pay3
  dsimp only
  rw [shapeCast_self]
  refine (addf_apply _ _ _).trans (congrArg (s (ix2 p q) + ·) ?_)
  refine (reduce_apply _ _ _ p q).trans ?_
  refine Finset.sum_congr rfl fun r _ => ?_
  rw [mulf_apply, pay14_apply, pay15_apply]

/-! ## The initial accumulators: the zero word broadcast -/

theorem pay9_apply (p : Fin 8) (q : Fin 128) : k0_pay9 (F := Ideal) (ix2 p q) = 0 := by
  unfold k0_pay9
  rw [shapeCast_self, broadcast_apply]
  exact Ideal.ofBits_zero_f32

theorem pay10_apply (p : Fin 8) (q : Fin 128) : k0_pay10 (F := Ideal) (ix2 p q) = 0 := by
  unfold k0_pay10
  rw [shapeCast_self, broadcast_apply]
  exact Ideal.ofBits_zero_f32

theorem pay11_apply (p : Fin 8) (q : Fin 128) : k0_pay11 (F := Ideal) (ix2 p q) = 0 := by
  unfold k0_pay11
  rw [shapeCast_self, broadcast_apply]
  exact Ideal.ofBits_zero_f32

theorem pay12_apply (p : Fin 8) (q : Fin 128) : k0_pay12 (F := Ideal) (ix2 p q) = 0 := by
  unfold k0_pay12
  rw [shapeCast_self, broadcast_apply]
  exact Ideal.ofBits_zero_f32

theorem pay13_apply (p : Fin 8) (q : Fin 128) : k0_pay13 (F := Ideal) (ix2 p q) = 0 := by
  unfold k0_pay13
  rw [shapeCast_self, broadcast_apply]
  exact Ideal.ofBits_zero_f32

/-! ## The results' cast [8, 128] → [1, 1, 8, 128] -/

theorem pay4_apply (v : Vec Ideal S8x128 .f32) (p : Fin 8) (q : Fin 128) :
    k0_pay4 (F := Ideal) v (ix4 0 0 p q) = v (ix2 p q) := by
  unfold k0_pay4
  refine shapeCast_apply _ _ (ix4 0 0 p q) (ix2 p q) ?_
  rw [Shape.rowMajor_val_two, Shape.rowMajor_val_four]
  show p.val * 128 + q.val = ((0 * 1 + 0) * 8 + p.val) * 128 + q.val
  omega

theorem pay5_apply (v : Vec Ideal S8x128 .f32) (p : Fin 8) (q : Fin 128) :
    k0_pay5 (F := Ideal) v (ix4 0 0 p q) = v (ix2 p q) := by
  unfold k0_pay5
  refine shapeCast_apply _ _ (ix4 0 0 p q) (ix2 p q) ?_
  rw [Shape.rowMajor_val_two, Shape.rowMajor_val_four]
  show p.val * 128 + q.val = ((0 * 1 + 0) * 8 + p.val) * 128 + q.val
  omega

theorem pay6_apply (v : Vec Ideal S8x128 .f32) (p : Fin 8) (q : Fin 128) :
    k0_pay6 (F := Ideal) v (ix4 0 0 p q) = v (ix2 p q) := by
  unfold k0_pay6
  refine shapeCast_apply _ _ (ix4 0 0 p q) (ix2 p q) ?_
  rw [Shape.rowMajor_val_two, Shape.rowMajor_val_four]
  show p.val * 128 + q.val = ((0 * 1 + 0) * 8 + p.val) * 128 + q.val
  omega

theorem pay7_apply (v : Vec Ideal S8x128 .f32) (p : Fin 8) (q : Fin 128) :
    k0_pay7 (F := Ideal) v (ix4 0 0 p q) = v (ix2 p q) := by
  unfold k0_pay7
  refine shapeCast_apply _ _ (ix4 0 0 p q) (ix2 p q) ?_
  rw [Shape.rowMajor_val_two, Shape.rowMajor_val_four]
  show p.val * 128 + q.val = ((0 * 1 + 0) * 8 + p.val) * 128 + q.val
  omega

theorem pay8_apply (v : Vec Ideal S8x128 .f32) (p : Fin 8) (q : Fin 128) :
    k0_pay8 (F := Ideal) v (ix4 0 0 p q) = v (ix2 p q) := by
  unfold k0_pay8
  refine shapeCast_apply _ _ (ix4 0 0 p q) (ix2 p q) ?_
  rw [Shape.rowMajor_val_two, Shape.rowMajor_val_four]
  show p.val * 128 + q.val = ((0 * 1 + 0) * 8 + p.val) * 128 + q.val
  omega

end Cert.KernelIdeal.Hand

end
-- ==== Proof.IdealOutRead.lean ====
/-
  The accumulators and the output buffer read at an index, at the ideal instance.

  Accumulator `k` after a point is, at (p, q), what it was plus the point's sum over the 1024 row groups of the k-th
  quantity of the centred elements `u = x₀ - ½`, `w = x₁ - ½`: `u`, `w`, `u²`, `w²`, `u·w`.  The zero accumulators read `0`.
  The five copies of a last point fill the five [1, 1, 8, 128] slices of the [1, 5, 8, 128] output buffer: slice `k`
  lies at offset `k` on axis 1, so the index (0, k, p, q) is in slice `k` alone, where the buffer reads accumulator `k`
  at (p, q).
-/
import proofs.«126519_j28741921145436_2_alg».proof.Proof.IdealValue
import proofs.«126519_j28741921145436_2_alg».proof.Proof.IdealPayload

noncomputable section

namespace Cert.KernelIdeal.Hand

open Cert.KernelIdeal Cert.KernelIdeal.Gen Idealize.ShloMosaic Idealize.ShloMosaic.ValueIdx
open scoped BigOperators

/-- Accumulator `k` of the five. -/
def comp (s : Acc5 (F := Ideal)) : Fin 5 → Vec Ideal S8x128 .f32
  | ⟨0, _⟩ => s.1
  | ⟨1, _⟩ => s.2.1
  | ⟨2, _⟩ => s.2.2.1
  | ⟨3, _⟩ => s.2.2.2.1
  | ⟨4, _⟩ => s.2.2.2.2

/-- The k-th quantity of the centred elements at row group `r`, lane (p, q): with `u = x₀ - ½`, `w = x₁ - ½` at
    (0, r·8 + p, q): `u`, `w`, `u·u`, `w·w`, `u·w`. -/
def term (k : Fin 5) (x0 x1 : Vec Ideal S1x8192x128 .f32) (r : Fin 1024) (p : Fin 8) (q : Fin 128) : EReal :=
  match k with
  | ⟨0, _⟩ => x0 (ix3 0 (row r p) q) - Cert.Spec.half
  | ⟨1, _⟩ => x1 (ix3 0 (row r p) q) - Cert.Spec.half
  | ⟨2, _⟩ => (x0 (ix3 0 (row r p) q) - Cert.Spec.half) * (x0 (ix3 0 (row r p) q) - Cert.Spec.half)
  | ⟨3, _⟩ => (x1 (ix3 0 (row r p) q) - Cert.Spec.half) * (x1 (ix3 0 (row r p) q) - Cert.Spec.half)
  | ⟨4, _⟩ => (x0 (ix3 0 (row r p) q) - Cert.Spec.half) * (x1 (ix3 0 (row r p) q) - Cert.Spec.half)

/-- One point adds, to accumulator `k` at (p, q), the sum over the row groups of the k-th quantity. -/
theorem upd_apply (x0 x1 : Vec Ideal S1x8192x128 .f32) (s : Acc5 (F := Ideal)) (k : Fin 5) (p : Fin 8) (q : Fin 128) :
    comp (upd x0 x1 s) k (ix2 p q) = comp s k (ix2 p q) + ∑ r : Fin 1024, term k x0 x1 r p q :=
  match k with
  | ⟨0, _⟩ => pay16_apply x0 s.1 p q
  | ⟨1, _⟩ => pay17_apply x1 s.2.1 p q
  | ⟨2, _⟩ => pay18_apply x0 s.2.2.1 p q
  | ⟨3, _⟩ => pay2_apply x1 s.2.2.2.1 p q
  | ⟨4, _⟩ => pay3_apply x0 x1 s.2.2.2.2 p q

/-- The zero accumulators read `0`. -/
theorem zero5_apply (k : Fin 5) (p : Fin 8) (q : Fin 128) : comp (zero5 (F := Ideal)) k (ix2 p q) = 0 :=
  match k with
  | ⟨0, _⟩ => pay9_apply p q
  | ⟨1, _⟩ => pay10_apply p q
  | ⟨2, _⟩ => pay11_apply p q
  | ⟨3, _⟩ => pay12_apply p q
  | ⟨4, _⟩ => pay13_apply p q

/-! ## The output buffer -/

/-- The index (0, 0, p, q) of the slice at offset `o` on axis 1 is the buffer's index (0, o, p, q). -/
theorem emb_unit (o : Nat) (ho : o < 5) (inb) (p : Fin 8) (q : Fin 128) :
    (Rect.unit (s := S1x5x8x128) ![0, o, 0, 0] S1x1x8x128.size inb).emb (ix4 0 0 p q) = ix4 0 ⟨o, ho⟩ p q := by
  funext a
  apply Fin.ext
  rw [Rect.emb_apply]
  match a with
  | ⟨0, _⟩ => rfl
  | ⟨1, _⟩ => show o + 1 * 0 = o; omega
  | ⟨2, _⟩ => show 0 + 1 * p.val = p.val; omega
  | ⟨3, _⟩ => show 0 + 1 * q.val = q.val; omega

/-- The index (0, n, p, q) is not in the slice at another offset `o ≠ n` on axis 1. -/
theorem notMem_unit (o n : Nat) (hn : n < 5) (hne : n ≠ o) (inb) (p : Fin 8) (q : Fin 128) :
    ix4 0 ⟨n, hn⟩ p q ∉ (Rect.unit (s := S1x5x8x128) ![0, o, 0, 0] S1x1x8x128.size inb).set := by
  rw [Rect.mem_set_unit]
  intro h
  have h1 := h 1
  have h2 : o ≤ n ∧ n < o + 1 := h1
  omega

/-- Under the last copy, at its slice's offset, the buffer reads the copy's payload at (0, 0, p, q). -/
theorem canon_hit (o : Nat) (ho : o < 5) (inb) (w : FVec Ideal S1x1x8x128 .f32)
    (L : List (View.Piece (Elt Ideal) S1x5x8x128 .f32)) (p : Fin 8) (q : Fin 128) :
    View.canon ((⟨Rect.unit (s := S1x5x8x128) ![0, o, 0, 0] S1x1x8x128.size inb, w⟩ : View.Piece (Elt Ideal) S1x5x8x128 .f32) :: L) (ix4 0 ⟨o, ho⟩ p q) = w (ix4 0 0 p q) := by
  rw [← emb_unit o ho inb p q]
  exact View.canon_cons_emb _ _ _ _

/-- At another offset on axis 1 the last copy is not read: the buffer reads what the earlier copies left. -/
theorem canon_miss (o n : Nat) (hn : n < 5) (hne : n ≠ o) (inb) (w : FVec Ideal S1x1x8x128 .f32)
    (L : List (View.Piece (Elt Ideal) S1x5x8x128 .f32)) (p : Fin 8) (q : Fin 128) :
    View.canon ((⟨Rect.unit (s := S1x5x8x128) ![0, o, 0, 0] S1x1x8x128.size inb, w⟩ : View.Piece (Elt Ideal) S1x5x8x128 .f32) :: L) (ix4 0 ⟨n, hn⟩ p q)
      = View.canon L (ix4 0 ⟨n, hn⟩ p q) :=
  View.canon_cons_of_not_mem _ _ (notMem_unit o n hn hne inb p q)

/-- After a last point the output buffer reads, at (0, k, p, q), accumulator `k` at (p, q): the copies are listed last
    first, the index lies in none of the slices at the other offsets and in slice `k` it is the slice's own (0, 0, p, q). -/
theorem outRead (s : Acc5 (F := Ideal)) (k : Fin 5) (p : Fin 8) (q : Fin 128) :
    View.canon (outPieces s) (ix4 0 k p q) = comp s k (ix2 p q) :=
  match k with
  | ⟨0, hn⟩ =>
    (canon_miss 4 0 hn (by decide) inb_S1x5x8x128_S1x1x8x128_0_4_0_0 _ _ p q).trans <|
    (canon_miss 3 0 hn (by decide) inb_S1x5x8x128_S1x1x8x128_0_3_0_0 _ _ p q).trans <|
    (canon_miss 2 0 hn (by decide) inb_S1x5x8x128_S1x1x8x128_0_2_0_0 _ _ p q).trans <|
    (canon_miss 1 0 hn (by decide) inb_S1x5x8x128_S1x1x8x128_0_1_0_0 _ _ p q).trans <|
    (canon_hit 0 hn inb_S1x5x8x128_S1x1x8x128_0_0_0_0 _ _ p q).trans (pay4_apply _ p q)
  | ⟨1, hn⟩ =>
    (canon_miss 4 1 hn (by decide) inb_S1x5x8x128_S1x1x8x128_0_4_0_0 _ _ p q).trans <|
    (canon_miss 3 1 hn (by decide) inb_S1x5x8x128_S1x1x8x128_0_3_0_0 _ _ p q).trans <|
    (canon_miss 2 1 hn (by decide) inb_S1x5x8x128_S1x1x8x128_0_2_0_0 _ _ p q).trans <|
    (canon_hit 1 hn inb_S1x5x8x128_S1x1x8x128_0_1_0_0 _ _ p q).trans (pay5_apply _ p q)
  | ⟨2, hn⟩ =>
    (canon_miss 4 2 hn (by decide) inb_S1x5x8x128_S1x1x8x128_0_4_0_0 _ _ p q).trans <|
    (canon_miss 3 2 hn (by decide) inb_S1x5x8x128_S1x1x8x128_0_3_0_0 _ _ p q).trans <|
    (canon_hit 2 hn inb_S1x5x8x128_S1x1x8x128_0_2_0_0 _ _ p q).trans (pay6_apply _ p q)
  | ⟨3, hn⟩ =>
    (canon_miss 4 3 hn (by decide) inb_S1x5x8x128_S1x1x8x128_0_4_0_0 _ _ p q).trans <|
    (canon_hit 3 hn inb_S1x5x8x128_S1x1x8x128_0_3_0_0 _ _ p q).trans (pay7_apply _ p q)
  | ⟨4, hn⟩ =>
    (canon_hit 4 hn inb_S1x5x8x128_S1x1x8x128_0_4_0_0 _ _ p q).trans (pay8_apply _ p q)

end Cert.KernelIdeal.Hand

end
-- ==== Proof.IdealBlocks.lean ====
/-
  The two input windows' blocks, read off the argument arrays.

  Each argument array of `16777216` elements is reshaped row-major to `[2, 65536, 128]`, and the region walks it over
  the `2 × 8` grid in blocks of shape `[1, 8192, 128]`: grid point `t` is slab `t / 8`, row block `t % 8`, and its
  block starts at block index `(t / 8, t % 8, 0)`.  A block's coordinate on each axis is the block index times the
  block's extent plus the coordinate inside the block, so row `R`, lane `q` of the block at point `t` is the reshaped
  array at `(t / 8, (t % 8) · 8192 + R, q)`, and the reshaped array at `(a, b, l)` is the flat array at
  `(a · 65536 + b) · 128 + l`.
-/
import proofs.«126519_j28741921145436_2_alg».proof.Proof.IdealCases
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

/-- The flat position of row `R`, lane `q` of the block of grid point `t` is inside the array. -/
theorem blockPos_lt (t : Fin cfg0.N) (R : Fin 8192) (q : Fin 128) :
    ((t.val / 8) * 65536 + (t.val % 8) * 8192 + R.val) * 128 + q.val < 16777216 := by
  have ht : t.val < 16 := Nat.lt_of_lt_of_eq t.isLt N_0
  have := R.isLt; have := q.isLt
  omega

/-- The two input windows' block indices over the grid: slab `t / 8`, row block `t % 8`, the one lane block. -/
theorem idx_facts0 : ∀ t : Fin cfg0.N, win0_0.index t (0 : Fin 3) = t.val / 8 ∧ win0_0.index t (1 : Fin 3) = t.val % 8
    ∧ win0_0.index t (2 : Fin 3) = 0 ∧ win0_1.index t (0 : Fin 3) = t.val / 8 ∧ win0_1.index t (1 : Fin 3) = t.val % 8
    ∧ win0_1.index t (2 : Fin 3) = 0 :=
  (by decide +kernel : ∀ t : Fin grid0.N, _)

/-- A flat array reshaped to `[2, 65536, 128]` reads, at `(a, b, l)`, the flat array at `(a · 65536 + b) · 128 + l`. -/
theorem reshape_apply {α : Type} (x : S16777216.Idx → α) (j : S2x65536x128.Idx) (p : ℕ) (hp : p < 16777216)
    (h : ((j 0).val * 65536 + (j 1).val) * 128 + (j 2).val = p) :
    shapeCast S2x65536x128 x shapeCasts_S16777216_S2x65536x128 j = x (ValueIdx.ix1 ⟨p, hp⟩) := by
  refine shapeCast_apply x _ j _ ?_
  rw [Shape.rowMajor_val_one, Shape.rowMajor_val_three]
  exact h.symm

variable (m : (ℓ : Loc nD τ sig) → Buf (Elt F) ℓ)

/-- The first window's array when the region is entered: the first argument reshaped. -/
theorem V_main_v0 (c : Dev nD) :
    (V m c main_v0 : S2x65536x128.Idx → Elt F .f32)
      = shapeCast S2x65536x128 (m ((c : Thread nD τ).loc main_arg0)) shapeCasts_S16777216_S2x65536x128 := by
  dsimp only [V, V0]
  simp only [hostOps0, List.flatten_cons, List.flatten_nil, List.append_nil]
  after_results
  rfl

/-- The second window's array when the region is entered: the second argument reshaped. -/
theorem V_main_v1 (c : Dev nD) :
    (V m c main_v1 : S2x65536x128.Idx → Elt F .f32)
      = shapeCast S2x65536x128 (m ((c : Thread nD τ).loc main_arg1)) shapeCasts_S16777216_S2x65536x128 := by
  dsimp only [V, V0]
  simp only [hostOps0, List.flatten_cons, List.flatten_nil, List.append_nil]
  after_results
  rfl

/-- Row `R`, lane `q` of the first window's block at grid point `t` is the first argument at the flat position
    of slab `t / 8`, row `(t % 8) · 8192 + R`, lane `q`. -/
theorem iblk0_apply (c : Dev nD) (t : Fin cfg0.N) (R : Fin 8192) (q : Fin 128) :
    (iblk m c 0 t : Vec F S1x8192x128 .f32) (ValueIdx.ix3 0 R q)
      = m ((c : Thread nD τ).loc main_arg0)
          (ValueIdx.ix1 ⟨((t.val / 8) * 65536 + (t.val % 8) * 8192 + R.val) * 128 + q.val, blockPos_lt t R q⟩) := by
  obtain ⟨e0, e1, e2, -, -, -⟩ := idx_facts0 t
  unfold iblk
  show (V m c main_v0 : S2x65536x128.Idx → Elt F .f32) (((cfg0.win 0).blk t).view.emb (ValueIdx.ix3 0 R q)) = _
  rw [V_main_v0]
  refine reshape_apply _ _ _ _ ?_
  show ((win0_0.index t (0 : Fin 3) * 1 + 1 * 0) * 65536 + (win0_0.index t (1 : Fin 3) * 8192 + 1 * R.val)) * 128
      + (win0_0.index t (2 : Fin 3) * 128 + 1 * q.val) = _
  rw [e0, e1, e2]
  omega

theorem iblk1_apply (c : Dev nD) (t : Fin cfg0.N) (R : Fin 8192) (q : Fin 128) :
    (iblk m c 1 t : Vec F S1x8192x128 .f32) (ValueIdx.ix3 0 R q)
      = m ((c : Thread nD τ).loc main_arg1)
          (ValueIdx.ix1 ⟨((t.val / 8) * 65536 + (t.val % 8) * 8192 + R.val) * 128 + q.val, blockPos_lt t R q⟩) := by
  obtain ⟨-, -, -, e0, e1, e2⟩ := idx_facts0 t
  unfold iblk
  show (V m c main_v1 : S2x65536x128.Idx → Elt F .f32) (((cfg0.win 1).blk t).view.emb (ValueIdx.ix3 0 R q)) = _
  rw [V_main_v1]
  refine reshape_apply _ _ _ _ ?_
  show ((win0_1.index t (0 : Fin 3) * 1 + 1 * 0) * 65536 + (win0_1.index t (1 : Fin 3) * 8192 + 1 * R.val)) * 128
      + (win0_1.index t (2 : Fin 3) * 128 + 1 * q.val) = _
  rw [e0, e1, e2]
  omega

end Cert.KernelIdeal.Hand

end
-- ==== Proof.IdealTailValue.lean ====
/-
  The host lines after the region, read at the extended reals.

  The three host sums of the `[2, 5, 8, 128]` array — over the lanes, then the sublanes, then the two slabs, each
  started from `0` — give at entry `k` the triple sum `Σ c, Σ s, Σ l, o (c, k, s, l)` (`Sum5`).  Each of the five
  scalars is the one-element slice `[k : k + 1]` of that vector reshaped to a scalar, that is entry `k`.  The scalar
  arithmetic after them is, operation by operation, the expression `loss (kVar s₁ q₁) (kVar s₂ q₂) (kCov s₁ s₂ p)`
  of the shared statement of the mathematics: the same sums, differences, products, quotients and square roots of
  the same float words, in the same order.
-/
import proofs.«126519_j28741921145436_2_alg».proof.Proof.IdealTail
import proofs.«126519_j28741921145436_2_alg».proof.Proof.Spec
import Idealize.ShloMosaic.Lib.ValueIdx

noncomputable section

namespace Cert.KernelIdeal.Hand

open Cert.KernelIdeal
open Idealize.ShloMosaic
open Facts₀ Facts

/-- Entry `k` of the three host sums: the sum of quantity `k` over the slabs, sublanes and lanes. -/
def Sum5 (o : FVec Ideal S2x5x8x128 .f32) (k : Fin 5) : EReal :=
  ∑ c : Fin 2, ∑ s : Fin 8, ∑ l : Fin 128, o (ValueIdx.ix4 c k s l)

/-! ### One host sum over one axis, started from zero -/

/-- A host sum over one axis from the constant `0` is the sum over that axis's coordinates. -/
theorem reduceAdd_zero_apply {s t : Shape} {a : Fin s.rank} (h' : s.ReducesTo [a] t) (h : s.Reduces [a] t)
    (hu : 0 < Cert.KernelIdeal.S_.numel) (x : FVec Ideal s .f32) (j : t.Idx) :
    Host.reduceAdd x (constant Cert.KernelIdeal.S_ .f32 0x00000000#32) h' hu j
      = ∑ k : Fin (s.size a), x (h.lift j k) := by
  show Ideal.hostReduceAdd h' x (Ideal.ofBits .f32 0x00000000#32) j = _
  rw [Ideal.hostReduceAdd_single h' h, Ideal.ofBits_zero_f32, zero_add]

/-- Over the lanes. -/
theorem sum_lanes (o : FVec Ideal S2x5x8x128 .f32) (c : Fin 2) (k : Fin 5) (s : Fin 8) :
    Host.reduceAdd o (constant Cert.KernelIdeal.S_ .f32 0x00000000#32) reducesTo_S2x5x8x128_S2x5x8_d3 h_S_
        (ValueIdx.ix3 c k s)
      = ∑ l : Fin 128, o (ValueIdx.ix4 c k s l) := by
  have hR : S2x5x8x128.Reduces [3] S2x5x8 := by decide
  refine (reduceAdd_zero_apply reducesTo_S2x5x8x128_S2x5x8_d3 hR h_S_ o (ValueIdx.ix3 c k s)).trans ?_
  refine Finset.sum_congr rfl fun l _ => congrArg o (funext fun a => ?_)
  match a with
  | ⟨0, _⟩ => exact Fin.ext rfl
  | ⟨1, _⟩ => exact Fin.ext rfl
  | ⟨2, _⟩ => exact Fin.ext rfl
  | ⟨3, _⟩ => exact Fin.ext rfl

/-- Over the sublanes. -/
theorem sum_sublanes (x : FVec Ideal S2x5x8 .f32) (c : Fin 2) (k : Fin 5) :
    Host.reduceAdd x (constant Cert.KernelIdeal.S_ .f32 0x00000000#32) reducesTo_S2x5x8_S2x5_d2 h_S_
        (ValueIdx.ix2 c k)
      = ∑ s : Fin 8, x (ValueIdx.ix3 c k s) := by
  have hR : S2x5x8.Reduces [2] S2x5 := by decide
  refine (reduceAdd_zero_apply reducesTo_S2x5x8_S2x5_d2 hR h_S_ x (ValueIdx.ix2 c k)).trans ?_
  refine Finset.sum_congr rfl fun s _ => congrArg x (funext fun a => ?_)
  match a with
  | ⟨0, _⟩ => exact Fin.ext rfl
  | ⟨1, _⟩ => exact Fin.ext rfl
  | ⟨2, _⟩ => exact Fin.ext rfl

/-- Over the two slabs. -/
theorem sum_slabs (x : FVec Ideal S2x5 .f32) (k : Fin 5) :
    Host.reduceAdd x (constant Cert.KernelIdeal.S_ .f32 0x00000000#32) reducesTo_S2x5_S5_d0 h_S_ (ValueIdx.ix1 k)
      = ∑ c : Fin 2, x (ValueIdx.ix2 c k) := by
  have hR : S2x5.Reduces [0] Cert.KernelIdeal.S5 := by decide
  refine (reduceAdd_zero_apply reducesTo_S2x5_S5_d0 hR h_S_ x (ValueIdx.ix1 k)).trans ?_
  refine Finset.sum_congr rfl fun c _ => congrArg x (funext fun a => ?_)
  match a with
  | ⟨0, _⟩ => exact Fin.ext rfl
  | ⟨1, _⟩ => exact Fin.ext rfl

/-- The three sums at entry `k`. -/
theorem sums5_apply (o : FVec Ideal S2x5x8x128 .f32) (k : Fin 5) : sums5 (F := Ideal) o (ValueIdx.ix1 k) = Sum5 o k := by
  unfold sums5 Sum5
  refine (sum_slabs _ k).trans ?_
  refine Finset.sum_congr rfl fun c _ => (sum_sublanes _ c k).trans ?_
  exact Finset.sum_congr rfl fun s _ => sum_lanes o c k s

/-! ### A one-element slice reshaped to a scalar -/

/-- The slice `[n : n + 1]` of a vector of five, reshaped to a scalar, is entry `n`. -/
theorem pick_apply (v : FVec Ideal Cert.KernelIdeal.S5 .f32) (k : Fin 5) (n : ℕ) (hn : k.val = n)
    (h : Cert.KernelIdeal.S5.Slices ![n] S1) (h' : S1.ShapeCasts Cert.KernelIdeal.S_) (i : Cert.KernelIdeal.S_.Idx) :
    shapeCast Cert.KernelIdeal.S_ (extractStridedSlice S1 ![n] v h) h' i = v (ValueIdx.ix1 k) := by
  unfold shapeCast extractStridedSlice
  refine congrArg v (funext fun a => Fin.ext ?_)
  match a with
  | ⟨0, _⟩ =>
    have h1 : ((Shape.reshapeEquiv h' i) ((⟨0, by decide⟩ : Fin Cert.KernelIdeal.S5.rank).cast h.1.symm)).val < 1 :=
      ((Shape.reshapeEquiv h' i) _).isLt
    show n + ((Shape.reshapeEquiv h' i) ((⟨0, by decide⟩ : Fin Cert.KernelIdeal.S5.rank).cast h.1.symm)).val = k.val
    omega

/-! ### The scalar arithmetic -/

/-- The arithmetic after the five sums is the shared expression of the mathematics at the five scalars. -/
theorem tailS_apply (s1 s2 q1 q2 p : FVec Ideal Cert.KernelIdeal.S_ .f32) (j : S1.Idx) :
    tailS (F := Ideal) s1 s2 q1 q2 p j
      = Cert.Spec.loss (Cert.Spec.kVar (s1 ValueIdx.ix0) (q1 ValueIdx.ix0)) (Cert.Spec.kVar (s2 ValueIdx.ix0) (q2 ValueIdx.ix0))
          (Cert.Spec.kCov (s1 ValueIdx.ix0) (s2 ValueIdx.ix0) (p ValueIdx.ix0)) := by
  unfold tailS shapeCast
  generalize Shape.reshapeEquiv shapeCasts_S_S1 j = i
  obtain rfl := ValueIdx.eq_ix0 i
  rfl

/-! ### The whole tail -/

theorem tail_ideal (o : FVec Ideal S2x5x8x128 .f32) :
    tail (F := Ideal) o = fun _ => Cert.Spec.loss (Cert.Spec.kVar (Sum5 o 0) (Sum5 o 2)) (Cert.Spec.kVar (Sum5 o 1) (Sum5 o 3))
      (Cert.Spec.kCov (Sum5 o 0) (Sum5 o 1) (Sum5 o 4)) := by
  funext j
  unfold tail
  refine (tailS_apply _ _ _ _ _ j).trans ?_
  rw [pick_apply (sums5 o) 0 0 rfl, pick_apply (sums5 o) 1 1 rfl, pick_apply (sums5 o) 2 2 rfl,
    pick_apply (sums5 o) 3 3 rfl, pick_apply (sums5 o) 4 4 rfl]
  rw [sums5_apply, sums5_apply, sums5_apply, sums5_apply, sums5_apply]

end Cert.KernelIdeal.Hand

end
-- ==== Proof.Regroup.lean ====
/-
  A sum over the flat array of `16777216` elements, regrouped the way the array is walked.

  The flat array is read row-major as `[2, 65536, 128]`: slab `c`, row, lane `l`.  A slab's `65536` rows are walked in
  `8` blocks `i` of `8192` rows, and inside a block row `r · 8 + s` is read for `r < 1024`, `s < 8`.  So the flat
  position of `(c, i, r, s, l)` is `(c · 65536 + i · 8192 + r · 8 + s) · 128 + l`.  This is a mixed-radix numeral:
  the map from the five digits to the positions below `16777216 = 2 · 8 · 1024 · 8 · 128` is one to one, and the two
  sets have the same number of elements, so it is a bijection and a sum over all positions is the five-fold sum over
  the digits, in any order of the five.
-/
import Idealize.ShloMosaic.Lib.ValueIdx

namespace Cert.Regroup

open Idealize.ShloMosaic

/-- The flat array's shape. -/
abbrev SN : Shape := ⟨1, ![16777216]⟩

/-- The flat position of slab `c`, block `i`, row `r · 8 + s` of the block, lane `l`. -/
def pos (c : Fin 2) (i : Fin 8) (r : Fin 1024) (s : Fin 8) (l : Fin 128) : ℕ :=
  (c.val * 65536 + i.val * 8192 + r.val * 8 + s.val) * 128 + l.val

theorem pos_lt (c : Fin 2) (i : Fin 8) (r : Fin 1024) (s : Fin 8) (l : Fin 128) : pos c i r s l < 16777216 := by
  have := c.isLt; have := i.isLt; have := r.isLt; have := s.isLt; have := l.isLt
  unfold pos; omega

/-- The index of the flat array at that position. -/
def J (c : Fin 2) (i : Fin 8) (r : Fin 1024) (s : Fin 8) (l : Fin 128) : SN.Idx :=
  ValueIdx.ix1 ⟨pos c i r s l, pos_lt c i r s l⟩

theorem J_val (c : Fin 2) (i : Fin 8) (r : Fin 1024) (s : Fin 8) (l : Fin 128) :
    (J c i r s l 0).val = (c.val * 65536 + i.val * 8192 + r.val * 8 + s.val) * 128 + l.val := rfl

/-- The flat array has `16777216` indices. -/
theorem card_SN : Fintype.card SN.Idx = 16777216 := by
  rw [Shape.card_idx]; rfl

/-- The five digits in the order the sums below nest them: slab, row within the group of eight, lane, block, group. -/
def E (p : Fin 2 × Fin 8 × Fin 128 × Fin 8 × Fin 1024) : SN.Idx :=
  J p.1 p.2.2.2.1 p.2.2.2.2 p.2.1 p.2.2.1

/-- Distinct digits give distinct positions. -/
theorem E_injective : Function.Injective E := by
  rintro ⟨c, s, l, i, r⟩ ⟨c', s', l', i', r'⟩ h
  have hv : pos c i r s l = pos c' i' r' s' l' := congrArg (fun j : SN.Idx => (j 0).val) h
  have := c.isLt; have := i.isLt; have := r.isLt; have := s.isLt; have := l.isLt
  have := c'.isLt; have := i'.isLt; have := r'.isLt; have := s'.isLt; have := l'.isLt
  unfold pos at hv
  have h1 : c.val = c'.val := by omega
  have h2 : s.val = s'.val := by omega
  have h3 : l.val = l'.val := by omega
  have h4 : i.val = i'.val := by omega
  have h5 : r.val = r'.val := by omega
  rw [Fin.ext h1, Fin.ext h2, Fin.ext h3, Fin.ext h4, Fin.ext h5]

theorem E_bijective : Function.Bijective E := by
  rw [Fintype.bijective_iff_injective_and_card]
  refine ⟨E_injective, ?_⟩
  rw [card_SN]
  simp only [Fintype.card_prod, Fintype.card_fin]

/-- A sum over the flat array is the five-fold sum over slab, row within the group, lane, block and group. -/
theorem sum_regroup {M : Type*} [AddCommMonoid M] (g : SN.Idx → M) :
    ∑ c : Fin 2, ∑ s : Fin 8, ∑ l : Fin 128, ∑ i : Fin 8, ∑ r : Fin 1024, g (J c i r s l) = ∑ j : SN.Idx, g j := by
  rw [← Function.Bijective.sum_comp E_bijective g]
  simp only [Fintype.sum_prod_type]
  rfl

/-- A sum over the first eight naturals is the sum over `Fin 8`. -/
theorem sum_range_eight {M : Type*} [AddCommMonoid M] (f : ℕ → M) :
    ∑ i ∈ Finset.range 8, f i = ∑ i : Fin 8, f i.val := Finset.sum_range f

end Cert.Regroup
-- ==== Proof.IdealSum.lean ====
/-
  The region's output array summed: the five sums of the two argument arrays.

  Accumulator `k` of slab `c'` after its last position is, at `(p, q)`, the sum over the slab's eight row blocks `i`
  and the `1024` row groups `r` of the `k`-th quantity — `u`, `w`, `u·u`, `w·w`, `u·w` with `u = x - ½`, `w = y - ½` —
  of the elements of the two blocks at row `r · 8 + p`, lane `q`; those are the two argument arrays' elements at the
  flat position of `(c', i, r, p, q)`.  The output array holds that accumulator at `(c', k, p, q)`, so its sum over
  `c'`, `p` and `q` is the five-fold sum over all the digits of the flat position, that is the sum over the whole
  array: `Σ (a - ½)`, `Σ (b - ½)`, `Σ (a - ½)²`, `Σ (b - ½)²`, `Σ (a - ½)(b - ½)`.  These are sums in the extended
  reals and need nothing of the elements.
-/
import proofs.«126519_j28741921145436_2_alg».proof.Proof.IdealOut
import proofs.«126519_j28741921145436_2_alg».proof.Proof.IdealOutRead
import proofs.«126519_j28741921145436_2_alg».proof.Proof.IdealBlocks
import proofs.«126519_j28741921145436_2_alg».proof.Proof.IdealTailValue
import proofs.«126519_j28741921145436_2_alg».proof.Proof.Regroup
import proofs.«126519_j28741921145436_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ) (c : Dev nD)

/-- The first argument array as the program is launched. -/
abbrev argA : S16777216.Idx → EReal := m ((c : Thread nD τ).loc main_arg0)
/-- The second argument array as the program is launched. -/
abbrev argB : S16777216.Idx → EReal := m ((c : Thread nD τ).loc main_arg1)

/-! ### One element's five quantities -/

/-- The `k`-th quantity of a pair of elements `x y`, centred at `½`: `u`, `w`, `u·u`, `w·w`, `u·w` with
    `u = x - ½`, `w = y - ½`. -/
def quant (k : Fin 5) (x y : EReal) : EReal :=
  match k with
  | ⟨0, _⟩ => x - Cert.Spec.half
  | ⟨1, _⟩ => y - Cert.Spec.half
  | ⟨2, _⟩ => (x - Cert.Spec.half) * (x - Cert.Spec.half)
  | ⟨3, _⟩ => (y - Cert.Spec.half) * (y - Cert.Spec.half)
  | ⟨4, _⟩ => (x - Cert.Spec.half) * (y - Cert.Spec.half)

/-- A block's `k`-th quantity at row group `r`, lane `(p, q)` is the quantity of the two blocks' elements there. -/
theorem term_eq (k : Fin 5) (x0 x1 : Vec Ideal S1x8192x128 .f32) (r : Fin 1024) (p : Fin 8) (q : Fin 128) (x y : EReal)
    (h0 : x0 (ix3 0 (row r p) q) = x) (h1 : x1 (ix3 0 (row r p) q) = y) : term k x0 x1 r p q = quant k x y := by
  subst h0 h1
  match k with
  | ⟨0, _⟩ => rfl
  | ⟨1, _⟩ => rfl
  | ⟨2, _⟩ => rfl
  | ⟨3, _⟩ => rfl
  | ⟨4, _⟩ => rfl

/-! ### Where a block's element lies in the flat array -/

/-- Row `r · 8 + p`, lane `q` of the block at grid position `8 c' + i` is the flat array's element of slab `c'`,
    row block `i`, row group `r`, row `p` of the group, lane `q`. -/
theorem blockPos_eq (c' : Fin 2) (i : Fin 8) (r : Fin 1024) (p : Fin 8) (q : Fin 128) (h : 8 * c'.val + i.val < cfg0.N) :
    (ix1 ⟨(((8 * c'.val + i.val) / 8) * 65536 + ((8 * c'.val + i.val) % 8) * 8192 + (row r p).val) * 128 + q.val,
        blockPos_lt ⟨8 * c'.val + i.val, h⟩ (row r p) q⟩ : S16777216.Idx)
      = Cert.Regroup.J c' i r p q := by
  funext a
  match a with
  | ⟨0, _⟩ =>
    apply Fin.ext
    show (((8 * c'.val + i.val) / 8) * 65536 + ((8 * c'.val + i.val) % 8) * 8192 + (r.val * 8 + p.val)) * 128 + q.val
      = (c'.val * 65536 + i.val * 8192 + r.val * 8 + p.val) * 128 + q.val
    have := c'.isLt; have := i.isLt
    have h8 : (8 * c'.val + i.val) / 8 = c'.val := by omega
    have h8' : (8 * c'.val + i.val) % 8 = i.val := by omega
    rw [h8, h8']
    omega

/-- The `k`-th quantity of the two blocks at position `8 c' + i` is that of the two argument arrays there. -/
theorem block_term (k : Fin 5) (c' : Fin 2) (i : Fin 8) (r : Fin 1024) (p : Fin 8) (q : Fin 128)
    (h : 8 * c'.val + i.val < cfg0.N) :
    term k (iblk m c 0 ⟨8 * c'.val + i.val, h⟩) (iblk m c 1 ⟨8 * c'.val + i.val, h⟩) r p q
      = quant k (argA m c (Cert.Regroup.J c' i r p q)) (argB m c (Cert.Regroup.J c' i r p q)) :=
  term_eq k _ _ r p q _ _
    ((iblk0_apply m c ⟨8 * c'.val + i.val, h⟩ (row r p) q).trans (congrArg (argA m c) (blockPos_eq c' i r p q h)))
    ((iblk1_apply m c ⟨8 * c'.val + i.val, h⟩ (row r p) q).trans (congrArg (argB m c) (blockPos_eq c' i r p q h)))

/-! ### The accumulators of a slab as a sum over its row blocks -/

/-- What grid position `n` adds to accumulator `k` at `(p, q)`: the sum over the row groups of the `k`-th quantity of
    the position's two blocks (`0` past the grid, where it is never used). -/
def addend (k : Fin 5) (p : Fin 8) (q : Fin 128) (n : ℕ) : EReal :=
  if h : n < cfg0.N then ∑ r : Fin 1024, term k (iblk m c 0 ⟨n, h⟩) (iblk m c 1 ⟨n, h⟩) r p q else 0

theorem addend_pos (k : Fin 5) (p : Fin 8) (q : Fin 128) (n : ℕ) (h : n < cfg0.N) :
    addend m c k p q n = ∑ r : Fin 1024, term k (iblk m c 0 ⟨n, h⟩) (iblk m c 1 ⟨n, h⟩) r p q := dif_pos h

/-- A step adds the position's addend. -/
theorem stepAt_apply (k : Fin 5) (p : Fin 8) (q : Fin 128) (n : ℕ) (h : n < cfg0.N) (s : Acc5 (F := Ideal)) :
    comp (stepAt m c n h s) k (ix2 p q) = comp s k (ix2 p q) + addend m c k p q n :=
  (upd_apply _ _ s k p q).trans (congrArg (comp s k (ix2 p q) + ·) (addend_pos m c k p q n h).symm)

/-- A slab's first position leaves its addend. -/
theorem resetAt_apply (k : Fin 5) (p : Fin 8) (q : Fin 128) (n : ℕ) (h : n < cfg0.N) :
    comp (resetAt m c n h) k (ix2 p q) = addend m c k p q n := by
  refine (stepAt_apply m c k p q n h zero5).trans ?_
  rw [zero5_apply, zero_add]

/-- The fold over the positions `b … b + j` holds the sum of their addends. -/
theorem fold_apply (k : Fin 5) (p : Fin 8) (q : Fin 128) (b : ℕ) : ∀ (j : ℕ) (h : b + j < cfg0.N),
    comp (Pipeline.accAt (resetAt m c) (stepAt m c) b j h) k (ix2 p q)
      = ∑ s ∈ Finset.range (j + 1), addend m c k p q (b + s)
  | 0, h => by
    rw [Pipeline.accAt_zero, Finset.sum_range_one]
    exact resetAt_apply m c k p q b h
  | j + 1, h => by
    rw [Pipeline.accAt_succ, Finset.sum_range_succ _ (j + 1)]
    refine (stepAt_apply m c k p q _ h _).trans ?_
    rw [fold_apply k p q b j (Nat.lt_of_succ_lt h)]

/-! ### The region's output array and the five sums -/

/-- The output array at `(c', k, p, q)` is accumulator `k` of slab `c'`'s last position at `(p, q)`. -/
theorem OUT_apply (c' : Fin 2) (k : Fin 5) (p : Fin 8) (q : Fin 128) :
    OUT m c (ix4 c' k p q) = comp (accs m c (c'.val * 8 + 7) (lastPt_lt c')) k (ix2 p q) := by
  show View.canon (outPieces (accs m c (c'.val * 8 + 7) (lastPt_lt c'))) (ix4 0 k p q) = _
  exact outRead _ k p q

/-- The accumulators after a slab's last position are the fold over its eight row blocks. -/
theorem accs_last (c' : Fin 2) (h : 8 * c'.val + 7 < cfg0.N) :
    accs m c (c'.val * 8 + 7) (lastPt_lt c') = Pipeline.accAt (resetAt m c) (stepAt m c) (8 * c'.val) 7 h :=
  (accs_congr m c _ _ _ h (by omega)).trans
    (Pipeline.eq_accAt (accs m c) 8 (resetAt m c) (stepAt m c) (accs_reset m c) (accs_step m c) c'.val 7 (by decide) h)

/-- Entry `k` of the three host sums of the output array is the sum over the whole of the two argument arrays of the
    `k`-th quantity. -/
theorem sum5_OUT (k : Fin 5) :
    Sum5 (OUT m c) k = ∑ j : S16777216.Idx, quant k (argA m c j) (argB m c j) := by
  unfold Sum5
  rw [← Cert.Regroup.sum_regroup (fun j => quant k (argA m c j) (argB m c j))]
  refine Finset.sum_congr rfl fun c' _ => Finset.sum_congr rfl fun p _ => Finset.sum_congr rfl fun q _ => ?_
  have hN : cfg0.N = 16 := N_0
  have hc := c'.isLt
  have h7 : 8 * c'.val + 7 < cfg0.N := by omega
  calc OUT m c (ix4 c' k p q)
      = comp (accs m c (c'.val * 8 + 7) (lastPt_lt c')) k (ix2 p q) := OUT_apply m c c' k p q
    _ = comp (Pipeline.accAt (resetAt m c) (stepAt m c) (8 * c'.val) 7 h7) k (ix2 p q) := by rw [accs_last m c c' h7]
    _ = ∑ s ∈ Finset.range 8, addend m c k p q (8 * c'.val + s) := fold_apply m c k p q (8 * c'.val) 7 h7
    _ = ∑ i : Fin 8, addend m c k p q (8 * c'.val + i.val) := Cert.Regroup.sum_range_eight _
    _ = ∑ i : Fin 8, ∑ r : Fin 1024, quant k (argA m c (Cert.Regroup.J c' i r p q)) (argB m c (Cert.Regroup.J c' i r p q)) :=
        Finset.sum_congr rfl fun i _ => by
          have hi := i.isLt
          have h : 8 * c'.val + i.val < cfg0.N := by omega
          rw [addend_pos m c k p q _ h]
          exact Finset.sum_congr rfl fun r _ => block_term m c k c' i r p q h

theorem sum5_OUT0 : Sum5 (OUT m c) 0 = Cert.Spec.kS (argA m c) := (sum5_OUT m c 0).trans rfl
theorem sum5_OUT1 : Sum5 (OUT m c) 1 = Cert.Spec.kS (argB m c) := (sum5_OUT m c 1).trans rfl
theorem sum5_OUT2 : Sum5 (OUT m c) 2 = Cert.Spec.kQ (argA m c) (argA m c) := (sum5_OUT m c 2).trans rfl
theorem sum5_OUT3 : Sum5 (OUT m c) 3 = Cert.Spec.kQ (argB m c) (argB m c) := (sum5_OUT m c 3).trans rfl
theorem sum5_OUT4 : Sum5 (OUT m c) 4 = Cert.Spec.kQ (argA m c) (argB m c) := (sum5_OUT m c 4).trans rfl

/-- The later host lines applied to the region's output array give the kernel's formula of the two argument arrays. -/
theorem tail_OUT : tail (F := Ideal) (OUT m c) = fun _ => Cert.Spec.kOut (argA m c) (argB m c) := by
  rw [tail_ideal, sum5_OUT0, sum5_OUT1, sum5_OUT2, sum5_OUT3, sum5_OUT4]
  rfl

end Cert.KernelIdeal.Hand

end
-- ==== Proof.RefRun.lean ====
/-
  The reference's run.  Its @main calls the module-local function `@_std` twice (which calls
  `@_var`, which calls `@_where`); a call executes the callee's body on the operands, so @main is one straight
  line of 75 host operations: the callee's operations listed at each call site over that call's buffer record.
  The run of a straight line ends with every buffer at the fold of the operations' results over the launch
  contents; at the result buffer that fold is the composed function `refOut` of the two argument arrays, and
  the argument buffers are written by no operation.

  The composed function, in the program's own operations (`n` = 16777216, `ε` the float word nearest 0.001):
    `stdF x`  = √ (select (n - 1 > 0) (Σ (x - Σx / n)² / (n - 1)) NaN)          (`@_std`, `@_var`, `@_where`)
    `meanE x` = Σx / n + ε
    `covF a b` = Σ (a - meanE a) (b - meanE b) / 16777215
    `corF a b` = covF a b / (stdF a · stdF b + ε) + ε
    `refOut a b` = ½ · (corF a b)², reshaped to one element.
-/
import proofs.«126519_j28741921145436_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed function -/

/-- `@_var`'s mean, as it computes it: the sum broadcast to one element, divided by the broadcast count. -/
def meanB (x : FVec F S16777216 .f32) : FVec F S1 .f32 :=
  Host.divf (broadcastInDim S1 ![] bcast_S_S1 (Host.reduceAdd x (constant S_ .f32 0x00000000#32) reducesTo_S16777216_S_d0 h_S_))
    (broadcastInDim S1 ![] bcast_S_S1 (constant S_ .f32 0x4B800000#32))

/-- `@_var`'s centred array: `x - mean`, the mean broadcast along the array. -/
def dev (x : FVec F S16777216 .f32) : FVec F S16777216 .f32 :=
  subf x (broadcastInDim S16777216 ![0] bcast_S1_S16777216_0 (meanB x))

/-- `@_var`'s divisor: the count minus the correction `c` converted to a float. -/
def cnt (c : IVec S_ 32) : FVec F S_ .f32 :=
  subf (constant S_ .f32 0x4B800000#32) (sitofp .f32 c)

/-- `@_var`: the sum of squared deviations over the divisor where the divisor is positive, the NaN word elsewhere
    (`@_where`: its third operand converted to its own type, then the select). -/
def varF (x : FVec F S16777216 .f32) (c : IVec S_ 32) : FVec F S_ .f32 :=
  select (cmpf .ogt (cnt (F := F) c) (constant S_ .f32 0x00000000#32))
    (Host.divf (Host.reduceAdd (mulf (dev x) (dev x)) (constant S_ .f32 0x00000000#32) reducesTo_S16777216_S_d0 h_S_) (cnt c))
    (id (constant S_ .f32 0x7FC00000#32))

/-- `@_std`: the square root of `@_var`. -/
def stdF (x : FVec F S16777216 .f32) (c : IVec S_ 32) : FVec F S_ .f32 := Host.sqrt (varF x c)

/-- @main's shifted mean: `Σx / n + ε`. -/
def meanE (x : FVec F S16777216 .f32) : FVec F S_ .f32 :=
  addf (Host.divf (Host.reduceAdd x (constant S_ .f32 0x00000000#32) reducesTo_S16777216_S_d0 h_S_) (constant S_ .f32 0x4B800000#32))
    (constant S_ .f32 0x3A83126F#32)

/-- @main's covariance: `Σ (a - meanE a) (b - meanE b) / 16777215`. -/
def covF (a b : FVec F S16777216 .f32) : FVec F S_ .f32 :=
  Host.divf
    (Host.reduceAdd
      (mulf (subf a (broadcastInDim S16777216 ![] bcast_S_S16777216 (meanE a)))
        (subf b (broadcastInDim S16777216 ![] bcast_S_S16777216 (meanE b))))
      (constant S_ .f32 0x00000000#32) reducesTo_S16777216_S_d0 h_S_)
    (constant S_ .f32 0x4B7FFFFF#32)

/-- @main's correlation plus `ε`: `cov / (std₁ · std₂ + ε) + ε`, each standard deviation with the correction `1`. -/
def corF (a b : FVec F S16777216 .f32) : FVec F S_ .f32 :=
  addf
    (Host.divf (covF a b)
      (addf (mulf (stdF a (constantI S_ 32 1#32)) (stdF b (constantI S_ 32 1#32))) (constant S_ .f32 0x3A83126F#32)))
    (constant S_ .f32 0x3A83126F#32)

/-- What @main returns, as a function of its two argument arrays: `½ · cor²`, reshaped to one element. -/
def refOut (a b : FVec F S16777216 .f32) : FVec F S1 .f32 :=
  shapeCast S1 (mulf (constant S_ .f32 0x3F000000#32) (mulf (corF a b) (corF a b))) shapeCasts_S_S1

/-! ## @main as a list of operations -/

/-- @main's 75 operations, in order: thirteen of its own, the 21 of the first call of `@_std` (18 of `@_var`, 2 of
    `@_where`, the square root) over the record `main_call0`, the second correction constant, the 21 of the second call
    over `main_call1`, then @main's last nineteen. -/
abbrev ops : List (HloOp τ sig (Elt F)) :=
  [
    nullary main_cst (constant S_ .f32 0x00000000#32),
    binary main_arg0 main_cst main_v0 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    nullary main_cst_0 (constant S_ .f32 0x4B800000#32),
    binary main_v0 main_cst_0 main_v1 (Host.divf : (⟨S_, .f32⟩ : BufTy).Contents (Elt F) → (⟨S_, .f32⟩ : BufTy).Contents (Elt F) → (⟨S_, .f32⟩ : BufTy).Contents (Elt F)),
    nullary main_cst_1 (constant S_ .f32 0x3A83126F#32),
    binary main_v1 main_cst_1 main_v2 (addf : (⟨S_, .f32⟩ : BufTy).Contents (Elt F) → (⟨S_, .f32⟩ : BufTy).Contents (Elt F) → (⟨S_, .f32⟩ : BufTy).Contents (Elt F)),
    nullary main_cst_2 (constant S_ .f32 0x00000000#32),
    binary main_arg1 main_cst_2 main_v3 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    nullary main_cst_3 (constant S_ .f32 0x4B800000#32),
    binary main_v3 main_cst_3 main_v4 (Host.divf : (⟨S_, .f32⟩ : BufTy).Contents (Elt F) → (⟨S_, .f32⟩ : BufTy).Contents (Elt F) → (⟨S_, .f32⟩ : BufTy).Contents (Elt F)),
    nullary main_cst_4 (constant S_ .f32 0x3A83126F#32),
    binary main_v4 main_cst_4 main_v5 (addf : (⟨S_, .f32⟩ : BufTy).Contents (Elt F) → (⟨S_, .f32⟩ : BufTy).Contents (Elt F) → (⟨S_, .f32⟩ : BufTy).Contents (Elt F)),
    nullary main_c (constantI S_ 32 1#32),
    TRef.nullary main_call0.call0.cst (constant S_ .f32 0x00000000#32),
    TRef.binary (.of main_arg0) main_call0.call0.cst main_call0.call0.v0 (fun x v => Host.reduceAdd x v reducesTo_S16777216_S_d0 h_S_),
    TRef.unary main_call0.call0.v0 main_call0.call0.v1 (broadcastInDim S1 ![] bcast_S_S1),
    TRef.nullary main_call0.call0.cst_0 (constant S_ .f32 0x4B800000#32),
    TRef.unary main_call0.call0.cst_0 main_call0.call0.v2 (broadcastInDim S1 ![] bcast_S_S1),
    TRef.binary main_call0.call0.v1 main_call0.call0.v2 main_call0.call0.v3 Host.divf,
    TRef.unary main_call0.call0.v3 main_call0.call0.v4 (broadcastInDim S16777216 ![0] bcast_S1_S16777216_0),
    TRef.binary (.of main_arg0) main_call0.call0.v4 main_call0.call0.v5 subf,
    TRef.binary main_call0.call0.v5 main_call0.call0.v5 main_call0.call0.v6 mulf,
    TRef.unary (.of main_c) main_call0.call0.v7 (sitofp .f32),
    TRef.nullary main_call0.call0.cst_1 (constant S_ .f32 0x4B800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S16777216_S_d0 h_S_),
    TRef.binary main_call0.call0.v9 main_call0.call0.v8 main_call0.call0.v10 Host.divf,
    TRef.nullary main_call0.call0.cst_3 (constant S_ .f32 0x00000000#32),
    TRef.binary main_call0.call0.v8 main_call0.call0.cst_3 main_call0.call0.v11 (cmpf .ogt),
    TRef.nullary main_call0.call0.cst_4 (constant S_ .f32 0x7FC00000#32),
    TRef.unary main_call0.call0.cst_4 main_call0.call0.call0.v0 id,
    TRef.ternary main_call0.call0.v11 main_call0.call0.v10 main_call0.call0.call0.v0 main_call0.call0.call0.v1 select,
    TRef.unary main_call0.call0.call0.v1 main_call0.v1 Host.sqrt,
    nullary main_c_5 (constantI S_ 32 1#32),
    TRef.nullary main_call1.call0.cst (constant S_ .f32 0x00000000#32),
    TRef.binary (.of main_arg1) main_call1.call0.cst main_call1.call0.v0 (fun x v => Host.reduceAdd x v reducesTo_S16777216_S_d0 h_S_),
    TRef.unary main_call1.call0.v0 main_call1.call0.v1 (broadcastInDim S1 ![] bcast_S_S1),
    TRef.nullary main_call1.call0.cst_0 (constant S_ .f32 0x4B800000#32),
    TRef.unary main_call1.call0.cst_0 main_call1.call0.v2 (broadcastInDim S1 ![] bcast_S_S1),
    TRef.binary main_call1.call0.v1 main_call1.call0.v2 main_call1.call0.v3 Host.divf,
    TRef.unary main_call1.call0.v3 main_call1.call0.v4 (broadcastInDim S16777216 ![0] bcast_S1_S16777216_0),
    TRef.binary (.of main_arg1) main_call1.call0.v4 main_call1.call0.v5 subf,
    TRef.binary main_call1.call0.v5 main_call1.call0.v5 main_call1.call0.v6 mulf,
    TRef.unary (.of main_c_5) main_call1.call0.v7 (sitofp .f32),
    TRef.nullary main_call1.call0.cst_1 (constant S_ .f32 0x4B800000#32),
    TRef.binary main_call1.call0.cst_1 main_call1.call0.v7 main_call1.call0.v8 subf,
    TRef.nullary main_call1.call0.cst_2 (constant S_ .f32 0x00000000#32),
    TRef.binary main_call1.call0.v6 main_call1.call0.cst_2 main_call1.call0.v9 (fun x v => Host.reduceAdd x v reducesTo_S16777216_S_d0 h_S_),
    TRef.binary main_call1.call0.v9 main_call1.call0.v8 main_call1.call0.v10 Host.divf,
    TRef.nullary main_call1.call0.cst_3 (constant S_ .f32 0x00000000#32),
    TRef.binary main_call1.call0.v8 main_call1.call0.cst_3 main_call1.call0.v11 (cmpf .ogt),
    TRef.nullary main_call1.call0.cst_4 (constant S_ .f32 0x7FC00000#32),
    TRef.unary main_call1.call0.cst_4 main_call1.call0.call0.v0 id,
    TRef.ternary main_call1.call0.v11 main_call1.call0.v10 main_call1.call0.call0.v0 main_call1.call0.call0.v1 select,
    TRef.unary main_call1.call0.call0.v1 main_call1.v1 Host.sqrt,
    unary main_v2 main_v8 (broadcastInDim S16777216 ![] bcast_S_S16777216 : (⟨S_, .f32⟩ : BufTy).Contents (Elt F) → (⟨S16777216, .f32⟩ : BufTy).Contents (Elt F)),
    binary main_arg0 main_v8 main_v9 (subf : (⟨S16777216, .f32⟩ : BufTy).Contents (Elt F) → (⟨S16777216, .f32⟩ : BufTy).Contents (Elt F) → (⟨S16777216, .f32⟩ : BufTy).Contents (Elt F)),
    unary main_v5 main_v10 (broadcastInDim S16777216 ![] bcast_S_S16777216 : (⟨S_, .f32⟩ : BufTy).Contents (Elt F) → (⟨S16777216, .f32⟩ : BufTy).Contents (Elt F)),
    binary main_arg1 main_v10 main_v11 (subf : (⟨S16777216, .f32⟩ : BufTy).Contents (Elt F) → (⟨S16777216, .f32⟩ : BufTy).Contents (Elt F) → (⟨S16777216, .f32⟩ : BufTy).Contents (Elt F)),
    binary main_v9 main_v11 main_v12 (mulf : (⟨S16777216, .f32⟩ : BufTy).Contents (Elt F) → (⟨S16777216, .f32⟩ : BufTy).Contents (Elt F) → (⟨S16777216, .f32⟩ : BufTy).Contents (Elt F)),
    nullary main_cst_6 (constant S_ .f32 0x00000000#32),
    binary main_v12 main_cst_6 main_v13 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    nullary main_cst_7 (constant S_ .f32 0x4B7FFFFF#32),
    binary main_v13 main_cst_7 main_v14 (Host.divf : (⟨S_, .f32⟩ : BufTy).Contents (Elt F) → (⟨S_, .f32⟩ : BufTy).Contents (Elt F) → (⟨S_, .f32⟩ : BufTy).Contents (Elt F)),
    binary main_v6 main_v7 main_v15 (mulf : (⟨S_, .f32⟩ : BufTy).Contents (Elt F) → (⟨S_, .f32⟩ : BufTy).Contents (Elt F) → (⟨S_, .f32⟩ : BufTy).Contents (Elt F)),
    nullary main_cst_8 (constant S_ .f32 0x3A83126F#32),
    binary main_v15 main_cst_8 main_v16 (addf : (⟨S_, .f32⟩ : BufTy).Contents (Elt F) → (⟨S_, .f32⟩ : BufTy).Contents (Elt F) → (⟨S_, .f32⟩ : BufTy).Contents (Elt F)),
    binary main_v14 main_v16 main_v17 (Host.divf : (⟨S_, .f32⟩ : BufTy).Contents (Elt F) → (⟨S_, .f32⟩ : BufTy).Contents (Elt F) → (⟨S_, .f32⟩ : BufTy).Contents (Elt F)),
    nullary main_cst_9 (constant S_ .f32 0x3A83126F#32),
    binary main_v17 main_cst_9 main_v18 (addf : (⟨S_, .f32⟩ : BufTy).Contents (Elt F) → (⟨S_, .f32⟩ : BufTy).Contents (Elt F) → (⟨S_, .f32⟩ : BufTy).Contents (Elt F)),
    binary main_v18 main_v18 main_v19 (mulf : (⟨S_, .f32⟩ : BufTy).Contents (Elt F) → (⟨S_, .f32⟩ : BufTy).Contents (Elt F) → (⟨S_, .f32⟩ : BufTy).Contents (Elt F)),
    nullary main_cst_10 (constant S_ .f32 0x3F000000#32),
    binary main_cst_10 main_v19 main_v20 (mulf : (⟨S_, .f32⟩ : BufTy).Contents (Elt F) → (⟨S_, .f32⟩ : BufTy).Contents (Elt F) → (⟨S_, .f32⟩ : BufTy).Contents (Elt F)),
    reshape main_v20 main_v21 rfl shapeCasts_S_S1 ]

-- the chain of seventy-five binds is re-associated one statement at a time
set_option maxRecDepth 4096 in
set_option maxHeartbeats 2000000 in
/-- @main is that straight line: the functions' definitions unfolded at their calls and the records at their fields, both
    sides are one chain of `hlo` steps once sequencing is reassociated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., binary_bufs_sub .., nullary_bufs_sub .., binary_bufs_sub .., nullary_bufs_sub .., binary_bufs_sub ..,
    nullary_bufs_sub .., binary_bufs_sub .., nullary_bufs_sub .., binary_bufs_sub .., nullary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., binary_bufs_sub .., nullary_bufs_sub .., binary_bufs_sub ..,
    nullary_bufs_sub .., unary_bufs_sub .., ternary_bufs_sub .., unary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., binary_bufs_sub .., nullary_bufs_sub .., binary_bufs_sub .., nullary_bufs_sub .., unary_bufs_sub ..,
    ternary_bufs_sub .., unary_bufs_sub .., unary_bufs_sub .., binary_bufs_sub .., unary_bufs_sub .., binary_bufs_sub ..,
    binary_bufs_sub .., nullary_bufs_sub .., binary_bufs_sub .., nullary_bufs_sub .., binary_bufs_sub .., binary_bufs_sub ..,
    nullary_bufs_sub .., binary_bufs_sub .., binary_bufs_sub .., nullary_bufs_sub .., binary_bufs_sub .., binary_bufs_sub ..,
    nullary_bufs_sub .., binary_bufs_sub .., reshape_bufs_sub ..⟩

/-! ## The fold at the result and at the arguments -/

set_option maxRecDepth 8192 in
set_option maxHeartbeats 2000000 in
/-- The fold at the result buffer is `refOut` of the argument buffers' contents: each operation's result at its own
    buffer is its function's value and at any other buffer what was there; the typed references' transports are the
    identity at these literal references. -/
theorem out_eq (V : Valuation τ sig (Elt F)) :
    after ops V (main_v21 : DevRef τ sig) = refOut (V (main_arg0 : DevRef τ sig)) (V (main_arg1 : DevRef τ sig)) := by
  after_results_simp
  rfl

set_option maxRecDepth 8192 in
set_option maxHeartbeats 2000000 in
/-- No operation writes the first argument. -/
theorem arg0_eq (V : Valuation τ sig (Elt F)) :
    after ops V (main_arg0 : DevRef τ sig) = V (main_arg0 : DevRef τ sig) := by
  after_results_simp

set_option maxRecDepth 8192 in
set_option maxHeartbeats 2000000 in
/-- No operation writes the second argument. -/
theorem arg1_eq (V : Valuation τ sig (Elt F)) :
    after ops V (main_arg1 : DevRef τ sig) = V (main_arg1 : DevRef τ sig) := by
  after_results_simp

/-! ## The run -/

/-- On every device, for any float values, from any memory with zero counters: every weakly fair execution of @main
    terminates with the result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v21).trans (out_eq _), (h c main_arg0).trans (arg0_eq _),
      (h c main_arg1).trans (arg1_eq _)⟩)
    (run_seq scopedRefs_eq scopedSems_eq defs main (fun _ => ops) main_eq (fun _ => ops_sub) m ρ)

end Cert.ReferenceIdeal.RefRun

end
-- ==== Proof.Consts.lean ====
/-
  The float words of this certificate as the extended reals they denote.

  Every word is read here and nowhere else: `16777216`, `1`, `½` and `16777215` are reals with those values, the
  word nearest `0.001` is a real whose value is never needed, and `0x7F800000` is `+∞`.
-/
import proofs.«126519_j28741921145436_2_alg».proof.Proof.Spec

noncomputable section

namespace Cert.Spec

open Idealize.ShloMosaic

theorem nF_eq : nF = ((16777216 : ℝ) : EReal) := by
  simp [nF, Ideal.ofBits, Ideal.ieee, -EReal.coe_mul]; norm_num

theorem one_eq : one = ((1 : ℝ) : EReal) := by
  simp [one, Ideal.ofBits, Ideal.ieee, -EReal.coe_mul]; norm_num

theorem half_eq : half = ((1 / 2 : ℝ) : EReal) := by
  simp [half, Ideal.ofBits, Ideal.ieee, -EReal.coe_mul]; norm_num

theorem nm1_eq : nm1 = ((16777215 : ℝ) : EReal) := by
  simp [nm1, Ideal.ofBits, Ideal.ieee, -EReal.coe_mul]

/-- The word of `ε` denotes a real; its value is never needed. -/
theorem eps_real : ∃ e : ℝ, eps = (e : EReal) := by
  simp [eps, Ideal.ofBits, Ideal.ieee, -EReal.coe_mul]

/-- `n - 1` as computed from the two words is the real `16777215`. -/
theorem nF_sub_one : nF - one = ((16777215 : ℝ) : EReal) := by
  rw [nF_eq, one_eq, ← EReal.coe_sub]; norm_num

/-- The word `0x7F800000` denotes `+∞`. -/
theorem ofBits_inf : Ideal.ofBits .f32 0x7F800000#32 = ⊤ := by
  simp [Ideal.ofBits, Ideal.ieee]

end Cert.Spec

end
-- ==== Proof.RefValue.lean ====
/-
  The reference's value at the ideal instance.  The composed function `refOut` of the reference's run
  (RefRun.lean) is, at its one element, the specification's `rOut` of the two argument arrays (Spec.lean), the sums
  ranging over the arrays' own index type:

  * a host sum of a whole array from the zero word is the sum of its elements; a scalar broadcast reads the scalar at
    every index, a one-element array broadcast reads its element;
  * `@_var`'s correction, the integer `1` converted to a float, is the extended real one, as the float word of `1` is, so
    its divisor is `n - 1 = 16777215 > 0`: the comparison holds and the select returns the quotient
    `Σ (x - Σx / n)² / (n - 1)`, the specification's `rVar`;
  * @main's covariance `Σ (a - (Σa / n + ε)) (b - (Σb / n + ε)) / 16777215` is the specification's `rCov`;
  * the last steps `½ · (cov / (√var₁ · √var₂ + ε) + ε)²` are the specification's `loss`.
-/
import proofs.«126519_j28741921145436_2_alg».proof.Proof.RefRun
import proofs.«126519_j28741921145436_2_alg».proof.Proof.Consts
import Idealize.ShloMosaic.Lib.IdealHost

noncomputable section

namespace Cert.ReferenceIdeal.RefValue

open Cert.ReferenceIdeal Cert.ReferenceIdeal.Gen Cert.ReferenceIdeal.RefRun Idealize.ShloMosaic Idealize.ShloMosaic.ValueIdx
open scoped BigOperators

/-! ## The operations read at an index -/

/-- A scalar broadcast along the array reads the scalar at every index. -/
theorem bcastS_apply (x : FVec Ideal S_ .f32) (i : S16777216.Idx) :
    broadcastInDim S16777216 ![] bcast_S_S16777216 x i = x ix0 := broadcastInDim_scalar_apply _ x i

/-- A scalar broadcast to one element reads the scalar. -/
theorem bcastS1_apply (x : FVec Ideal S_ .f32) (i : S1.Idx) :
    broadcastInDim S1 ![] bcast_S_S1 x i = x ix0 := broadcastInDim_scalar_apply _ x i

/-- A one-element array broadcast along the array reads its element at every index. -/
theorem bcast1_apply (y : FVec Ideal S1 .f32) (i : S16777216.Idx) :
    broadcastInDim S16777216 ![0] bcast_S1_S16777216_0 y i = y (ix1 0) := by
  unfold broadcastInDim
  congr 1
  funext a
  fin_cases a
  rfl

/-- A host sum of a whole rank-1 array from the zero word, at the one index of the rank-0 result: the sum of the
    array's elements. -/
theorem sum_apply (x : FVec Ideal S16777216 .f32) (j : S_.Idx) :
    Host.reduceAdd (F := Ideal) x (constant (F := Ideal) S_ .f32 0x00000000#32) reducesTo_S16777216_S_d0 h_S_ j = ∑ i, x i := by
  rw [hostReduceAdd_apply, Ideal.hostReduceAdd_total _ (fun b => b.elim0), constant_apply, Ideal.ofBits_zero_f32, zero_add]

/-! ## The stages -/

/-- @main's shifted mean at its one index: `Σx / n + ε`. -/
theorem meanE_apply (x : FVec Ideal S16777216 .f32) (j : S_.Idx) :
    meanE (F := Ideal) x j = Ideal.div (∑ k, x k) Cert.Spec.nF + Cert.Spec.eps := by
  unfold meanE
  rw [addf_apply, hostDivf_apply, sum_apply, constant_apply, constant_apply]
  rfl

/-- @main's covariance at its one index. -/
theorem covF_apply (a b : FVec Ideal S16777216 .f32) (j : S_.Idx) :
    covF (F := Ideal) a b j = Cert.Spec.rCov a b := by
  unfold covF Cert.Spec.rCov
  rw [hostDivf_apply, sum_apply, constant_apply]
  refine congrArg₂ Ideal.div (Finset.sum_congr rfl fun i _ => ?_) rfl
  rw [mulf_apply, subf_apply, subf_apply, bcastS_apply, bcastS_apply, meanE_apply, meanE_apply]

/-- `@_var`'s mean at its one element: `Σx / n`. -/
theorem meanB_apply (x : FVec Ideal S16777216 .f32) (k : S1.Idx) :
    meanB (F := Ideal) x k = Ideal.div (∑ i, x i) Cert.Spec.nF := by
  unfold meanB
  rw [hostDivf_apply, bcastS1_apply, bcastS1_apply, sum_apply, constant_apply]
  rfl

/-- `@_var`'s centred array at an index: `x i - Σx / n`. -/
theorem dev_apply (x : FVec Ideal S16777216 .f32) (i : S16777216.Idx) :
    dev (F := Ideal) x i = x i - Ideal.div (∑ k, x k) Cert.Spec.nF := by
  unfold dev
  rw [subf_apply, bcast1_apply, meanB_apply]

/-- The integer word `1` converted to a float is the float word of `1`: both are the extended real one. So `@_var`'s
    divisor with the correction `1` is `n - 1`. -/
theorem cnt_apply (j : S_.Idx) :
    cnt (F := Ideal) (constantI S_ 32 1#32) j = Cert.Spec.nF - Cert.Spec.one := by
  unfold cnt
  rw [subf_apply, constant_apply, sitofp_apply, Cert.Spec.one_eq]
  show Ideal.ofBits .f32 0x4B800000#32 - ((((1#32 : BitVec 32).toInt : ℤ) : ℝ) : EReal) = _
  rw [show (1#32 : BitVec 32).toInt = 1 by decide, Int.cast_one]
  rfl

/-- The divisor `n - 1` is positive, so `@_var`'s comparison holds. -/
theorem cmp_cnt : FloatOps.cmpf (F := Ideal) (φ := .f32) .ogt (Cert.Spec.nF - Cert.Spec.one) 0 = 1#1 := by
  rw [Cert.Spec.nF_sub_one]
  have h : (0 : EReal) < ((16777215 : ℝ) : EReal) := by exact_mod_cast (by norm_num : (0 : ℝ) < 16777215)
  show BitVec.ofBool (decide ((0 : EReal) < ((16777215 : ℝ) : EReal))) = 1#1
  rw [decide_eq_true h]
  rfl

/-- `@_var` with the correction `1`, at its one index: the select takes the quotient, which is the reference variance
    `Σ (x - Σx / n)² / (n - 1)`. -/
theorem varF_apply (x : FVec Ideal S16777216 .f32) (j : S_.Idx) :
    varF (F := Ideal) x (constantI S_ 32 1#32) j = Cert.Spec.rVar x := by
  unfold varF Cert.Spec.rVar
  rw [select_apply, cmpf_apply, cnt_apply, constant_apply, Ideal.ofBits_zero_f32, cmp_cnt, select_one, hostDivf_apply,
    sum_apply, cnt_apply]
  refine congrArg₂ Ideal.div (Finset.sum_congr rfl fun i _ => ?_) rfl
  rw [mulf_apply, dev_apply]

/-- `@_std` with the correction `1`: the square root of the reference variance. -/
theorem stdF_apply (x : FVec Ideal S16777216 .f32) (j : S_.Idx) :
    stdF (F := Ideal) x (constantI S_ 32 1#32) j = Ideal.sqrt (Cert.Spec.rVar x) := by
  unfold stdF
  show Ideal.sqrt (varF (F := Ideal) x (constantI S_ 32 1#32) j) = _
  rw [varF_apply]

/-- @main's correlation plus `ε` at its one index. -/
theorem corF_apply (a b : FVec Ideal S16777216 .f32) (j : S_.Idx) :
    corF (F := Ideal) a b j
      = Ideal.div (Cert.Spec.rCov a b) (Ideal.sqrt (Cert.Spec.rVar a) * Ideal.sqrt (Cert.Spec.rVar b) + Cert.Spec.eps)
        + Cert.Spec.eps := by
  unfold corF
  rw [addf_apply, hostDivf_apply, covF_apply, addf_apply, mulf_apply, stdF_apply, stdF_apply, constant_apply]
  rfl

/-! ## The value -/

/-- What the reference returns is, at its one element, the specification's `rOut` of the two arrays (the sums over the
    arrays' own index type). -/
theorem refOut_eq (a b : FVec Ideal S16777216 .f32) :
    refOut (F := Ideal) a b = fun _ => Cert.Spec.rOut a b := by
  funext i
  unfold refOut
  show mulf (F := Ideal) (constant S_ .f32 0x3F000000#32) (mulf (corF a b) (corF a b)) (Shape.reshapeEquiv shapeCasts_S_S1 i)
    = Cert.Spec.rOut a b
  rw [mulf_apply, mulf_apply, constant_apply, corF_apply]
  rfl

/-! ## The run, with the result as the specification's value -/

open Idealize.ShloMosaic.TcCoe Idealize.SL.Sem in
/-- At the ideal instance, from any memory with zero counters: every weakly fair execution of @main terminates with the
    result's one element at the specification's `rOut` of the argument arrays and the arguments unchanged. -/
theorem run_rOut (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v21)
          = (fun _ => Cert.Spec.rOut (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (refOut_eq _ _), (h c).2⟩) (RefRun.run (F := Ideal) m ρ)

end Cert.ReferenceIdeal.RefValue

end
-- ==== Proof.Bridge.lean ====
/-
  The algebra joining the two ways of computing the moments.

  For real arrays `x y` over an index type with `n = 16777216` elements, with `h = ½`,
  `s₁ = Σ (x - h)`, `q₁ = Σ (x - h)²`, `p = Σ (x - h)(y - h)`:

  * `Σ (x - Σx / n)² = q₁ - s₁² / n`, because `Σx / n = h + s₁ / n`;
  * `Σ (x - (Σx / n + ε)) (y - (Σy / n + ε)) = p - μ₂ s₁ - μ₁ s₂ + n μ₁ μ₂` with `μ = s / n + ε`.

  So the shifted-sum formulas and the mean-centred formulas give the same two variances and the same
  covariance, and the shared last steps are applied to equal arguments.  Every input element is a real
  (neither infinity), so every quantity below is the image of a real and the identities are proved in `ℝ`.  The reals
  the float words denote are proved in the imported module of constants.
-/
import proofs.«126519_j28741921145436_2_alg».proof.Proof.Consts

noncomputable section

namespace Cert.Spec

open Idealize.ShloMosaic

/-! ### Reals inside the extended reals -/

theorem coe_sum {ι : Type} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The quotient of two reals, the divisor not zero, is the real quotient. -/
theorem div_coe_coe (x y : ℝ) (h : y ≠ 0) : Ideal.div (x : EReal) (y : EReal) = ((x / y : ℝ) : EReal) := by
  rw [Ideal.div_coe h, ← EReal.coe_mul, mul_one_div]

/-! ### The two identities in `ℝ` -/

section Real

variable {ι : Type} [Fintype ι]

/-- `Σ (u - c)(v - d) = Σ u v - d Σ u - c Σ v + n c d`. -/
theorem sum_sub_mul_sub (u v : ι → ℝ) (c d : ℝ) :
    ∑ j, (u j - c) * (v j - d)
      = ∑ j, u j * v j - d * ∑ j, u j - c * ∑ j, v j + (Fintype.card ι : ℝ) * (c * d) := by
  have h : ∀ j, (u j - c) * (v j - d) = u j * v j - d * u j - c * v j + c * d := fun j => by ring
  simp only [h]
  rw [Finset.sum_add_distrib, Finset.sum_sub_distrib, Finset.sum_sub_distrib, ← Finset.mul_sum,
    ← Finset.mul_sum, Finset.sum_const, Finset.card_univ, nsmul_eq_mul]

/-- `Σ (u - c) = Σ u - n c`. -/
theorem sum_sub_const (u : ι → ℝ) (c : ℝ) : ∑ j, (u j - c) = ∑ j, u j - (Fintype.card ι : ℝ) * c := by
  rw [Finset.sum_sub_distrib, Finset.sum_const, Finset.card_univ, nsmul_eq_mul]

/-- The variance from the shifted sums is the mean-centred variance. -/
theorem var_real (hcard : Fintype.card ι = 16777216) (x : ι → ℝ) :
    (∑ j, (x j - 1 / 2) * (x j - 1 / 2) - (∑ j, (x j - 1 / 2)) * (∑ j, (x j - 1 / 2)) / 16777216) / 16777215
      = (∑ j, (x j - (∑ k, x k) / 16777216) * (x j - (∑ k, x k) / 16777216)) / 16777215 := by
  have hc : (Fintype.card ι : ℝ) = 16777216 := by rw [hcard]; norm_num
  rw [sum_sub_mul_sub, sum_sub_mul_sub, sum_sub_const, hc]
  ring

/-- The covariance from the shifted sums is the mean-centred covariance, for any offset `e`. -/
theorem cov_real (hcard : Fintype.card ι = 16777216) (x y : ι → ℝ) (e : ℝ) :
    (((∑ j, (x j - 1 / 2) * (y j - 1 / 2) - ((∑ j, (y j - 1 / 2)) / 16777216 + e) * ∑ j, (x j - 1 / 2))
        - ((∑ j, (x j - 1 / 2)) / 16777216 + e) * ∑ j, (y j - 1 / 2))
        + (16777216 * ((∑ j, (x j - 1 / 2)) / 16777216 + e)) * ((∑ j, (y j - 1 / 2)) / 16777216 + e)) / 16777215
      = (∑ j, (x j - ((∑ k, x k) / 16777216 + e)) * (y j - ((∑ k, y k) / 16777216 + e))) / 16777215 := by
  have hc : (Fintype.card ι : ℝ) = 16777216 := by rw [hcard]; norm_num
  rw [sum_sub_mul_sub, sum_sub_mul_sub, sum_sub_const, sum_sub_const, hc]
  ring

end Real

/-! ### The two sides agree -/

variable {ι : Type} [Fintype ι]

theorem kS_coe (x : ι → ℝ) : kS (fun j => (x j : EReal)) = ((∑ j, (x j - 1 / 2) : ℝ) : EReal) := by
  unfold kS
  rw [half_eq]
  simp only [← EReal.coe_sub, ← coe_sum]

theorem kQ_coe (x y : ι → ℝ) :
    kQ (fun j => (x j : EReal)) (fun j => (y j : EReal)) = ((∑ j, (x j - 1 / 2) * (y j - 1 / 2) : ℝ) : EReal) := by
  unfold kQ
  rw [half_eq]
  simp only [← EReal.coe_sub, ← EReal.coe_mul, ← coe_sum]

theorem kVar_eq_rVar (hcard : Fintype.card ι = 16777216) (x : ι → ℝ) :
    kVar (kS (fun j => (x j : EReal))) (kQ (fun j => (x j : EReal)) (fun j => (x j : EReal)))
      = rVar (fun j => (x j : EReal)) := by
  have hN : (16777216 : ℝ) ≠ 0 := by norm_num
  have hM : (16777215 : ℝ) ≠ 0 := by norm_num
  rw [kS_coe, kQ_coe]
  unfold kVar rVar
  rw [nF_sub_one, nF_eq]
  simp only [← coe_sum, div_coe_coe _ _ hN, div_coe_coe _ _ hM, ← EReal.coe_sub, ← EReal.coe_mul]
  rw [var_real hcard x]

theorem kCov_eq_rCov (hcard : Fintype.card ι = 16777216) (x y : ι → ℝ) :
    kCov (kS (fun j => (x j : EReal))) (kS (fun j => (y j : EReal)))
        (kQ (fun j => (x j : EReal)) (fun j => (y j : EReal)))
      = rCov (fun j => (x j : EReal)) (fun j => (y j : EReal)) := by
  have hN : (16777216 : ℝ) ≠ 0 := by norm_num
  have hM : (16777215 : ℝ) ≠ 0 := by norm_num
  obtain ⟨e, he⟩ := eps_real
  rw [kS_coe, kS_coe, kQ_coe]
  unfold kCov rCov
  rw [nF_sub_one, nm1_eq, nF_eq, he]
  simp only [← coe_sum, div_coe_coe _ _ hN, div_coe_coe _ _ hM, ← EReal.coe_sub, ← EReal.coe_mul,
    ← EReal.coe_add]
  rw [cov_real hcard x y e]

/-- The kernel's formula and the reference's formula agree on real arrays of `16777216` elements. -/
theorem bridge_real (hcard : Fintype.card ι = 16777216) (x y : ι → ℝ) :
    kOut (fun j => (x j : EReal)) (fun j => (y j : EReal))
      = rOut (fun j => (x j : EReal)) (fun j => (y j : EReal)) := by
  unfold kOut rOut
  rw [kVar_eq_rVar hcard x, kVar_eq_rVar hcard y, kCov_eq_rCov hcard x y]

/-- The same for arrays of extended reals none of whose elements is an infinity. -/
theorem bridge (hcard : Fintype.card ι = 16777216) (a b : ι → EReal)
    (ha : ∀ j, a j ≠ ⊤ ∧ a j ≠ ⊥) (hb : ∀ j, b j ≠ ⊤ ∧ b j ≠ ⊥) : kOut a b = rOut a b := by
  have ha' : a = fun j => (((a j).toReal : ℝ) : EReal) :=
    funext fun j => (EReal.coe_toReal (ha j).1 (ha j).2).symm
  have hb' : b = fun j => (((b j).toReal : ℝ) : EReal) :=
    funext fun j => (EReal.coe_toReal (hb j).1 (hb j).2).symm
  rw [ha', hb']
  exact bridge_real hcard _ _

end Cert.Spec

end
-- ==== Proof.Finite.lean ====
/-
  From the precondition to the finiteness of every input element.

  The precondition says, of each of the two arrays, that `|x| < +∞` holds at every element (a comparison against the
  word of `+∞`, reduced by `and` over the whole array), and takes the `and` of the two answers.  An extended real
  whose absolute value `max x (-x)` is below `⊤` is neither `⊤` nor `⊥`: at `⊤` the maximum is `⊤`, and at `⊥`
  the negation is `⊤`, so the maximum is `⊤` again.
-/
import proofs.«126519_j28741921145436_2_alg».proof.Pre_finite_inputs
import proofs.«126519_j28741921145436_2_alg».proof.Proof.Consts
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic

/-- The result of a reduction over every axis has a single index. -/
instance : Subsingleton Cert.Pre_finite_inputs.S_.Idx := ⟨fun a b => funext fun d => d.elim0⟩

/-- The arrays have `16777216` elements. -/
theorem card_idx : Fintype.card Cert.Pre_finite_inputs.S16777216.Idx = 16777216 := by
  rw [Shape.card_idx]; rfl

/-- A one-bit word made from a Boolean is `1` exactly when the Boolean is true. -/
theorem ofBool_eq_one {b : Bool} : BitVec.ofBool b = 1#1 ↔ b = true := by cases b <;> decide

/-- An element whose absolute value compares below `+∞` is neither infinity. -/
theorem finite_of_abs_lt (x : EReal)
    (h : FloatOps.cmpf (F := Ideal) (φ := .f32) .olt (FloatOps.hostAbsf (F := Ideal) (φ := .f32) x)
      (FloatOps.ofBits (F := Ideal) .f32 0x7F800000#32) = 1#1) : x ≠ ⊤ ∧ x ≠ ⊥ := by
  have h' : max x (-x) < ⊤ := by
    have := ofBool_eq_one.1 h
    rw [← Cert.Spec.ofBits_inf]
    exact of_decide_eq_true this
  constructor
  · rintro rfl
    simp at h'
  · rintro rfl
    simp at h'

/-- Under the precondition every element of both arrays is a real. -/
theorem finite_of_pre [Cert.Pre_finite_inputs.Facts]
    (x y : FVec Ideal Cert.Pre_finite_inputs.S16777216 .f32)
    (h : Cert.Pre_finite_inputs.fn (F := Ideal) x y = fun _ => 1#1) :
    (∀ j, x j ≠ ⊤ ∧ x j ≠ ⊥) ∧ (∀ j, y j ≠ ⊤ ∧ y j ≠ ⊥) := by
  have h0 := congrFun h ValueIdx.ix0
  dsimp only [Cert.Pre_finite_inputs.fn] at h0
  obtain ⟨h1, h2⟩ := IntOp.andi_eq_one.1 h0
  refine ⟨fun j => ?_, fun j => ?_⟩
  · exact finite_of_abs_lt (x j) (Host.reduce_andi_all _ _ _ _ _ h1 j)
  · exact finite_of_abs_lt (y j) (Host.reduce_andi_all _ _ _ _ _ h2 j)

end Cert.Finite

end
-- ==== Proof.lean ====
/-
  The certificate's five claims.

  The kernel computes the squared-correlation loss of two arrays of 16777216 floats from five sums of the arrays
  shifted by ½, accumulated block by block over a 2 × 8 grid and finished by scalar host arithmetic; the reference
  computes the same loss from the means, the mean-centred variances and the covariance about mean + ε.

  * Frames.  Each of the three programs runs to its end on every weakly fair execution and leaves its two argument
    arrays as launched: for the kernel (read at the word level and at the extended reals) by the run of its one region
    between the host lines before and after it; for the reference by its straight-line run.
  * The idealized kernel is the kernel's own text read at the extended reals: nothing was rewritten.
  * Equal results.  At the extended reals the kernel's result is `Spec.kOut` of the two arrays (the five shifted sums,
    regrouped from the grid's order into one sum over the flat index, then the expanded moment formulas) and the
    reference's is `Spec.rOut` (the centred formulas).  For finite inputs every sum is a real number, and the two
    agree by the identities  Σ (x - x̄)² = Σ (x - ½)² - (Σ (x - ½))² / n  and
    Σ (x - (x̄ + ε)) (y - (ȳ + ε)) = p - μ₂ s₁ - μ₁ s₂ + n μ₁ μ₂  with  μ = s / n + ε,  s = Σ (x - ½);  the remaining
    steps (square roots, the quotient, the square) are the same function of equal arguments.
-/
import proofs.«126519_j28741921145436_2_alg».proof.Defs
import proofs.«126519_j28741921145436_2_alg».proof.Proof.Gen.Kernel
import proofs.«126519_j28741921145436_2_alg».proof.Proof.Gen.KernelIdeal
import proofs.«126519_j28741921145436_2_alg».proof.Proof.Gen.ReferenceIdeal
import proofs.«126519_j28741921145436_2_alg».proof.Proof.Gen.Pre_finite_inputs
import proofs.«126519_j28741921145436_2_alg».proof.Proof.BitsFrame
import proofs.«126519_j28741921145436_2_alg».proof.Proof.IdealSum
import proofs.«126519_j28741921145436_2_alg».proof.Proof.RefValue
import proofs.«126519_j28741921145436_2_alg».proof.Proof.Bridge
import proofs.«126519_j28741921145436_2_alg».proof.Proof.Finite
import proofs.«126519_j28741921145436_2_alg».proof.Proof.Regroup

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end at the same extended real: the kernel at `kOut` of its arguments, the reference at `rOut` of
    arguments that agree, and for finite arrays the two are equal. -/
theorem algebraic : Cert.algebraic_KernelIdeal_ReferenceIdeal := by
  intro m ρ m' ρ' hpre hagree
  refine ⟨fun c => fun _ => Cert.Spec.kOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.tail_OUT m c), (h c).2⟩)
      (Cert.KernelIdeal.Hand.run_tail (F := Ideal) m ρ)
  · refine (θ_run Cert.ReferenceIdeal.defs _ _).mono (fun _ h c => ⟨(h c).1.trans ?_, (h c).2⟩)
      (Cert.ReferenceIdeal.RefValue.run_rOut m' ρ')
    obtain ⟨ha, hb⟩ := Cert.Finite.finite_of_pre _ _ (hpre c)
    rw [(hagree c).1, (hagree c).2]
    exact congrArg (fun v => fun _ => v) (Cert.Spec.bridge Cert.Regroup.card_SN _ _ ha hb).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
